-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v94)) (v1 : (c : Dev Cert.KernelIdeal.nD) → Buf (Elt Ideal) ((c.tc : Thread Cert.KernelIdeal.nD Cert.KernelIdeal.τ).loc Cert.KernelIdeal.main_v98)) (v2 : (c : Dev Cert.KernelIdeal.nD) → Buf (Elt Ideal) ((c.tc : Thread Cert.KernelIdeal.nD Cert.KernelIdeal.τ).loc Cert.KernelIdeal.main_v0)) (v3 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_v98) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_v100) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S128 : Shape := ⟨1, ![128]⟩
abbrev S2048x2048 : Shape := ⟨2, ![2048, 2048]⟩
abbrev S2048x256 : Shape := ⟨2, ![2048, 256]⟩
abbrev S2048 : Shape := ⟨1, ![2048]⟩
abbrev S256x64000 : Shape := ⟨2, ![256, 64000]⟩
abbrev S_ : Shape := ⟨0, ![]⟩

class Facts : Prop where
  bcast_S_S128x2048 : S_.BroadcastsInDim S128x2048 (![] : Fin 0 → Fin S128x2048.rank)
  reducesTo_S128x2048_S_d0_1 : S128x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x256 : S_.BroadcastsInDim S2048x256 (![] : Fin 0 → Fin S2048x256.rank)
  reducesTo_S2048x256_S_d0_1 : S2048x256.ReducesTo [0, 1] S_
  bcast_S_S2048 : S_.BroadcastsInDim S2048 (![] : Fin 0 → Fin S2048.rank)
  reducesTo_S2048_S_d0 : S2048.ReducesTo [0] S_
  bcast_S_S256x64000 : S_.BroadcastsInDim S256x64000 (![] : Fin 0 → Fin S256x64000.rank)
  reducesTo_S256x64000_S_d0_1 : S256x64000.ReducesTo [0, 1] S_

variable [Facts]

def fn_part3 {F : FTy → Type} [FloatOps F] (main_arg12 : FVec F S2048 .f32) (main_arg13 : FVec F S256x64000 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg12
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S256x64000 .f32 := Host.absf main_arg13
  let main_cst_22 : FVec F S_ .f32 := constant S_ .f32 0x7F800000#32
  let main_v60 : FVec F S256x64000 .f32 := broadcastInDim S256x64000 ![] bcast_S_S256x64000 main_cst_22
  let main_v61 : IVec S256x64000 1 := cmpf .olt main_v59 main_v60
  let main_c_23 : IVec S_ 1 := constantI S_ 1 1#1
  let main_v62 : IVec S_ 1 := (fun x v => Host.reduce IntOp.andi x v reducesTo_S256x64000_S_d0_1 h_S_) main_v61 main_c_23
  let main_v63 : IVec S_ 1 := andi main_v58 main_v62
  main_v63

def fn_part2 {F : FTy → Type} [FloatOps F] (main_arg8 : FVec F S2048x256 .f32) (main_arg9 : FVec F S2048x2048 .f32) (main_arg10 : FVec F S2048 .f32) (main_arg11 : FVec F S2048x2048 .f32) (main_arg12 : FVec F S2048 .f32) (main_arg13 : FVec F S256x64000 .f32) (main_v33 : IVec S_ 1) : IVec S_ 1 :=
  let main_v34 : FVec F S2048x256 .f32 := Host.absf main_arg8
  let main_cst_12 : FVec F S_ .f32 := constant S_ .f32 0x7F800000#32
  let main_v35 : FVec F S2048x256 .f32 := broadcastInDim S2048x256 ![] bcast_S_S2048x256 main_cst_12
  let main_v36 : IVec S2048x256 1 := cmpf .olt main_v34 main_v35
  let main_c_13 : IVec S_ 1 := constantI S_ 1 1#1
  let main_v37 : IVec S_ 1 := (fun x v => Host.reduce IntOp.andi x v reducesTo_S2048x256_S_d0_1 h_S_) main_v36 main_c_13
  let main_v38 : IVec S_ 1 := andi main_v33 main_v37
  let main_v39 : FVec F S2048x2048 .f32 := Host.absf main_arg9
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg10
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg11
  let main_cst_18 : FVec F S_ .f32 := constant S_ .f32 0x7F800000#32
  let main_v50 : FVec F S2048x2048 .f32 := broadcastInDim S2048x2048 ![] bcast_S_S2048x2048 main_cst_18
  fn_part3 (F := F) main_arg12 main_arg13 main_v48 main_v49 main_v50

def fn_part1 {F : FTy → Type} [FloatOps F] (main_arg5 : FVec F S2048x2048 .f32) (main_arg6 : FVec F S2048x256 .f32) (main_arg7 : FVec F S2048x2048 .f32) (main_arg8 : FVec F S2048x256 .f32) (main_arg9 : FVec F S2048x2048 .f32) (main_arg10 : FVec F S2048 .f32) (main_arg11 : FVec F S2048x2048 .f32) (main_arg12 : FVec F S2048 .f32) (main_arg13 : FVec F S256x64000 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S2048x2048 .f32 := Host.absf main_arg5
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x256 .f32 := Host.absf main_arg6
  let main_cst_8 : FVec F S_ .f32 := constant S_ .f32 0x7F800000#32
  let main_v25 : FVec F S2048x256 .f32 := broadcastInDim S2048x256 ![] bcast_S_S2048x256 main_cst_8
  let main_v26 : IVec S2048x256 1 := cmpf .olt main_v24 main_v25
  let main_c_9 : IVec S_ 1 := constantI S_ 1 1#1
  let main_v27 : IVec S_ 1 := (fun x v => Host.reduce IntOp.andi x v reducesTo_S2048x256_S_d0_1 h_S_) main_v26 main_c_9
  let main_v28 : IVec S_ 1 := andi main_v23 main_v27
  let main_v29 : FVec F S2048x2048 .f32 := Host.absf main_arg7
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S128x2048 .f32) (main_arg1 : FVec F S128x2048 .f32) (main_arg2 : IVec S128 32) (main_arg3 : FVec F S128x2048 .f32) (main_arg4 : FVec F S128x2048 .f32) (main_arg5 : FVec F S2048x2048 .f32) (main_arg6 : FVec F S2048x256 .f32) (main_arg7 : FVec F S2048x2048 .f32) (main_arg8 : FVec F S2048x256 .f32) (main_arg9 : FVec F S2048x2048 .f32) (main_arg10 : FVec F S2048 .f32) (main_arg11 : FVec F S2048x2048 .f32) (main_arg12 : FVec F S2048 .f32) (main_arg13 : FVec F S256x64000 .f32) : IVec S_ 1 :=
  let main_v0 : FVec F S128x2048 .f32 := Host.absf main_arg0
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_c : IVec S_ 1 := constantI S_ 1 1#1
  let main_v3 : IVec S_ 1 := (fun x v => Host.reduce IntOp.andi x v reducesTo_S128x2048_S_d0_1 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S128x2048 .f32 := Host.absf main_arg3
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128x2048 .f32 := Host.absf main_arg4
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg5 main_arg6 main_arg7 main_arg8 main_arg9 main_arg10 main_arg11 main_arg12 main_arg13 main_v13 main_v16
-- ==== Kernel.lean ====
abbrev S128x2048 : Shape := ⟨2, ![128, 2048]⟩
abbrev S128 : Shape := ⟨1, ![128]⟩
abbrev S2048x2048 : Shape := ⟨2, ![2048, 2048]⟩
abbrev S2048x256 : Shape := ⟨2, ![2048, 256]⟩
abbrev S2048 : Shape := ⟨1, ![2048]⟩
abbrev S256x64000 : Shape := ⟨2, ![256, 64000]⟩
abbrev S128x256 : Shape := ⟨2, ![128, 256]⟩
abbrev S_ : Shape := ⟨0, ![]⟩
abbrev S128x1 : Shape := ⟨2, ![128, 1]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩
abbrev S256x6400 : Shape := ⟨2, ![256, 6400]⟩
abbrev S256x1000x64 : Shape := ⟨3, ![256, 1000, 64]⟩
abbrev S256x1x1 : Shape := ⟨3, ![256, 1, 1]⟩
abbrev S1 : Shape := ⟨1, ![1]⟩
abbrev S1x1x1 : Shape := ⟨3, ![1, 1, 1]⟩
abbrev S256x1x64 : Shape := ⟨3, ![256, 1, 64]⟩
abbrev S256x64 : Shape := ⟨2, ![256, 64]⟩
abbrev S256x64001 : Shape := ⟨2, ![256, 64001]⟩
abbrev S32x64000 : Shape := ⟨2, ![32, 64000]⟩
abbrev S32x1 : Shape := ⟨2, ![32, 1]⟩
abbrev S32x64 : Shape := ⟨2, ![32, 64]⟩
abbrev S32x64001 : Shape := ⟨2, ![32, 64001]⟩
abbrev S32x63936 : Shape := ⟨2, ![32, 63936]⟩
abbrev S32 : Shape := ⟨1, ![32]⟩
abbrev S256x65 : Shape := ⟨2, ![256, 65]⟩

abbrev nBuf : Space → Nat
  | .hbm => 185
  | .vmem => 15
  | .smem => 0
  | _ => 0

abbrev hbmTy0_0 (i : Nat) : BufTy := match i % 128 with
  | 0 => ⟨S128x2048, .f32⟩
  | 1 => ⟨S128x2048, .f32⟩
  | 2 => ⟨S128, .i32⟩
  | 3 => ⟨S128x2048, .f32⟩
  | 4 => ⟨S128x2048, .f32⟩
  | 5 => ⟨S2048x2048, .f32⟩
  | 6 => ⟨S2048x256, .f32⟩
  | 7 => ⟨S2048x2048, .f32⟩
  | 8 => ⟨S2048x256, .f32⟩
  | 9 => ⟨S2048x2048, .f32⟩
  | 10 => ⟨S2048, .f32⟩
  | 11 => ⟨S2048x2048, .f32⟩
  | 12 => ⟨S2048, .f32⟩
  | 13 => ⟨S256x64000, .f32⟩
  | 14 => ⟨S128x2048, .f32⟩
  | 15 => ⟨S128x256, .f32⟩
  | 16 => ⟨S128x256, .f32⟩
  | 17 => ⟨S_, .f32⟩
  | 18 => ⟨S128, .f32⟩
  | 19 => ⟨S128x1, .f32⟩
  | 20 => ⟨S128x1, .f32⟩
  | 21 => ⟨S_, .f32⟩
  | 22 => ⟨S_, .f32⟩
  | 23 => ⟨S128x1, .f32⟩
  | 24 => ⟨S128x1, .f32⟩
  | 25 => ⟨S128x256, .f32⟩
  | 26 => ⟨S128x256, .f32⟩
  | 27 => ⟨S_, .f32⟩
  | 28 => ⟨S2048x2048, .f32⟩
  | 29 => ⟨S2048x2048, .f32⟩
  | 30 => ⟨S_, .f32⟩
  | 31 => ⟨S2048x2048, .f32⟩
  | 32 => ⟨S2048x2048, .f32⟩
  | 33 => ⟨S2048x2048, .f32⟩
  | 34 => ⟨S_, .f32⟩
  | 35 => ⟨S2048x256, .f32⟩
  | 36 => ⟨S2048x256, .f32⟩
  | 37 => ⟨S_, .f32⟩
  | 38 => ⟨S2048x256, .f32⟩
  | 39 => ⟨S2048x256, .f32⟩
  | 40 => ⟨S2048x256, .f32⟩
  | 41 => ⟨S128x2048, .f32⟩
  | 42 => ⟨S128x256, .f32⟩
  | 43 => ⟨S128x256, .f32⟩
  | 44 => ⟨S_, .f32⟩
  | 45 => ⟨S128, .f32⟩
  | 46 => ⟨S128x1, .f32⟩
  | 47 => ⟨S128x1, .f32⟩
  | 48 => ⟨S_, .f32⟩
  | 49 => ⟨S_, .f32⟩
  | 50 => ⟨S128x1, .f32⟩
  | 51 => ⟨S128x1, .f32⟩
  | 52 => ⟨S128x256, .f32⟩
  | 53 => ⟨S128x256, .f32⟩
  | 54 => ⟨S128x2048, .f32⟩
  | 55 => ⟨S1x2048, .f32⟩
  | 56 => ⟨S128x2048, .f32⟩
  | 57 => ⟨S128x2048, .f32⟩
  | 58 => ⟨S128x2048, .f32⟩
  | 59 => ⟨S1x2048, .f32⟩
  | 60 => ⟨S128x2048, .f32⟩
  | 61 => ⟨S128x2048, .f32⟩
  | 62 => ⟨S_, .f32⟩
  | 63 => ⟨S128x2048, .f32⟩
  | 64 => ⟨S128x2048, .f32⟩
  | 65 => ⟨S128x2048, .f32⟩
  | 66 => ⟨S128x2048, .f32⟩
  | 67 => ⟨S128x2048, .f32⟩
  | 68 => ⟨S_, .f32⟩
  | 69 => ⟨S128x2048, .f32⟩
  | 70 => ⟨S128x2048, .f32⟩
  | 71 => ⟨S128x2048, .f32⟩
  | 72 => ⟨S128x2048, .f32⟩
  | 73 => ⟨S128x2048, .f32⟩
  | 74 => ⟨S128x2048, .f32⟩
  | 75 => ⟨S_, .f32⟩
  | 76 => ⟨S128, .f32⟩
  | 77 => ⟨S_, .f32⟩
  | 78 => ⟨S128, .f32⟩
  | 79 => ⟨S128, .f32⟩
  | 80 => ⟨S_, .f32⟩
  | 81 => ⟨S_, .f32⟩
  | 82 => ⟨S_, .f32⟩
  | 83 => ⟨S_, .f32⟩
  | 84 => ⟨S_, .f32⟩
  | 85 => ⟨S128x256, .f32⟩
  | 86 => ⟨S128x256, .f32⟩
  | 87 => ⟨S_, .f32⟩
  | 88 => ⟨S128, .f32⟩
  | 89 => ⟨S128x1, .f32⟩
  | 90 => ⟨S128x1, .f32⟩
  | 91 => ⟨S_, .f32⟩
  | 92 => ⟨S_, .f32⟩
  | 93 => ⟨S128x1, .f32⟩
  | 94 => ⟨S128x1, .f32⟩
  | 95 => ⟨S128x256, .f32⟩
  | 96 => ⟨S128x256, .f32⟩
  | 97 => ⟨S128x2048, .f32⟩
  | 98 => ⟨S1x2048, .f32⟩
  | 99 => ⟨S128x2048, .f32⟩
  | 100 => ⟨S128x2048, .f32⟩
  | 101 => ⟨S128x2048, .f32⟩
  | 102 => ⟨S1x2048, .f32⟩
  | 103 => ⟨S128x2048, .f32⟩
  | 104 => ⟨S128x2048, .f32⟩
  | 105 => ⟨S_, .f32⟩
  | 106 => ⟨S128x2048, .f32⟩
  | 107 => ⟨S128x2048, .f32⟩
  | 108 => ⟨S128x2048, .f32⟩
  | 109 => ⟨S128x2048, .f32⟩
  | 110 => ⟨S128x2048, .f32⟩
  | 111 => ⟨S_, .f32⟩
  | 112 => ⟨S128x2048, .f32⟩
  | 113 => ⟨S128x2048, .f32⟩
  | 114 => ⟨S128x2048, .f32⟩
  | 115 => ⟨S128x2048, .f32⟩
  | 116 => ⟨S128x2048, .f32⟩
  | 117 => ⟨S128x2048, .f32⟩
  | 118 => ⟨S_, .f32⟩
  | 119 => ⟨S128, .f32⟩
  | 120 => ⟨S_, .f32⟩
  | 121 => ⟨S128, .f32⟩
  | 122 => ⟨S128, .f32⟩
  | 123 => ⟨S_, .f32⟩
  | 124 => ⟨S_, .f32⟩
  | 125 => ⟨S_, .f32⟩
  | 126 => ⟨S_, .f32⟩
  | 127 => ⟨S_, .f32⟩
  | _ => ⟨S128x2048, .f32⟩

abbrev hbmTy0_1 (i : Nat) : BufTy := match i % 128 with
  | 0 => ⟨S128x256, .f32⟩
  | 1 => ⟨S128x256, .f32⟩
  | 2 => ⟨S_, .f32⟩
  | 3 => ⟨S128, .f32⟩
  | 4 => ⟨S128x1, .f32⟩
  | 5 => ⟨S128x1, .f32⟩
  | 6 => ⟨S_, .f32⟩
  | 7 => ⟨S_, .f32⟩
  | 8 => ⟨S128x1, .f32⟩
  | 9 => ⟨S128x1, .f32⟩
  | 10 => ⟨S128x256, .f32⟩
  | 11 => ⟨S128x256, .f32⟩
  | 12 => ⟨S256x256, .f32⟩
  | 13 => ⟨S256x256, .f32⟩
  | 14 => ⟨S256, .i32⟩
  | 15 => ⟨S256x256, .f32⟩
  | 16 => ⟨S_, .f32⟩
  | 17 => ⟨S256, .f32⟩
  | 18 => ⟨S256x1, .f32⟩
  | 19 => ⟨S256x64000, .f32⟩
  | 20 => ⟨S256x1000x64, .f32⟩
  | 21 => ⟨S256x1x1, .i32⟩
  | 22 => ⟨S_, .i32⟩
  | 23 => ⟨S256x1x1, .i32⟩
  | 24 => ⟨S256x1x1, .i1⟩
  | 25 => ⟨S_, .i32⟩
  | 26 => ⟨S256x1x1, .i32⟩
  | 27 => ⟨S256x1x1, .i32⟩
  | 28 => ⟨S256x1x1, .i32⟩
  | 29 => ⟨S1, .i32⟩
  | 30 => ⟨S_, .i32⟩
  | 31 => ⟨S256x1x1, .i32⟩
  | 32 => ⟨S256x1x1, .i1⟩
  | 33 => ⟨S1x1x1, .i32⟩
  | 34 => ⟨S256x1x1, .i32⟩
  | 35 => ⟨S256x1x1, .i1⟩
  | 36 => ⟨S256x1x1, .i1⟩
  | 37 => ⟨S_, .i1⟩
  | 38 => ⟨S256x1, .i1⟩
  | 39 => ⟨S256x1x64, .f32⟩
  | 40 => ⟨S256x1x64, .i1⟩
  | 41 => ⟨S_, .f32⟩
  | 42 => ⟨S256x1x64, .f32⟩
  | 43 => ⟨S256x1x64, .f32⟩
  | 44 => ⟨S256x64, .f32⟩
  | 45 => ⟨S256x1, .i32⟩
  | 46 => ⟨S256x64001, .f32⟩
  | 47 => ⟨S_, .f32⟩
  | 48 => ⟨S256x64001, .f32⟩
  | 49 => ⟨S_, .i32⟩
  | 50 => ⟨S1, .i32⟩
  | 51 => ⟨S_, .f32⟩
  | 52 => ⟨S256x65, .f32⟩
  | 53 => ⟨S256x64001, .f32⟩
  | 54 => ⟨S_, .f32⟩
  | 55 => ⟨S_, .f32⟩
  | 56 => ⟨S_, .f32⟩
  | _ => ⟨S128x2048, .f32⟩

abbrev hbmTy (i : Nat) : BufTy := match i / 128 with
  | 0 => hbmTy0_0 i
  | 1 => hbmTy0_1 i
  | _ => ⟨S128x2048, .f32⟩

abbrev bufTy : (tb : Table) → Fin (tcTables nBuf tb) → BufTy
  | .hbm, ⟨i, _⟩ => hbmTy i
  | .local _ .vmem, ⟨0, _⟩ => ⟨S256x256, .f32⟩
  | .local _ .vmem, ⟨1, _⟩ => ⟨S256x6400, .f32⟩
  | .local _ .vmem, ⟨2, _⟩ => ⟨S256x6400, .f32⟩
  | .local _ .vmem, ⟨3, _⟩ => ⟨S256x6400, .f32⟩
  | .local _ .vmem, ⟨4, _⟩ => ⟨S256x6400, .f32⟩
  | .local _ .vmem, ⟨5, _⟩ => ⟨S32x64000, .f32⟩
  | .local _ .vmem, ⟨6, _⟩ => ⟨S32x64000, .f32⟩
  | .local _ .vmem, ⟨7, _⟩ => ⟨S32x1, .f32⟩
  | .local _ .vmem, ⟨8, _⟩ => ⟨S32x1, .f32⟩
  | .local _ .vmem, ⟨9, _⟩ => ⟨S32x64, .f32⟩
  | .local _ .vmem, ⟨10, _⟩ => ⟨S32x64, .f32⟩
  | .local _ .vmem, ⟨11, _⟩ => ⟨S32x1, .i32⟩
  | .local _ .vmem, ⟨12, _⟩ => ⟨S32x1, .i32⟩
  | .local _ .vmem, ⟨13, _⟩ => ⟨S32x64001, .f32⟩
  | .local _ .vmem, ⟨14, _⟩ => ⟨S32x64001, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v2 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_call2_v0 : Ref sig .tc := ⟨.hbm, 43, rfl⟩
abbrev main_call2_cst : Ref sig .tc := ⟨.hbm, 44, rfl⟩
abbrev main_call2_v1 : Ref sig .tc := ⟨.hbm, 45, rfl⟩
abbrev main_call2_v2 : Ref sig .tc := ⟨.hbm, 46, rfl⟩
abbrev main_v18 : Ref sig .tc := ⟨.hbm, 47, rfl⟩
abbrev main_cst_4 : Ref sig .tc := ⟨.hbm, 48, rfl⟩
abbrev main_call3_v0 : Ref sig .tc := ⟨.hbm, 49, rfl⟩
abbrev main_call3_v1 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_6 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_7 : Ref sig .tc := ⟨.hbm, 75, rfl⟩
abbrev main_v41 : Ref sig .tc := ⟨.hbm, 76, rfl⟩
abbrev main_cst_8 : Ref sig .tc := ⟨.hbm, 77, rfl⟩
abbrev main_v42 : Ref sig .tc := ⟨.hbm, 78, rfl⟩
abbrev main_v43 : Ref sig .tc := ⟨.hbm, 79, rfl⟩
abbrev main_cst_9 : Ref sig .tc := ⟨.hbm, 80, rfl⟩
abbrev main_v44 : Ref sig .tc := ⟨.hbm, 81, rfl⟩
abbrev main_cst_10 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_call4_v0 : Ref sig .tc := ⟨.hbm, 86, rfl⟩
abbrev main_call4_cst : Ref sig .tc := ⟨.hbm, 87, rfl⟩
abbrev main_call4_v1 : Ref sig .tc := ⟨.hbm, 88, rfl⟩
abbrev main_call4_v2 : Ref sig .tc := ⟨.hbm, 89, rfl⟩
abbrev main_v48 : Ref sig .tc := ⟨.hbm, 90, rfl⟩
abbrev main_cst_11 : Ref sig .tc := ⟨.hbm, 91, rfl⟩
abbrev main_call5_v0 : Ref sig .tc := ⟨.hbm, 92, rfl⟩
abbrev main_call5_v1 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_12 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_13 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_14 : Ref sig .tc := ⟨.hbm, 118, rfl⟩
abbrev main_v71 : Ref sig .tc := ⟨.hbm, 119, rfl⟩
abbrev main_cst_15 : Ref sig .tc := ⟨.hbm, 120, rfl⟩
abbrev main_v72 : Ref sig .tc := ⟨.hbm, 121, rfl⟩
abbrev main_v73 : Ref sig .tc := ⟨.hbm, 122, rfl⟩
abbrev main_cst_16 : Ref sig .tc := ⟨.hbm, 123, rfl⟩
abbrev main_v74 : Ref sig .tc := ⟨.hbm, 124, rfl⟩
abbrev main_cst_17 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_call6_v0 : Ref sig .tc := ⟨.hbm, 129, rfl⟩
abbrev main_call6_cst : Ref sig .tc := ⟨.hbm, 130, rfl⟩
abbrev main_call6_v1 : Ref sig .tc := ⟨.hbm, 131, rfl⟩
abbrev main_call6_v2 : Ref sig .tc := ⟨.hbm, 132, rfl⟩
abbrev main_v78 : Ref sig .tc := ⟨.hbm, 133, rfl⟩
abbrev main_cst_18 : Ref sig .tc := ⟨.hbm, 134, rfl⟩
abbrev main_call7_v0 : Ref sig .tc := ⟨.hbm, 135, rfl⟩
abbrev main_call7_v1 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_cst_19 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_call8_c : Ref sig .tc := ⟨.hbm, 150, rfl⟩
abbrev main_call8_v0 : Ref sig .tc := ⟨.hbm, 151, rfl⟩
abbrev main_call8_v1 : Ref sig .tc := ⟨.hbm, 152, rfl⟩
abbrev main_call8_c_0 : Ref sig .tc := ⟨.hbm, 153, rfl⟩
abbrev main_call8_v2 : Ref sig .tc := ⟨.hbm, 154, rfl⟩
abbrev main_call8_v3 : Ref sig .tc := ⟨.hbm, 155, rfl⟩
abbrev main_call8_v4 : Ref sig .tc := ⟨.hbm, 156, rfl⟩
abbrev main_call8_c_1 : Ref sig .tc := ⟨.hbm, 157, rfl⟩
abbrev main_call8_c_2 : Ref sig .tc := ⟨.hbm, 158, rfl⟩
abbrev main_call8_v5 : Ref sig .tc := ⟨.hbm, 159, rfl⟩
abbrev main_call8_v6 : Ref sig .tc := ⟨.hbm, 160, rfl⟩
abbrev main_call8_v7 : Ref sig .tc := ⟨.hbm, 161, rfl⟩
abbrev main_call8_v8 : Ref sig .tc := ⟨.hbm, 162, rfl⟩
abbrev main_call8_v9 : Ref sig .tc := ⟨.hbm, 163, rfl⟩
abbrev main_call8_v10 : Ref sig .tc := ⟨.hbm, 164, rfl⟩
abbrev main_call8_c_3 : Ref sig .tc := ⟨.hbm, 165, rfl⟩
abbrev main_call8_v11 : Ref sig .tc := ⟨.hbm, 166, rfl⟩
abbrev main_call8_v12 : Ref sig .tc := ⟨.hbm, 167, rfl⟩
abbrev main_call8_v13 : Ref sig .tc := ⟨.hbm, 168, rfl⟩
abbrev main_call8_cst : Ref sig .tc := ⟨.hbm, 169, rfl⟩
abbrev main_call8_v14 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_cst_20 : Ref sig .tc := ⟨.hbm, 175, rfl⟩
abbrev main_v95 : Ref sig .tc := ⟨.hbm, 176, rfl⟩
abbrev main_c : Ref sig .tc := ⟨.hbm, 177, rfl⟩
abbrev main_v96 : Ref sig .tc := ⟨.hbm, 178, rfl⟩
abbrev main_cst_21 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_cst_22 : Ref sig .tc := ⟨.hbm, 183, rfl⟩
abbrev main_v100 : Ref sig .tc := ⟨.hbm, 184, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x64000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x64001 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  reducesTo_S128x256_S128_d1 : S128x256.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x256_0_1 : S128x1.BroadcastsInDim S128x256 (![0, 1] : Fin 2 → Fin S128x256.rank)
  bcast_S_S2048x2048 : S_.BroadcastsInDim S2048x2048 (![] : Fin 0 → Fin S2048x2048.rank)
  bcast_S_S2048x256 : S_.BroadcastsInDim S2048x256 (![] : Fin 0 → Fin S2048x256.rank)
  bcast_S2048_S1x2048_1 : S2048.BroadcastsInDim S1x2048 (![1] : Fin 1 → Fin S1x2048.rank)
  bcast_S1x2048_S128x2048_0_1 : S1x2048.BroadcastsInDim S128x2048 (![0, 1] : Fin 2 → Fin S128x2048.rank)
  bcast_S_S128x2048 : S_.BroadcastsInDim S128x2048 (![] : Fin 0 → Fin S128x2048.rank)
  reducesTo_S128x2048_S128_d1 : S128x2048.ReducesTo [1] S128
  bcast_S_S128 : S_.BroadcastsInDim S128 (![] : Fin 0 → Fin S128.rank)
  reducesTo_S128_S_d0 : S128.ReducesTo [0] S_
  concatenates_S128x256_S128x256_S256x256_d0 : Shape.Concatenates [S128x256, S128x256] S256x256 0
  concatenates_S128_S128_S256_d0 : Shape.Concatenates [S128, S128] S256 0
  reducesTo_S256x256_S256_d1 : S256x256.ReducesTo [1] S256
  bcast_S256_S256x1_0 : S256.BroadcastsInDim S256x1 (![0] : Fin 1 → Fin S256x1.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x6400_S256x6400_0_0 : ∀ a, (![0, 0] : Fin 2 → Nat) a + S256x6400.size a ≤ S256x6400.size a
  h_S256x6400 : 0 < S256x6400.numel
  shapeCasts_S256x64000_S256x1000x64 : S256x64000.ShapeCasts S256x1000x64
  bcast_S256_S256x1x1_0 : S256.BroadcastsInDim S256x1x1 (![0] : Fin 1 → Fin S256x1x1.rank)
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  bcast_S256x1_S256x1x64_0_1 : S256x1.BroadcastsInDim S256x1x64 (![0, 1] : Fin 2 → Fin S256x1x64.rank)
  bcast_S_S256x1x64 : S_.BroadcastsInDim S256x1x64 (![] : Fin 0 → Fin S256x1x64.rank)
  shapeCasts_S256x1x64_S256x64 : S256x1x64.ShapeCasts S256x64
  shapeCasts_S256_S256x1 : S256.ShapeCasts S256x1
  inb_S32x64000_S32x64000_0_0 : ∀ a, (![0, 0] : Fin 2 → Nat) a + S32x64000.size a ≤ S32x64000.size a
  h_S32x64000 : 0 < S32x64000.numel
  shapeCasts_S32x64000_S32x64000 : S32x64000.ShapeCasts S32x64000
  inb_S32x1_S32x1_0_0 : ∀ a, (![0, 0] : Fin 2 → Nat) a + S32x1.size a ≤ S32x1.size a
  h_S32x1 : 0 < S32x1.numel
  shapeCasts_S32x1_S32x1 : S32x1.ShapeCasts S32x1
  iota_S32x64000_d1_w32 : S32x64000.Iotas .tc 32 [1]
  natLt_1_32 : 1 < 32
  rotates_S32x64000_d1 : S32x64000.Rotates 1 none
  broadcasts_S32x1_S32x64000 : S32x1.Broadcasts S32x64000
  slices_S32x64000_o0_0_S32x63936 : S32x64000.Slices ![0, 0] S32x63936
  inb_S32x64_S32x64_0_0 : ∀ a, (![0, 0] : Fin 2 → Nat) a + S32x64.size a ≤ S32x64.size a
  h_S32x64 : 0 < S32x64.numel
  shapeCasts_S32x64_S32x64 : S32x64.ShapeCasts S32x64
  reduces_S32x64_S32 : S32x64.Reduces [1] S32
  shapeCasts_S32_S32x1 : S32.ShapeCasts S32x1
  reduces_S32x63936_S32 : S32x63936.Reduces [1] S32
  broadcasts_S32x1_S32x64 : S32x1.Broadcasts S32x64
  broadcasts_S32x1_S32x63936 : S32x1.Broadcasts S32x63936
  inb_S32x64001_S32x1_0_0 : ∀ a, (![0, 0] : Fin 2 → Nat) a + S32x1.size a ≤ S32x64001.size a
  inb_S32x64001_S32x64_0_1 : ∀ a, (![0, 1] : Fin 2 → Nat) a + S32x64.size a ≤ S32x64001.size a
  inb_S32x64001_S32x63936_0_65 : ∀ a, (![0, 65] : Fin 2 → Nat) a + S32x63936.size a ≤ S32x64001.size a
  h_S32x63936 : 0 < S32x63936.numel
  bcast_S_S256x64001 : S_.BroadcastsInDim S256x64001 (![] : Fin 0 → Fin S256x64001.rank)
  bcast_S_S1 : S_.BroadcastsInDim S1 (![] : Fin 0 → Fin S1.rank)
  bcast_S_S256x65 : S_.BroadcastsInDim S256x65 (![] : Fin 0 → Fin S256x65.rank)
  dot_S128x2048_S2048x2048_S128x2048_1_0_0_1_n_n_wf : DotDims.WF S128x2048 S2048x2048 S128x2048 [1] [0] [0] [1] [] []
  dot_S128x2048_S2048x256_S128x256_1_0_0_1_n_n_wf : DotDims.WF S128x2048 S2048x256 S128x256 [1] [0] [0] [1] [] []
  dot_S256x256_S256x6400_S256x6400_1_0_0_1_n_n_wf : DotDims.WF S256x256 S256x6400 S256x6400 [1] [0] [0] [1] [] []
  gather_S256x1000x64_S256x1x1_S256x1x64_2_1_0_0_1_2_1164_wf : GatherDims.WF S256x1000x64 S256x1x1 S256x1x64 [2] [1] [0] [1] [0] 2 ![1, 1, 64]
  scatter_S256x64001_S1_S256x65_01_n_1_0_wf : ScatterDims.WF S256x64001 S1 S256x65 [0, 1] [] [1] 0
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6400.size a ≤ S256x64000.size a
  hwx0_1 : ∀ i : grid0.Coords, EltTy.bits .f32 = 32 ∨ (Rect.block (s := S256x64000) S256x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x6400.size a ≤ S256x64000.size a
  hwx0_2 : ∀ i : grid0.Coords, EltTy.bits .f32 = 32 ∨ (Rect.block (s := S256x64000) S256x6400.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64000.size a ≤ S256x64000.size a
  hwx1_0 : ∀ i : grid1.Coords, EltTy.bits .f32 = 32 ∨ (Rect.block (s := S256x64000) S32x64000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S256x1.size a
  hwx1_1 : ∀ i : grid1.Coords, EltTy.bits .f32 = 32 ∨ (Rect.block (s := S256x1) S32x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S256x64.size a
  hwx1_2 : ∀ i : grid1.Coords, EltTy.bits .f32 = 32 ∨ (Rect.block (s := S256x64) S32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x1.size a ≤ S256x1.size a
  hwx1_3 : ∀ i : grid1.Coords, EltTy.bits .i32 = 32 ∨ (Rect.block (s := S256x1) S32x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x64001.size a ≤ S256x64001.size a
  hwx1_4 : ∀ i : grid1.Coords, EltTy.bits .f32 = 32 ∨ (Rect.block (s := S256x64001) S32x64001.size (cc1_transform_4 i) (hinb1_4 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf
def dot_S256x256_S256x6400_S256x6400_1_0_0_1_n_n : DotDims S256x256 S256x6400 S256x6400 where
  lhsContracting := [1]
  rhsContracting := [0]
  lhsNonContracting := [0]
  rhsNonContracting := [1]
  lhsBatch := []
  rhsBatch := []
  wf := dot_S256x256_S256x6400_S256x6400_1_0_0_1_n_n_wf
def gather_S256x1000x64_S256x1x1_S256x1x64_2_1_0_0_1_2_1164 : GatherDims S256x1000x64 S256x1x1 S256x1x64 where
  offsetDims := [2]
  collapsedSliceDims := [1]
  operandBatchingDims := [0]
  startIndicesBatchingDims := [0]
  startIndexMap := [1]
  indexVectorDim := 2
  sliceSizes := ![1, 1, 64]
  wf := gather_S256x1000x64_S256x1x1_S256x1x64_2_1_0_0_1_2_1164_wf
def scatter_S256x64001_S1_S256x65_01_n_1_0 : ScatterDims S256x64001 S1 S256x65 where
  updateWindowDims := [0, 1]
  insertedWindowDims := []
  scatterDimsToOperandDims := [1]
  indexVectorDim := 0
  wf := scatter_S256x64001_S1_S256x65_01_n_1_0_wf

abbrev win0_0 : Pipeline.Window sig grid0 :=
  Pipeline.Window.ofSpec (Memref.whole main_v82) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg13) S256x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v88) S256x6400.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v88) S32x64000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v87) S32x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v92) S32x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v93) S32x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v94) S32x64001.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S128x2048 : Shape := ⟨2, ![128, 2048]⟩
abbrev S128 : Shape := ⟨1, ![128]⟩
abbrev S2048x2048 : Shape := ⟨2, ![2048, 2048]⟩
abbrev S2048x256 : Shape := ⟨2, ![2048, 256]⟩
abbrev S2048 : Shape := ⟨1, ![2048]⟩
abbrev S256x64000 : Shape := ⟨2, ![256, 64000]⟩
abbrev S128x256 : Shape := ⟨2, ![128, 256]⟩
abbrev S_ : Shape := ⟨0, ![]⟩
abbrev S128x1 : Shape := ⟨2, ![128, 1]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩
abbrev S256x1000x64 : Shape := ⟨3, ![256, 1000, 64]⟩
abbrev S256x1x1 : Shape := ⟨3, ![256, 1, 1]⟩
abbrev S1 : Shape := ⟨1, ![1]⟩
abbrev S1x1x1 : Shape := ⟨3, ![1, 1, 1]⟩
abbrev S256x1x64 : Shape := ⟨3, ![256, 1, 64]⟩
abbrev S256x64 : Shape := ⟨2, ![256, 64]⟩
abbrev S999 : Shape := ⟨1, ![999]⟩
abbrev S1x999 : Shape := ⟨2, ![1, 999]⟩
abbrev S256x999 : Shape := ⟨2, ![256, 999]⟩
abbrev S256x999x1 : Shape := ⟨3, ![256, 999, 1]⟩
abbrev S256x999x64 : Shape := ⟨3, ![256, 999, 64]⟩
abbrev S256x63936 : Shape := ⟨2, ![256, 63936]⟩
abbrev S256x64001 : Shape := ⟨2, ![256, 64001]⟩
abbrev S256x65 : Shape := ⟨2, ![256, 65]⟩

abbrev nBuf : Space → Nat
  | .hbm => 236
  | .vmem => 0
  | .smem => 0
  | _ => 0

abbrev hbmTy0_0 (i : Nat) : BufTy := match i % 128 with
  | 0 => ⟨S128x2048, .f32⟩
  | 1 => ⟨S128x2048, .f32⟩
  | 2 => ⟨S128, .i32⟩
  | 3 => ⟨S128x2048, .f32⟩
  | 4 => ⟨S128x2048, .f32⟩
  | 5 => ⟨S2048x2048, .f32⟩
  | 6 => ⟨S2048x256, .f32⟩
  | 7 => ⟨S2048x2048, .f32⟩
  | 8 => ⟨S2048x256, .f32⟩
  | 9 => ⟨S2048x2048, .f32⟩
  | 10 => ⟨S2048, .f32⟩
  | 11 => ⟨S2048x2048, .f32⟩
  | 12 => ⟨S2048, .f32⟩
  | 13 => ⟨S256x64000, .f32⟩
  | 14 => ⟨S128x2048, .f32⟩
  | 15 => ⟨S128x256, .f32⟩
  | 16 => ⟨S128x256, .f32⟩
  | 17 => ⟨S_, .f32⟩
  | 18 => ⟨S128, .f32⟩
  | 19 => ⟨S128x1, .f32⟩
  | 20 => ⟨S128x1, .f32⟩
  | 21 => ⟨S_, .f32⟩
  | 22 => ⟨S_, .f32⟩
  | 23 => ⟨S128x1, .f32⟩
  | 24 => ⟨S128x1, .f32⟩
  | 25 => ⟨S128x256, .f32⟩
  | 26 => ⟨S128x256, .f32⟩
  | 27 => ⟨S_, .f32⟩
  | 28 => ⟨S2048x2048, .f32⟩
  | 29 => ⟨S2048x2048, .f32⟩
  | 30 => ⟨S_, .f32⟩
  | 31 => ⟨S2048x2048, .f32⟩
  | 32 => ⟨S2048x2048, .f32⟩
  | 33 => ⟨S2048x2048, .f32⟩
  | 34 => ⟨S_, .f32⟩
  | 35 => ⟨S2048x256, .f32⟩
  | 36 => ⟨S2048x256, .f32⟩
  | 37 => ⟨S_, .f32⟩
  | 38 => ⟨S2048x256, .f32⟩
  | 39 => ⟨S2048x256, .f32⟩
  | 40 => ⟨S2048x256, .f32⟩
  | 41 => ⟨S128x2048, .f32⟩
  | 42 => ⟨S128x256, .f32⟩
  | 43 => ⟨S128x256, .f32⟩
  | 44 => ⟨S_, .f32⟩
  | 45 => ⟨S128, .f32⟩
  | 46 => ⟨S128x1, .f32⟩
  | 47 => ⟨S128x1, .f32⟩
  | 48 => ⟨S_, .f32⟩
  | 49 => ⟨S_, .f32⟩
  | 50 => ⟨S128x1, .f32⟩
  | 51 => ⟨S128x1, .f32⟩
  | 52 => ⟨S128x256, .f32⟩
  | 53 => ⟨S128x256, .f32⟩
  | 54 => ⟨S128x2048, .f32⟩
  | 55 => ⟨S1x2048, .f32⟩
  | 56 => ⟨S128x2048, .f32⟩
  | 57 => ⟨S128x2048, .f32⟩
  | 58 => ⟨S128x2048, .f32⟩
  | 59 => ⟨S1x2048, .f32⟩
  | 60 => ⟨S128x2048, .f32⟩
  | 61 => ⟨S128x2048, .f32⟩
  | 62 => ⟨S_, .f32⟩
  | 63 => ⟨S128x2048, .f32⟩
  | 64 => ⟨S128x2048, .f32⟩
  | 65 => ⟨S128x2048, .f32⟩
  | 66 => ⟨S128x2048, .f32⟩
  | 67 => ⟨S128x2048, .f32⟩
  | 68 => ⟨S_, .f32⟩
  | 69 => ⟨S128x2048, .f32⟩
  | 70 => ⟨S128x2048, .f32⟩
  | 71 => ⟨S128x2048, .f32⟩
  | 72 => ⟨S128x2048, .f32⟩
  | 73 => ⟨S128x2048, .f32⟩
  | 74 => ⟨S128x2048, .f32⟩
  | 75 => ⟨S_, .f32⟩
  | 76 => ⟨S128, .f32⟩
  | 77 => ⟨S_, .f32⟩
  | 78 => ⟨S128, .f32⟩
  | 79 => ⟨S128, .f32⟩
  | 80 => ⟨S_, .f32⟩
  | 81 => ⟨S_, .f32⟩
  | 82 => ⟨S_, .f32⟩
  | 83 => ⟨S_, .f32⟩
  | 84 => ⟨S_, .f32⟩
  | 85 => ⟨S128x256, .f32⟩
  | 86 => ⟨S128x256, .f32⟩
  | 87 => ⟨S_, .f32⟩
  | 88 => ⟨S128, .f32⟩
  | 89 => ⟨S128x1, .f32⟩
  | 90 => ⟨S128x1, .f32⟩
  | 91 => ⟨S_, .f32⟩
  | 92 => ⟨S_, .f32⟩
  | 93 => ⟨S128x1, .f32⟩
  | 94 => ⟨S128x1, .f32⟩
  | 95 => ⟨S128x256, .f32⟩
  | 96 => ⟨S128x256, .f32⟩
  | 97 => ⟨S128x2048, .f32⟩
  | 98 => ⟨S1x2048, .f32⟩
  | 99 => ⟨S128x2048, .f32⟩
  | 100 => ⟨S128x2048, .f32⟩
  | 101 => ⟨S128x2048, .f32⟩
  | 102 => ⟨S1x2048, .f32⟩
  | 103 => ⟨S128x2048, .f32⟩
  | 104 => ⟨S128x2048, .f32⟩
  | 105 => ⟨S_, .f32⟩
  | 106 => ⟨S128x2048, .f32⟩
  | 107 => ⟨S128x2048, .f32⟩
  | 108 => ⟨S128x2048, .f32⟩
  | 109 => ⟨S128x2048, .f32⟩
  | 110 => ⟨S128x2048, .f32⟩
  | 111 => ⟨S_, .f32⟩
  | 112 => ⟨S128x2048, .f32⟩
  | 113 => ⟨S128x2048, .f32⟩
  | 114 => ⟨S128x2048, .f32⟩
  | 115 => ⟨S128x2048, .f32⟩
  | 116 => ⟨S128x2048, .f32⟩
  | 117 => ⟨S128x2048, .f32⟩
  | 118 => ⟨S_, .f32⟩
  | 119 => ⟨S128, .f32⟩
  | 120 => ⟨S_, .f32⟩
  | 121 => ⟨S128, .f32⟩
  | 122 => ⟨S128, .f32⟩
  | 123 => ⟨S_, .f32⟩
  | 124 => ⟨S_, .f32⟩
  | 125 => ⟨S_, .f32⟩
  | 126 => ⟨S_, .f32⟩
  | 127 => ⟨S_, .f32⟩
  | _ => ⟨S128x2048, .f32⟩

abbrev hbmTy0_1 (i : Nat) : BufTy := match i % 128 with
  | 0 => ⟨S128x256, .f32⟩
  | 1 => ⟨S128x256, .f32⟩
  | 2 => ⟨S_, .f32⟩
  | 3 => ⟨S128, .f32⟩
  | 4 => ⟨S128x1, .f32⟩
  | 5 => ⟨S128x1, .f32⟩
  | 6 => ⟨S_, .f32⟩
  | 7 => ⟨S_, .f32⟩
  | 8 => ⟨S128x1, .f32⟩
  | 9 => ⟨S128x1, .f32⟩
  | 10 => ⟨S128x256, .f32⟩
  | 11 => ⟨S128x256, .f32⟩
  | 12 => ⟨S256x256, .f32⟩
  | 13 => ⟨S256x256, .f32⟩
  | 14 => ⟨S256, .i32⟩
  | 15 => ⟨S256x256, .f32⟩
  | 16 => ⟨S_, .f32⟩
  | 17 => ⟨S256, .f32⟩
  | 18 => ⟨S256x1, .f32⟩
  | 19 => ⟨S256x64000, .f32⟩
  | 20 => ⟨S256x1000x64, .f32⟩
  | 21 => ⟨S256x1x1, .i32⟩
  | 22 => ⟨S_, .i32⟩
  | 23 => ⟨S256x1x1, .i32⟩
  | 24 => ⟨S256x1x1, .i1⟩
  | 25 => ⟨S_, .i32⟩
  | 26 => ⟨S256x1x1, .i32⟩
  | 27 => ⟨S256x1x1, .i32⟩
  | 28 => ⟨S256x1x1, .i32⟩
  | 29 => ⟨S1, .i32⟩
  | 30 => ⟨S_, .i32⟩
  | 31 => ⟨S256x1x1, .i32⟩
  | 32 => ⟨S256x1x1, .i1⟩
  | 33 => ⟨S1x1x1, .i32⟩
  | 34 => ⟨S256x1x1, .i32⟩
  | 35 => ⟨S256x1x1, .i1⟩
  | 36 => ⟨S256x1x1, .i1⟩
  | 37 => ⟨S_, .i1⟩
  | 38 => ⟨S256x1, .i1⟩
  | 39 => ⟨S256x1x64, .f32⟩
  | 40 => ⟨S256x1x64, .i1⟩
  | 41 => ⟨S_, .f32⟩
  | 42 => ⟨S256x1x64, .f32⟩
  | 43 => ⟨S256x1x64, .f32⟩
  | 44 => ⟨S256x64, .f32⟩
  | 45 => ⟨S999, .i32⟩
  | 46 => ⟨S1x999, .i32⟩
  | 47 => ⟨S1x999, .i32⟩
  | 48 => ⟨S256x1, .i32⟩
  | 49 => ⟨S256x999, .i32⟩
  | 50 => ⟨S256x999, .i32⟩
  | 51 => ⟨S256x999, .i1⟩
  | 52 => ⟨S256x999, .i32⟩
  | 53 => ⟨S256x999, .i32⟩
  | 54 => ⟨S256x999, .i32⟩
  | 55 => ⟨S256x999x1, .i32⟩
  | 56 => ⟨S_, .i32⟩
  | 57 => ⟨S256x999x1, .i32⟩
  | 58 => ⟨S256x999x1, .i1⟩
  | 59 => ⟨S_, .i32⟩
  | 60 => ⟨S256x999x1, .i32⟩
  | 61 => ⟨S256x999x1, .i32⟩
  | 62 => ⟨S256x999x1, .i32⟩
  | 63 => ⟨S1, .i32⟩
  | 64 => ⟨S_, .i32⟩
  | 65 => ⟨S256x999x1, .i32⟩
  | 66 => ⟨S256x999x1, .i1⟩
  | 67 => ⟨S1x1x1, .i32⟩
  | 68 => ⟨S256x999x1, .i32⟩
  | 69 => ⟨S256x999x1, .i1⟩
  | 70 => ⟨S256x999x1, .i1⟩
  | 71 => ⟨S_, .i1⟩
  | 72 => ⟨S256x999, .i1⟩
  | 73 => ⟨S256x999x64, .f32⟩
  | 74 => ⟨S256x999x64, .i1⟩
  | 75 => ⟨S_, .f32⟩
  | 76 => ⟨S256x999x64, .f32⟩
  | 77 => ⟨S256x999x64, .f32⟩
  | 78 => ⟨S256x63936, .f32⟩
  | 79 => ⟨S256x64001, .f32⟩
  | 80 => ⟨S_, .f32⟩
  | 81 => ⟨S256x64001, .f32⟩
  | 82 => ⟨S256x64001, .f32⟩
  | 83 => ⟨S_, .f32⟩
  | 84 => ⟨S256, .f32⟩
  | 85 => ⟨S_, .f32⟩
  | 86 => ⟨S256, .f32⟩
  | 87 => ⟨S256, .f32⟩
  | 88 => ⟨S256x1, .f32⟩
  | 89 => ⟨S256x64001, .f32⟩
  | 90 => ⟨S256x64001, .f32⟩
  | 91 => ⟨S256x64001, .f32⟩
  | 92 => ⟨S_, .f32⟩
  | 93 => ⟨S256, .f32⟩
  | 94 => ⟨S256x1, .f32⟩
  | 95 => ⟨S256x1, .f32⟩
  | 96 => ⟨S256x64001, .f32⟩
  | 97 => ⟨S256x64001, .f32⟩
  | 98 => ⟨S_, .f32⟩
  | 99 => ⟨S256x64001, .f32⟩
  | 100 => ⟨S_, .i32⟩
  | 101 => ⟨S1, .i32⟩
  | 102 => ⟨S_, .f32⟩
  | 103 => ⟨S256x65, .f32⟩
  | 104 => ⟨S256x64001, .f32⟩
  | 105 => ⟨S_, .f32⟩
  | 106 => ⟨S_, .f32⟩
  | 107 => ⟨S_, .f32⟩
  | _ => ⟨S128x2048, .f32⟩

abbrev hbmTy (i : Nat) : BufTy := match i / 128 with
  | 0 => hbmTy0_0 i
  | 1 => hbmTy0_1 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v2 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_call2_v0 : Ref sig .tc := ⟨.hbm, 43, rfl⟩
abbrev main_call2_cst : Ref sig .tc := ⟨.hbm, 44, rfl⟩
abbrev main_call2_v1 : Ref sig .tc := ⟨.hbm, 45, rfl⟩
abbrev main_call2_v2 : Ref sig .tc := ⟨.hbm, 46, rfl⟩
abbrev main_v18 : Ref sig .tc := ⟨.hbm, 47, rfl⟩
abbrev main_cst_4 : Ref sig .tc := ⟨.hbm, 48, rfl⟩
abbrev main_call3_v0 : Ref sig .tc := ⟨.hbm, 49, rfl⟩
abbrev main_call3_v1 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_6 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_7 : Ref sig .tc := ⟨.hbm, 75, rfl⟩
abbrev main_v41 : Ref sig .tc := ⟨.hbm, 76, rfl⟩
abbrev main_cst_8 : Ref sig .tc := ⟨.hbm, 77, rfl⟩
abbrev main_v42 : Ref sig .tc := ⟨.hbm, 78, rfl⟩
abbrev main_v43 : Ref sig .tc := ⟨.hbm, 79, rfl⟩
abbrev main_cst_9 : Ref sig .tc := ⟨.hbm, 80, rfl⟩
abbrev main_v44 : Ref sig .tc := ⟨.hbm, 81, rfl⟩
abbrev main_cst_10 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_call4_v0 : Ref sig .tc := ⟨.hbm, 86, rfl⟩
abbrev main_call4_cst : Ref sig .tc := ⟨.hbm, 87, rfl⟩
abbrev main_call4_v1 : Ref sig .tc := ⟨.hbm, 88, rfl⟩
abbrev main_call4_v2 : Ref sig .tc := ⟨.hbm, 89, rfl⟩
abbrev main_v48 : Ref sig .tc := ⟨.hbm, 90, rfl⟩
abbrev main_cst_11 : Ref sig .tc := ⟨.hbm, 91, rfl⟩
abbrev main_call5_v0 : Ref sig .tc := ⟨.hbm, 92, rfl⟩
abbrev main_call5_v1 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_12 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_13 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_14 : Ref sig .tc := ⟨.hbm, 118, rfl⟩
abbrev main_v71 : Ref sig .tc := ⟨.hbm, 119, rfl⟩
abbrev main_cst_15 : Ref sig .tc := ⟨.hbm, 120, rfl⟩
abbrev main_v72 : Ref sig .tc := ⟨.hbm, 121, rfl⟩
abbrev main_v73 : Ref sig .tc := ⟨.hbm, 122, rfl⟩
abbrev main_cst_16 : Ref sig .tc := ⟨.hbm, 123, rfl⟩
abbrev main_v74 : Ref sig .tc := ⟨.hbm, 124, rfl⟩
abbrev main_cst_17 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_call6_v0 : Ref sig .tc := ⟨.hbm, 129, rfl⟩
abbrev main_call6_cst : Ref sig .tc := ⟨.hbm, 130, rfl⟩
abbrev main_call6_v1 : Ref sig .tc := ⟨.hbm, 131, rfl⟩
abbrev main_call6_v2 : Ref sig .tc := ⟨.hbm, 132, rfl⟩
abbrev main_v78 : Ref sig .tc := ⟨.hbm, 133, rfl⟩
abbrev main_cst_18 : Ref sig .tc := ⟨.hbm, 134, rfl⟩
abbrev main_call7_v0 : Ref sig .tc := ⟨.hbm, 135, rfl⟩
abbrev main_call7_v1 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_cst_19 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_call8_c : Ref sig .tc := ⟨.hbm, 150, rfl⟩
abbrev main_call8_v0 : Ref sig .tc := ⟨.hbm, 151, rfl⟩
abbrev main_call8_v1 : Ref sig .tc := ⟨.hbm, 152, rfl⟩
abbrev main_call8_c_0 : Ref sig .tc := ⟨.hbm, 153, rfl⟩
abbrev main_call8_v2 : Ref sig .tc := ⟨.hbm, 154, rfl⟩
abbrev main_call8_v3 : Ref sig .tc := ⟨.hbm, 155, rfl⟩
abbrev main_call8_v4 : Ref sig .tc := ⟨.hbm, 156, rfl⟩
abbrev main_call8_c_1 : Ref sig .tc := ⟨.hbm, 157, rfl⟩
abbrev main_call8_c_2 : Ref sig .tc := ⟨.hbm, 158, rfl⟩
abbrev main_call8_v5 : Ref sig .tc := ⟨.hbm, 159, rfl⟩
abbrev main_call8_v6 : Ref sig .tc := ⟨.hbm, 160, rfl⟩
abbrev main_call8_v7 : Ref sig .tc := ⟨.hbm, 161, rfl⟩
abbrev main_call8_v8 : Ref sig .tc := ⟨.hbm, 162, rfl⟩
abbrev main_call8_v9 : Ref sig .tc := ⟨.hbm, 163, rfl⟩
abbrev main_call8_v10 : Ref sig .tc := ⟨.hbm, 164, rfl⟩
abbrev main_call8_c_3 : Ref sig .tc := ⟨.hbm, 165, rfl⟩
abbrev main_call8_v11 : Ref sig .tc := ⟨.hbm, 166, rfl⟩
abbrev main_call8_v12 : Ref sig .tc := ⟨.hbm, 167, rfl⟩
abbrev main_call8_v13 : Ref sig .tc := ⟨.hbm, 168, rfl⟩
abbrev main_call8_cst : Ref sig .tc := ⟨.hbm, 169, rfl⟩
abbrev main_call8_v14 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_call9_c : Ref sig .tc := ⟨.hbm, 184, rfl⟩
abbrev main_call9_v0 : Ref sig .tc := ⟨.hbm, 185, rfl⟩
abbrev main_call9_v1 : Ref sig .tc := ⟨.hbm, 186, rfl⟩
abbrev main_call9_c_0 : Ref sig .tc := ⟨.hbm, 187, rfl⟩
abbrev main_call9_v2 : Ref sig .tc := ⟨.hbm, 188, rfl⟩
abbrev main_call9_v3 : Ref sig .tc := ⟨.hbm, 189, rfl⟩
abbrev main_call9_v4 : Ref sig .tc := ⟨.hbm, 190, rfl⟩
abbrev main_call9_c_1 : Ref sig .tc := ⟨.hbm, 191, rfl⟩
abbrev main_call9_c_2 : Ref sig .tc := ⟨.hbm, 192, rfl⟩
abbrev main_call9_v5 : Ref sig .tc := ⟨.hbm, 193, rfl⟩
abbrev main_call9_v6 : Ref sig .tc := ⟨.hbm, 194, rfl⟩
abbrev main_call9_v7 : Ref sig .tc := ⟨.hbm, 195, rfl⟩
abbrev main_call9_v8 : Ref sig .tc := ⟨.hbm, 196, rfl⟩
abbrev main_call9_v9 : Ref sig .tc := ⟨.hbm, 197, rfl⟩
abbrev main_call9_v10 : Ref sig .tc := ⟨.hbm, 198, rfl⟩
abbrev main_call9_c_3 : Ref sig .tc := ⟨.hbm, 199, rfl⟩
abbrev main_call9_v11 : Ref sig .tc := ⟨.hbm, 200, rfl⟩
abbrev main_call9_v12 : Ref sig .tc := ⟨.hbm, 201, rfl⟩
abbrev main_call9_v13 : Ref sig .tc := ⟨.hbm, 202, rfl⟩
abbrev main_call9_cst : Ref sig .tc := ⟨.hbm, 203, rfl⟩
abbrev main_call9_v14 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_cst_20 : Ref sig .tc := ⟨.hbm, 208, rfl⟩
abbrev main_v107 : Ref sig .tc := ⟨.hbm, 209, rfl⟩
abbrev main_v108 : Ref sig .tc := ⟨.hbm, 210, rfl⟩
abbrev main_call10_cst : Ref sig .tc := ⟨.hbm, 211, rfl⟩
abbrev main_call10_v0 : Ref sig .tc := ⟨.hbm, 212, rfl⟩
abbrev main_call10_cst_0 : Ref sig .tc := ⟨.hbm, 213, rfl⟩
abbrev main_call10_v1 : Ref sig .tc := ⟨.hbm, 214, rfl⟩
abbrev main_call10_v2 : Ref sig .tc := ⟨.hbm, 215, rfl⟩
abbrev main_call10_v3 : Ref sig .tc := ⟨.hbm, 216, rfl⟩
abbrev main_call10_v4 : Ref sig .tc := ⟨.hbm, 217, rfl⟩
abbrev main_call10_v5 : Ref sig .tc := ⟨.hbm, 218, rfl⟩
abbrev main_call10_v6 : Ref sig .tc := ⟨.hbm, 219, rfl⟩
abbrev main_call10_cst_1 : Ref sig .tc := ⟨.hbm, 220, rfl⟩
abbrev main_call10_v7 : Ref sig .tc := ⟨.hbm, 221, rfl⟩
abbrev main_call10_v8 : Ref sig .tc := ⟨.hbm, 222, rfl⟩
abbrev main_call10_v9 : Ref sig .tc := ⟨.hbm, 223, rfl⟩
abbrev main_call10_v10 : Ref sig .tc := ⟨.hbm, 224, rfl⟩
abbrev main_v109 : Ref sig .tc := ⟨.hbm, 225, rfl⟩
abbrev main_cst_21 : Ref sig .tc := ⟨.hbm, 226, rfl⟩
abbrev main_v110 : Ref sig .tc := ⟨.hbm, 227, rfl⟩
abbrev main_c : Ref sig .tc := ⟨.hbm, 228, rfl⟩
abbrev main_v111 : Ref sig .tc := ⟨.hbm, 229, rfl⟩
abbrev main_cst_22 : Ref sig .tc := ⟨.hbm, 230, rfl⟩
abbrev main_v112 : Ref sig .tc := ⟨.hbm, 231, rfl⟩
abbrev main_v113 : Ref sig .tc := ⟨.hbm, 232, rfl⟩
abbrev main_v114 : Ref sig .tc := ⟨.hbm, 233, rfl⟩
abbrev main_cst_23 : Ref sig .tc := ⟨.hbm, 234, rfl⟩
abbrev main_v115 : Ref sig .tc := ⟨.hbm, 235, rfl⟩

abbrev nD : Nat := 1
abbrev τ : Topo := Topo.v7x

variable {F : FTy → Type} [FloatOps F]

class Facts₀ : Prop where
  reducesTo_S128x256_S128_d1 : S128x256.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x256_0_1 : S128x1.BroadcastsInDim S128x256 (![0, 1] : Fin 2 → Fin S128x256.rank)
  bcast_S_S2048x2048 : S_.BroadcastsInDim S2048x2048 (![] : Fin 0 → Fin S2048x2048.rank)
  bcast_S_S2048x256 : S_.BroadcastsInDim S2048x256 (![] : Fin 0 → Fin S2048x256.rank)
  bcast_S2048_S1x2048_1 : S2048.BroadcastsInDim S1x2048 (![1] : Fin 1 → Fin S1x2048.rank)
  bcast_S1x2048_S128x2048_0_1 : S1x2048.BroadcastsInDim S128x2048 (![0, 1] : Fin 2 → Fin S128x2048.rank)
  bcast_S_S128x2048 : S_.BroadcastsInDim S128x2048 (![] : Fin 0 → Fin S128x2048.rank)
  reducesTo_S128x2048_S128_d1 : S128x2048.ReducesTo [1] S128
  bcast_S_S128 : S_.BroadcastsInDim S128 (![] : Fin 0 → Fin S128.rank)
  reducesTo_S128_S_d0 : S128.ReducesTo [0] S_
  concatenates_S128x256_S128x256_S256x256_d0 : Shape.Concatenates [S128x256, S128x256] S256x256 0
  concatenates_S128_S128_S256_d0 : Shape.Concatenates [S128, S128] S256 0
  reducesTo_S256x256_S256_d1 : S256x256.ReducesTo [1] S256
  bcast_S256_S256x1_0 : S256.BroadcastsInDim S256x1 (![0] : Fin 1 → Fin S256x1.rank)
  shapeCasts_S256x64000_S256x1000x64 : S256x64000.ShapeCasts S256x1000x64
  bcast_S256_S256x1x1_0 : S256.BroadcastsInDim S256x1x1 (![0] : Fin 1 → Fin S256x1x1.rank)
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  bcast_S256x1_S256x1x64_0_1 : S256x1.BroadcastsInDim S256x1x64 (![0, 1] : Fin 2 → Fin S256x1x64.rank)
  bcast_S_S256x1x64 : S_.BroadcastsInDim S256x1x64 (![] : Fin 0 → Fin S256x1x64.rank)
  shapeCasts_S256x1x64_S256x64 : S256x1x64.ShapeCasts S256x64
  bcast_S999_S1x999_1 : S999.BroadcastsInDim S1x999 (![1] : Fin 1 → Fin S1x999.rank)
  bcast_S1x999_S256x999_0_1 : S1x999.BroadcastsInDim S256x999 (![0, 1] : Fin 2 → Fin S256x999.rank)
  bcast_S256x1_S256x999_0_1 : S256x1.BroadcastsInDim S256x999 (![0, 1] : Fin 2 → Fin S256x999.rank)
  natLt_1_32 : 1 < 32
  bcast_S256x999_S256x999x1_0_1 : S256x999.BroadcastsInDim S256x999x1 (![0, 1] : Fin 2 → Fin S256x999x1.rank)
  bcast_S_S256x999x1 : S_.BroadcastsInDim S256x999x1 (![] : Fin 0 → Fin S256x999x1.rank)
  bcast_S1x1x1_S256x999x1_0_1_2 : S1x1x1.BroadcastsInDim S256x999x1 (![0, 1, 2] : Fin 3 → Fin S256x999x1.rank)
  reducesTo_S256x999x1_S256x999_d2 : S256x999x1.ReducesTo [2] S256x999
  bcast_S256x999_S256x999x64_0_1 : S256x999.BroadcastsInDim S256x999x64 (![0, 1] : Fin 2 → Fin S256x999x64.rank)
  bcast_S_S256x999x64 : S_.BroadcastsInDim S256x999x64 (![] : Fin 0 → Fin S256x999x64.rank)
  shapeCasts_S256x999x64_S256x63936 : S256x999x64.ShapeCasts S256x63936
  concatenates_S256x1_S256x64_S256x63936_S256x64001_d1 : Shape.Concatenates [S256x1, S256x64, S256x63936] S256x64001 1
  bcast_S_S256x64001 : S_.BroadcastsInDim S256x64001 (![] : Fin 0 → Fin S256x64001.rank)
  reducesTo_S256x64001_S256_d1 : S256x64001.ReducesTo [1] S256
  bcast_S_S256 : S_.BroadcastsInDim S256 (![] : Fin 0 → Fin S256.rank)
  bcast_S256x1_S256x64001_0_1 : S256x1.BroadcastsInDim S256x64001 (![0, 1] : Fin 2 → Fin S256x64001.rank)
  bcast_S_S1 : S_.BroadcastsInDim S1 (![] : Fin 0 → Fin S1.rank)
  bcast_S_S256x65 : S_.BroadcastsInDim S256x65 (![] : Fin 0 → Fin S256x65.rank)
  dot_S128x2048_S2048x2048_S128x2048_1_0_0_1_n_n_wf : DotDims.WF S128x2048 S2048x2048 S128x2048 [1] [0] [0] [1] [] []
  dot_S128x2048_S2048x256_S128x256_1_0_0_1_n_n_wf : DotDims.WF S128x2048 S2048x256 S128x256 [1] [0] [0] [1] [] []
  dot_S256x256_S256x64000_S256x64000_1_0_0_1_n_n_wf : DotDims.WF S256x256 S256x64000 S256x64000 [1] [0] [0] [1] [] []
  gather_S256x1000x64_S256x1x1_S256x1x64_2_1_0_0_1_2_1164_wf : GatherDims.WF S256x1000x64 S256x1x1 S256x1x64 [2] [1] [0] [1] [0] 2 ![1, 1, 64]
  gather_S256x1000x64_S256x999x1_S256x999x64_2_1_0_0_1_2_1164_wf : GatherDims.WF S256x1000x64 S256x999x1 S256x999x64 [2] [1] [0] [1] [0] 2 ![1, 1, 64]
  scatter_S256x64001_S1_S256x65_01_n_1_0_wf : ScatterDims.WF S256x64001 S1 S256x65 [0, 1] [] [1] 0

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf
def dot_S256x256_S256x64000_S256x64000_1_0_0_1_n_n : DotDims S256x256 S256x64000 S256x64000 where
  lhsContracting := [1]
  rhsContracting := [0]
  lhsNonContracting := [0]
  rhsNonContracting := [1]
  lhsBatch := []
  rhsBatch := []
  wf := dot_S256x256_S256x64000_S256x64000_1_0_0_1_n_n_wf
def gather_S256x1000x64_S256x1x1_S256x1x64_2_1_0_0_1_2_1164 : GatherDims S256x1000x64 S256x1x1 S256x1x64 where
  offsetDims := [2]
  collapsedSliceDims := [1]
  operandBatchingDims := [0]
  startIndicesBatchingDims := [0]
  startIndexMap := [1]
  indexVectorDim := 2
  sliceSizes := ![1, 1, 64]
  wf := gather_S256x1000x64_S256x1x1_S256x1x64_2_1_0_0_1_2_1164_wf
def gather_S256x1000x64_S256x999x1_S256x999x64_2_1_0_0_1_2_1164 : GatherDims S256x1000x64 S256x999x1 S256x999x64 where
  offsetDims := [2]
  collapsedSliceDims := [1]
  operandBatchingDims := [0]
  startIndicesBatchingDims := [0]
  startIndexMap := [1]
  indexVectorDim := 2
  sliceSizes := ![1, 1, 64]
  wf := gather_S256x1000x64_S256x999x1_S256x999x64_2_1_0_0_1_2_1164_wf
def scatter_S256x64001_S1_S256x65_01_n_1_0 : ScatterDims S256x64001 S1 S256x65 where
  updateWindowDims := [0, 1]
  insertedWindowDims := []
  scatterDimsToOperandDims := [1]
  indexVectorDim := 0
  wf := scatter_S256x64001_S1_S256x65_01_n_1_0_wf

class Facts : Prop extends Facts₀ where

variable [Facts]
-- ==== Proof.RefCut.lean ====
import proofs.«163235_j22531398435254_2_alg».proof.Proof.ReadP

/-!
# The reference's operations in three stages

The reference's 222 host operations, cut where the program's stages are: the shared host chain up to the queue
logits; the label-indexed gathers (own class, and all other classes); the assembly of the row, its scaling and the
log-softmax, and the two small results. Each stage's live results are read back as the stage functions of the
argument arrays, from the previous stage's facts — so no read-back ever spans the whole program.
-/

noncomputable section

namespace Cert.ReferenceIdeal.RunValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

section Lists
variable {F : FTy → Type} [FloatOps F]

/-- The shared host chain: everything up to the queue logits (134 operations). -/
abbrev opsH : List (HloOp τ sig (Elt F)) :=
  [ binary main_arg0 main_arg5 main_v0 ((fun l r => Host.dotGeneral dot_S128x2048_S2048x2048_S128x2048_1_0_0_1_n_n none l r) : (⟨S128x2048, .f32⟩ : BufTy).Contents (Elt F) → (⟨S2048x2048, .f32⟩ : BufTy).Contents (Elt F) → (⟨S128x2048, .f32⟩ : BufTy).Contents (Elt F)),
    binary main_v0 main_arg6 main_v1 ((fun l r => Host.dotGeneral dot_S128x2048_S2048x256_S128x256_1_0_0_1_n_n none l r) : (⟨S128x2048, .f32⟩ : BufTy).Contents (Elt F) → (⟨S2048x256, .f32⟩ : BufTy).Contents (Elt F) → (⟨S128x256, .f32⟩ : BufTy).Contents (Elt F)),
    TRef.binary (TRef.of (T := ⟨S128x256, .f32⟩) main_v1) (TRef.of (T := ⟨S128x256, .f32⟩) main_v1) (TRef.of (T := ⟨S128x256, .f32⟩) main_call0_v0) mulf,
    TRef.nullary (TRef.of (T := ⟨S_, .f32⟩) main_call0_cst) (constant S_ .f32 0x00000000#32),
    TRef.binary (TRef.of (T := ⟨S128x256, .f32⟩) main_call0_v0) (TRef.of (T := ⟨S_, .f32⟩) main_call0_cst) (TRef.of (T := ⟨S128, .f32⟩) main_call0_v1) (fun x v => Host.reduceAdd x v reducesTo_S128x256_S128_d1 h_S_),
    TRef.unary (TRef.of (T := ⟨S128, .f32⟩) main_call0_v1) (TRef.of (T := ⟨S128x1, .f32⟩) main_call0_v2) (broadcastInDim S128x1 ![0] bcast_S128_S128x1_0),
    TRef.unary (TRef.of (T := ⟨S128x1, .f32⟩) main_call0_v2) (TRef.of (T := ⟨S128x1, .f32⟩) main_v2) Host.sqrt,
    nullary main_cst (constant S_ .f32 0x2B8CBCCC#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S128x1, .f32⟩) main_call1_v1) (broadcastInDim S128x1 ![] bcast_S_S128x1),
    TRef.binary (TRef.of (T := ⟨S128x1, .f32⟩) main_call1_v1) (TRef.of (T := ⟨S128x1, .f32⟩) main_v2) (TRef.of (T := ⟨S128x1, .f32⟩) main_v3) maximumf,
    unary main_v3 main_v4 (broadcastInDim S128x256 ![0, 1] bcast_S128x1_S128x256_0_1 : (⟨S128x1, .f32⟩ : BufTy).Contents (Elt F) → (⟨S128x256, .f32⟩ : BufTy).Contents (Elt F)),
    binary main_v1 main_v4 main_v5 (Host.divf : (⟨S128x256, .f32⟩ : BufTy).Contents (Elt F) → (⟨S128x256, .f32⟩ : BufTy).Contents (Elt F) → (⟨S128x256, .f32⟩ : BufTy).Contents (Elt F)),
    nullary main_cst_0 (constant S_ .f32 0x3F7FBE77#32),
    unary main_cst_0 main_v6 (broadcastInDim S2048x2048 ![] bcast_S_S2048x2048 : (⟨S_, .f32⟩ : BufTy).Contents (Elt F) → (⟨S2048x2048, .f32⟩ : BufTy).Contents (Elt F)),
    binary main_v6 main_arg7 main_v7 (mulf : (⟨S2048x2048, .f32⟩ : BufTy).Contents (Elt F) → (⟨S2048x2048, .f32⟩ : BufTy).Contents (Elt F) → (⟨S2048x2048, .f32⟩ : BufTy).Contents (Elt F)),
    nullary main_cst_1 (constant S_ .f32 0x3A83126F#32),
    unary main_cst_1 main_v8 (broadcastInDim S2048x2048 ![] bcast_S_S2048x2048 : (⟨S_, .f32⟩ : BufTy).Contents (Elt F) → (⟨S2048x2048, .f32⟩ : BufTy).Contents (Elt F)),
    binary main_v8 main_arg5 main_v9 (mulf : (⟨S2048x2048, .f32⟩ : BufTy).Contents (Elt F) → (⟨S2048x2048, .f32⟩ : BufTy).Contents (Elt F) → (⟨S2048x2048, .f32⟩ : BufTy).Contents (Elt F)),
    binary main_v7 main_v9 main_v10 (addf : (⟨S2048x2048, .f32⟩ : BufTy).Contents (Elt F) → (⟨S2048x2048, .f32⟩ : BufTy).Contents (Elt F) → (⟨S2048x2048, .f32⟩ : BufTy).Contents (Elt F)),
    nullary main_cst_2 (constant S_ .f32 0x3F7FBE77#32),
    unary main_cst_2 main_v11 (broadcastInDim S2048x256 ![] bcast_S_S2048x256 : (⟨S_, .f32⟩ : BufTy).Contents (Elt F) → (⟨S2048x256, .f32⟩ : BufTy).Contents (Elt F)),
    binary main_v11 main_arg8 main_v12 (mulf : (⟨S2048x256, .f32⟩ : BufTy).Contents (Elt F) → (⟨S2048x256, .f32⟩ : BufTy).Contents (Elt F) → (⟨S2048x256, .f32⟩ : BufTy).Contents (Elt F)),
    nullary main_cst_3 (constant S_ .f32 0x3A83126F#32),
    unary main_cst_3 main_v13 (broadcastInDim S2048x256 ![] bcast_S_S2048x256 : (⟨S_, .f32⟩ : BufTy).Contents (Elt F) → (⟨S2048x256, .f32⟩ : BufTy).Contents (Elt F)),
    binary main_v13 main_arg6 main_v14 (mulf : (⟨S2048x256, .f32⟩ : BufTy).Contents (Elt F) → (⟨S2048x256, .f32⟩ : BufTy).Contents (Elt F) → (⟨S2048x256, .f32⟩ : BufTy).Contents (Elt F)),
    binary main_v12 main_v14 main_v15 (addf : (⟨S2048x256, .f32⟩ : BufTy).Contents (Elt F) → (⟨S2048x256, .f32⟩ : BufTy).Contents (Elt F) → (⟨S2048x256, .f32⟩ : BufTy).Contents (Elt F)),
    binary main_arg1 main_v10 main_v16 ((fun l r => Host.dotGeneral dot_S128x2048_S2048x2048_S128x2048_1_0_0_1_n_n none l r) : (⟨S128x2048, .f32⟩ : BufTy).Contents (Elt F) → (⟨S2048x2048, .f32⟩ : BufTy).Contents (Elt F) → (⟨S128x2048, .f32⟩ : BufTy).Contents (Elt F)),
    binary main_v16 main_v15 main_v17 ((fun l r => Host.dotGeneral dot_S128x2048_S2048x256_S128x256_1_0_0_1_n_n none l r) : (⟨S128x2048, .f32⟩ : BufTy).Contents (Elt F) → (⟨S2048x256, .f32⟩ : BufTy).Contents (Elt F) → (⟨S128x256, .f32⟩ : BufTy).Contents (Elt F)),
    TRef.binary (TRef.of (T := ⟨S128x256, .f32⟩) main_v17) (TRef.of (T := ⟨S128x256, .f32⟩) main_v17) (TRef.of (T := ⟨S128x256, .f32⟩) main_call2_v0) mulf,
    TRef.nullary (TRef.of (T := ⟨S_, .f32⟩) main_call2_cst) (constant S_ .f32 0x00000000#32),
    TRef.binary (TRef.of (T := ⟨S128x256, .f32⟩) main_call2_v0) (TRef.of (T := ⟨S_, .f32⟩) main_call2_cst) (TRef.of (T := ⟨S128, .f32⟩) main_call2_v1) (fun x v => Host.reduceAdd x v reducesTo_S128x256_S128_d1 h_S_),
    TRef.unary (TRef.of (T := ⟨S128, .f32⟩) main_call2_v1) (TRef.of (T := ⟨S128x1, .f32⟩) main_call2_v2) (broadcastInDim S128x1 ![0] bcast_S128_S128x1_0),
    TRef.unary (TRef.of (T := ⟨S128x1, .f32⟩) main_call2_v2) (TRef.of (T := ⟨S128x1, .f32⟩) main_v18) Host.sqrt,
    nullary main_cst_4 (constant S_ .f32 0x2B8CBCCC#32),
    TRef.unary (TRef.of (T := ⟨S_, .f32⟩) main_cst_4) (TRef.of (T := ⟨S_, .f32⟩) main_call3_v0) id,
    TRef.unary (TRef.of (T := ⟨S_, .f32⟩) main_call3_v0) (TRef.of (T := ⟨S128x1, .f32⟩) main_call3_v1) (broadcastInDim S128x1 ![] bcast_S_S128x1),
    TRef.binary (TRef.of (T := ⟨S128x1, .f32⟩) main_call3_v1) (TRef.of (T := ⟨S128x1, .f32⟩) main_v18) (TRef.of (T := ⟨S128x1, .f32⟩) main_v19) maximumf,
    unary main_v19 main_v20 (broadcastInDim S128x256 ![0, 1] bcast_S128x1_S128x256_0_1 : (⟨S128x1, .f32⟩ : BufTy).Contents (Elt F) → (⟨S128x256, .f32⟩ : BufTy).Contents (Elt F)),
    binary main_v17 main_v20 main_v21 (Host.divf : (⟨S128x256, .f32⟩ : BufTy).Contents (Elt F) → (⟨S128x256, .f32⟩ : BufTy).Contents (Elt F) → (⟨S128x256, .f32⟩ : BufTy).Contents (Elt F)),
    binary main_v0 main_arg9 main_v22 ((fun l r => Host.dotGeneral dot_S128x2048_S2048x2048_S128x2048_1_0_0_1_n_n none l r) : (⟨S128x2048, .f32⟩ : BufTy).Contents (Elt F) → (⟨S2048x2048, .f32⟩ : BufTy).Contents (Elt F) → (⟨S128x2048, .f32⟩ : BufTy).Contents (Elt F)),
    unary main_arg10 main_v23 (broadcastInDim S1x2048 ![1] bcast_S2048_S1x2048_1 : (⟨S2048, .f32⟩ : BufTy).Contents (Elt F) → (⟨S1x2048, .f32⟩ : BufTy).Contents (Elt F)),
    unary main_v23 main_v24 (broadcastInDim S128x2048 ![0, 1] bcast_S1x2048_S128x2048_0_1 : (⟨S1x2048, .f32⟩ : BufTy).Contents (Elt F) → (⟨S128x2048, .f32⟩ : BufTy).Contents (Elt F)),
    binary main_v22 main_v24 main_v25 (addf : (⟨S128x2048, .f32⟩ : BufTy).Contents (Elt F) → (⟨S128x2048, .f32⟩ : BufTy).Contents (Elt F) → (⟨S128x2048, .f32⟩ : BufTy).Contents (Elt F)),
    binary main_v0 main_arg11 main_v26 ((fun l r => Host.dotGeneral dot_S128x2048_S2048x2048_S128x2048_1_0_0_1_n_n none l r) : (⟨S128x2048, .f32⟩ : BufTy).Contents (Elt F) → (⟨S2048x2048, .f32⟩ : BufTy).Contents (Elt F) → (⟨S128x2048, .f32⟩ : BufTy).Contents (Elt F)),
    unary main_arg12 main_v27 (broadcastInDim S1x2048 ![1] bcast_S2048_S1x2048_1 : (⟨S2048, .f32⟩ : BufTy).Contents (Elt F) → (⟨S1x2048, .f32⟩ : BufTy).Contents (Elt F)),
    unary main_v27 main_v28 (broadcastInDim S128x2048 ![0, 1] bcast_S1x2048_S128x2048_0_1 : (⟨S1x2048, .f32⟩ : BufTy).Contents (Elt F) → (⟨S128x2048, .f32⟩ : BufTy).Contents (Elt F)),
    binary main_v26 main_v28 main_v29 (addf : (⟨S128x2048, .f32⟩ : BufTy).Contents (Elt F) → (⟨S128x2048, .f32⟩ : BufTy).Contents (Elt F) → (⟨S128x2048, .f32⟩ : BufTy).Contents (Elt F)),
    nullary main_cst_5 (constant S_ .f32 0x3F000000#32),
    unary main_cst_5 main_v30 (broadcastInDim S128x2048 ![] bcast_S_S128x2048 : (⟨S_, .f32⟩ : BufTy).Contents (Elt F) → (⟨S128x2048, .f32⟩ : BufTy).Contents (Elt F)),
    binary main_v30 main_v29 main_v31 (mulf : (⟨S128x2048, .f32⟩ : BufTy).Contents (Elt F) → (⟨S128x2048, .f32⟩ : BufTy).Contents (Elt F) → (⟨S128x2048, .f32⟩ : BufTy).Contents (Elt F)),
    unary main_v31 main_v32 (Host.exp : (⟨S128x2048, .f32⟩ : BufTy).Contents (Elt F) → (⟨S128x2048, .f32⟩ : BufTy).Contents (Elt F)),
    binary main_v32 main_v25 main_v33 (mulf : (⟨S128x2048, .f32⟩ : BufTy).Contents (Elt F) → (⟨S128x2048, .f32⟩ : BufTy).Contents (Elt F) → (⟨S128x2048, .f32⟩ : BufTy).Contents (Elt F)),
    binary main_arg3 main_v33 main_v34 (addf : (⟨S128x2048, .f32⟩ : BufTy).Contents (Elt F) → (⟨S128x2048, .f32⟩ : BufTy).Contents (Elt F) → (⟨S128x2048, .f32⟩ : BufTy).Contents (Elt F)),
    nullary main_cst_6 (constant S_ .f32 0x3F800000#32),
    unary main_cst_6 main_v35 (broadcastInDim S128x2048 ![] bcast_S_S128x2048 : (⟨S_, .f32⟩ : BufTy).Contents (Elt F) → (⟨S128x2048, .f32⟩ : BufTy).Contents (Elt F)),
    binary main_v35 main_v29 main_v36 (addf : (⟨S128x2048, .f32⟩ : BufTy).Contents (Elt F) → (⟨S128x2048, .f32⟩ : BufTy).Contents (Elt F) → (⟨S128x2048, .f32⟩ : BufTy).Contents (Elt F)),
    binary main_v25 main_v25 main_v37 (mulf : (⟨S128x2048, .f32⟩ : BufTy).Contents (Elt F) → (⟨S128x2048, .f32⟩ : BufTy).Contents (Elt F) → (⟨S128x2048, .f32⟩ : BufTy).Contents (Elt F)),
    binary main_v36 main_v37 main_v38 (subf : (⟨S128x2048, .f32⟩ : BufTy).Contents (Elt F) → (⟨S128x2048, .f32⟩ : BufTy).Contents (Elt F) → (⟨S128x2048, .f32⟩ : BufTy).Contents (Elt F)),
    unary main_v29 main_v39 (Host.exp : (⟨S128x2048, .f32⟩ : BufTy).Contents (Elt F) → (⟨S128x2048, .f32⟩ : BufTy).Contents (Elt F)),
    binary main_v38 main_v39 main_v40 (subf : (⟨S128x2048, .f32⟩ : BufTy).Contents (Elt F) → (⟨S128x2048, .f32⟩ : BufTy).Contents (Elt F) → (⟨S128x2048, .f32⟩ : BufTy).Contents (Elt F)),
    nullary main_cst_7 (constant S_ .f32 0x00000000#32),
    binary main_v40 main_cst_7 main_v41 ((fun x v => Host.reduceAdd x v reducesTo_S128x2048_S128_d1 h_S_) : (⟨S128x2048, .f32⟩ : BufTy).Contents (Elt F) → (⟨S_, .f32⟩ : BufTy).Contents (Elt F) → (⟨S128, .f32⟩ : BufTy).Contents (Elt F)),
    nullary main_cst_8 (constant S_ .f32 0x3F000000#32),
    unary main_cst_8 main_v42 (broadcastInDim S128 ![] bcast_S_S128 : (⟨S_, .f32⟩ : BufTy).Contents (Elt F) → (⟨S128, .f32⟩ : BufTy).Contents (Elt F)),
    binary main_v42 main_v41 main_v43 (mulf : (⟨S128, .f32⟩ : BufTy).Contents (Elt F) → (⟨S128, .f32⟩ : BufTy).Contents (Elt F) → (⟨S128, .f32⟩ : BufTy).Contents (Elt F)),
    nullary main_cst_9 (constant S_ .f32 0x00000000#32),
    binary main_v43 main_cst_9 main_v44 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    nullary main_cst_10 (constant S_ .f32 0x43000000#32),
    binary main_v44 main_cst_10 main_v45 (Host.divf : (⟨S_, .f32⟩ : BufTy).Contents (Elt F) → (⟨S_, .f32⟩ : BufTy).Contents (Elt F) → (⟨S_, .f32⟩ : BufTy).Contents (Elt F)),
    unary main_v45 main_v46 (Host.negf : (⟨S_, .f32⟩ : BufTy).Contents (Elt F) → (⟨S_, .f32⟩ : BufTy).Contents (Elt F)),
    binary main_v34 main_arg6 main_v47 ((fun l r => Host.dotGeneral dot_S128x2048_S2048x256_S128x256_1_0_0_1_n_n none l r) : (⟨S128x2048, .f32⟩ : BufTy).Contents (Elt F) → (⟨S2048x256, .f32⟩ : BufTy).Contents (Elt F) → (⟨S128x256, .f32⟩ : BufTy).Contents (Elt F)),
    TRef.binary (TRef.of (T := ⟨S128x256, .f32⟩) main_v47) (TRef.of (T := ⟨S128x256, .f32⟩) main_v47) (TRef.of (T := ⟨S128x256, .f32⟩) main_call4_v0) mulf,
    TRef.nullary (TRef.of (T := ⟨S_, .f32⟩) main_call4_cst) (constant S_ .f32 0x00000000#32),
    TRef.binary (TRef.of (T := ⟨S128x256, .f32⟩) main_call4_v0) (TRef.of (T := ⟨S_, .f32⟩) main_call4_cst) (TRef.of (T := ⟨S128, .f32⟩) main_call4_v1) (fun x v => Host.reduceAdd x v reducesTo_S128x256_S128_d1 h_S_),
    TRef.unary (TRef.of (T := ⟨S128, .f32⟩) main_call4_v1) (TRef.of (T := ⟨S128x1, .f32⟩) main_call4_v2) (broadcastInDim S128x1 ![0] bcast_S128_S128x1_0),
    TRef.unary (TRef.of (T := ⟨S128x1, .f32⟩) main_call4_v2) (TRef.of (T := ⟨S128x1, .f32⟩) main_v48) Host.sqrt,
    nullary main_cst_11 (constant S_ .f32 0x2B8CBCCC#32),
    TRef.unary (TRef.of (T := ⟨S_, .f32⟩) main_cst_11) (TRef.of (T := ⟨S_, .f32⟩) main_call5_v0) id,
    TRef.unary (TRef.of (T := ⟨S_, .f32⟩) main_call5_v0) (TRef.of (T := ⟨S128x1, .f32⟩) main_call5_v1) (broadcastInDim S128x1 ![] bcast_S_S128x1),
    TRef.binary (TRef.of (T := ⟨S128x1, .f32⟩) main_call5_v1) (TRef.of (T := ⟨S128x1, .f32⟩) main_v48) (TRef.of (T := ⟨S128x1, .f32⟩) main_v49) maximumf,
    unary main_v49 main_v50 (broadcastInDim S128x256 ![0, 1] bcast_S128x1_S128x256_0_1 : (⟨S128x1, .f32⟩ : BufTy).Contents (Elt F) → (⟨S128x256, .f32⟩ : BufTy).Contents (Elt F)),
    binary main_v47 main_v50 main_v51 (Host.divf : (⟨S128x256, .f32⟩ : BufTy).Contents (Elt F) → (⟨S128x256, .f32⟩ : BufTy).Contents (Elt F) → (⟨S128x256, .f32⟩ : BufTy).Contents (Elt F)),
    binary main_v16 main_arg9 main_v52 ((fun l r => Host.dotGeneral dot_S128x2048_S2048x2048_S128x2048_1_0_0_1_n_n none l r) : (⟨S128x2048, .f32⟩ : BufTy).Contents (Elt F) → (⟨S2048x2048, .f32⟩ : BufTy).Contents (Elt F) → (⟨S128x2048, .f32⟩ : BufTy).Contents (Elt F)),
    unary main_arg10 main_v53 (broadcastInDim S1x2048 ![1] bcast_S2048_S1x2048_1 : (⟨S2048, .f32⟩ : BufTy).Contents (Elt F) → (⟨S1x2048, .f32⟩ : BufTy).Contents (Elt F)),
    unary main_v53 main_v54 (broadcastInDim S128x2048 ![0, 1] bcast_S1x2048_S128x2048_0_1 : (⟨S1x2048, .f32⟩ : BufTy).Contents (Elt F) → (⟨S128x2048, .f32⟩ : BufTy).Contents (Elt F)),
    binary main_v52 main_v54 main_v55 (addf : (⟨S128x2048, .f32⟩ : BufTy).Contents (Elt F) → (⟨S128x2048, .f32⟩ : BufTy).Contents (Elt F) → (⟨S128x2048, .f32⟩ : BufTy).Contents (Elt F)),
    binary main_v16 main_arg11 main_v56 ((fun l r => Host.dotGeneral dot_S128x2048_S2048x2048_S128x2048_1_0_0_1_n_n none l r) : (⟨S128x2048, .f32⟩ : BufTy).Contents (Elt F) → (⟨S2048x2048, .f32⟩ : BufTy).Contents (Elt F) → (⟨S128x2048, .f32⟩ : BufTy).Contents (Elt F)),
    unary main_arg12 main_v57 (broadcastInDim S1x2048 ![1] bcast_S2048_S1x2048_1 : (⟨S2048, .f32⟩ : BufTy).Contents (Elt F) → (⟨S1x2048, .f32⟩ : BufTy).Contents (Elt F)),
    unary main_v57 main_v58 (broadcastInDim S128x2048 ![0, 1] bcast_S1x2048_S128x2048_0_1 : (⟨S1x2048, .f32⟩ : BufTy).Contents (Elt F) → (⟨S128x2048, .f32⟩ : BufTy).Contents (Elt F)),
    binary main_v56 main_v58 main_v59 (addf : (⟨S128x2048, .f32⟩ : BufTy).Contents (Elt F) → (⟨S128x2048, .f32⟩ : BufTy).Contents (Elt F) → (⟨S128x2048, .f32⟩ : BufTy).Contents (Elt F)),
    nullary main_cst_12 (constant S_ .f32 0x3F000000#32),
    unary main_cst_12 main_v60 (broadcastInDim S128x2048 ![] bcast_S_S128x2048 : (⟨S_, .f32⟩ : BufTy).Contents (Elt F) → (⟨S128x2048, .f32⟩ : BufTy).Contents (Elt F)),
    binary main_v60 main_v59 main_v61 (mulf : (⟨S128x2048, .f32⟩ : BufTy).Contents (Elt F) → (⟨S128x2048, .f32⟩ : BufTy).Contents (Elt F) → (⟨S128x2048, .f32⟩ : BufTy).Contents (Elt F)),
    unary main_v61 main_v62 (Host.exp : (⟨S128x2048, .f32⟩ : BufTy).Contents (Elt F) → (⟨S128x2048, .f32⟩ : BufTy).Contents (Elt F)),
    binary main_v62 main_v55 main_v63 (mulf : (⟨S128x2048, .f32⟩ : BufTy).Contents (Elt F) → (⟨S128x2048, .f32⟩ : BufTy).Contents (Elt F) → (⟨S128x2048, .f32⟩ : BufTy).Contents (Elt F)),
    binary main_arg4 main_v63 main_v64 (addf : (⟨S128x2048, .f32⟩ : BufTy).Contents (Elt F) → (⟨S128x2048, .f32⟩ : BufTy).Contents (Elt F) → (⟨S128x2048, .f32⟩ : BufTy).Contents (Elt F)),
    nullary main_cst_13 (constant S_ .f32 0x3F800000#32),
    unary main_cst_13 main_v65 (broadcastInDim S128x2048 ![] bcast_S_S128x2048 : (⟨S_, .f32⟩ : BufTy).Contents (Elt F) → (⟨S128x2048, .f32⟩ : BufTy).Contents (Elt F)),
    binary main_v65 main_v59 main_v66 (addf : (⟨S128x2048, .f32⟩ : BufTy).Contents (Elt F) → (⟨S128x2048, .f32⟩ : BufTy).Contents (Elt F) → (⟨S128x2048, .f32⟩ : BufTy).Contents (Elt F)),
    binary main_v55 main_v55 main_v67 (mulf : (⟨S128x2048, .f32⟩ : BufTy).Contents (Elt F) → (⟨S128x2048, .f32⟩ : BufTy).Contents (Elt F) → (⟨S128x2048, .f32⟩ : BufTy).Contents (Elt F)),
    binary main_v66 main_v67 main_v68 (subf : (⟨S128x2048, .f32⟩ : BufTy).Contents (Elt F) → (⟨S128x2048, .f32⟩ : BufTy).Contents (Elt F) → (⟨S128x2048, .f32⟩ : BufTy).Contents (Elt F)),
    unary main_v59 main_v69 (Host.exp : (⟨S128x2048, .f32⟩ : BufTy).Contents (Elt F) → (⟨S128x2048, .f32⟩ : BufTy).Contents (Elt F)),
    binary main_v68 main_v69 main_v70 (subf : (⟨S128x2048, .f32⟩ : BufTy).Contents (Elt F) → (⟨S128x2048, .f32⟩ : BufTy).Contents (Elt F) → (⟨S128x2048, .f32⟩ : BufTy).Contents (Elt F)),
    nullary main_cst_14 (constant S_ .f32 0x00000000#32),
    binary main_v70 main_cst_14 main_v71 ((fun x v => Host.reduceAdd x v reducesTo_S128x2048_S128_d1 h_S_) : (⟨S128x2048, .f32⟩ : BufTy).Contents (Elt F) → (⟨S_, .f32⟩ : BufTy).Contents (Elt F) → (⟨S128, .f32⟩ : BufTy).Contents (Elt F)),
    nullary main_cst_15 (constant S_ .f32 0x3F000000#32),
    unary main_cst_15 main_v72 (broadcastInDim S128 ![] bcast_S_S128 : (⟨S_, .f32⟩ : BufTy).Contents (Elt F) → (⟨S128, .f32⟩ : BufTy).Contents (Elt F)),
    binary main_v72 main_v71 main_v73 (mulf : (⟨S128, .f32⟩ : BufTy).Contents (Elt F) → (⟨S128, .f32⟩ : BufTy).Contents (Elt F) → (⟨S128, .f32⟩ : BufTy).Contents (Elt F)),
    nullary main_cst_16 (constant S_ .f32 0x00000000#32),
    binary main_v73 main_cst_16 main_v74 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    nullary main_cst_17 (constant S_ .f32 0x43000000#32),
    binary main_v74 main_cst_17 main_v75 (Host.divf : (⟨S_, .f32⟩ : BufTy).Contents (Elt F) → (⟨S_, .f32⟩ : BufTy).Contents (Elt F) → (⟨S_, .f32⟩ : BufTy).Contents (Elt F)),
    unary main_v75 main_v76 (Host.negf : (⟨S_, .f32⟩ : BufTy).Contents (Elt F) → (⟨S_, .f32⟩ : BufTy).Contents (Elt F)),
    binary main_v64 main_v15 main_v77 ((fun l r => Host.dotGeneral dot_S128x2048_S2048x256_S128x256_1_0_0_1_n_n none l r) : (⟨S128x2048, .f32⟩ : BufTy).Contents (Elt F) → (⟨S2048x256, .f32⟩ : BufTy).Contents (Elt F) → (⟨S128x256, .f32⟩ : BufTy).Contents (Elt F)),
    TRef.binary (TRef.of (T := ⟨S128x256, .f32⟩) main_v77) (TRef.of (T := ⟨S128x256, .f32⟩) main_v77) (TRef.of (T := ⟨S128x256, .f32⟩) main_call6_v0) mulf,
    TRef.nullary (TRef.of (T := ⟨S_, .f32⟩) main_call6_cst) (constant S_ .f32 0x00000000#32),
    TRef.binary (TRef.of (T := ⟨S128x256, .f32⟩) main_call6_v0) (TRef.of (T := ⟨S_, .f32⟩) main_call6_cst) (TRef.of (T := ⟨S128, .f32⟩) main_call6_v1) (fun x v => Host.reduceAdd x v reducesTo_S128x256_S128_d1 h_S_),
    TRef.unary (TRef.of (T := ⟨S128, .f32⟩) main_call6_v1) (TRef.of (T := ⟨S128x1, .f32⟩) main_call6_v2) (broadcastInDim S128x1 ![0] bcast_S128_S128x1_0),
    TRef.unary (TRef.of (T := ⟨S128x1, .f32⟩) main_call6_v2) (TRef.of (T := ⟨S128x1, .f32⟩) main_v78) Host.sqrt,
    nullary main_cst_18 (constant S_ .f32 0x2B8CBCCC#32),
    TRef.unary (TRef.of (T := ⟨S_, .f32⟩) main_cst_18) (TRef.of (T := ⟨S_, .f32⟩) main_call7_v0) id,
    TRef.unary (TRef.of (T := ⟨S_, .f32⟩) main_call7_v0) (TRef.of (T := ⟨S128x1, .f32⟩) main_call7_v1) (broadcastInDim S128x1 ![] bcast_S_S128x1),
    TRef.binary (TRef.of (T := ⟨S128x1, .f32⟩) main_call7_v1) (TRef.of (T := ⟨S128x1, .f32⟩) main_v78) (TRef.of (T := ⟨S128x1, .f32⟩) main_v79) maximumf,
    unary main_v79 main_v80 (broadcastInDim S128x256 ![0, 1] bcast_S128x1_S128x256_0_1 : (⟨S128x1, .f32⟩ : BufTy).Contents (Elt F) → (⟨S128x256, .f32⟩ : BufTy).Contents (Elt F)),
    binary main_v77 main_v80 main_v81 (Host.divf : (⟨S128x256, .f32⟩ : BufTy).Contents (Elt F) → (⟨S128x256, .f32⟩ : BufTy).Contents (Elt F) → (⟨S128x256, .f32⟩ : BufTy).Contents (Elt F)),
    binary main_v5 main_v51 main_v82 ((fun a b => concatenate S256x256 0 [⟨S128x256, a⟩, ⟨S128x256, b⟩] concatenates_S128x256_S128x256_S256x256_d0) : (⟨S128x256, .f32⟩ : BufTy).Contents (Elt F) → (⟨S128x256, .f32⟩ : BufTy).Contents (Elt F) → (⟨S256x256, .f32⟩ : BufTy).Contents (Elt F)),
    binary main_v21 main_v81 main_v83 ((fun a b => concatenate S256x256 0 [⟨S128x256, a⟩, ⟨S128x256, b⟩] concatenates_S128x256_S128x256_S256x256_d0) : (⟨S128x256, .f32⟩ : BufTy).Contents (Elt F) → (⟨S128x256, .f32⟩ : BufTy).Contents (Elt F) → (⟨S256x256, .f32⟩ : BufTy).Contents (Elt F)),
    binary main_arg2 main_arg2 main_v84 ((fun a b => concatenate S256 0 [⟨S128, a⟩, ⟨S128, b⟩] concatenates_S128_S128_S256_d0) : (⟨S128, .i32⟩ : BufTy).Contents (Elt F) → (⟨S128, .i32⟩ : BufTy).Contents (Elt F) → (⟨S256, .i32⟩ : BufTy).Contents (Elt F)),
    binary main_v82 main_v83 main_v85 (mulf : (⟨S256x256, .f32⟩ : BufTy).Contents (Elt F) → (⟨S256x256, .f32⟩ : BufTy).Contents (Elt F) → (⟨S256x256, .f32⟩ : BufTy).Contents (Elt F)),
    nullary main_cst_19 (constant S_ .f32 0x00000000#32),
    binary main_v85 main_cst_19 main_v86 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F)),
    unary main_v86 main_v87 (broadcastInDim S256x1 ![0] bcast_S256_S256x1_0 : (⟨S256, .f32⟩ : BufTy).Contents (Elt F) → (⟨S256x1, .f32⟩ : BufTy).Contents (Elt F)),
    binary main_v82 main_arg13 main_v88 ((fun l r => Host.dotGeneral dot_S256x256_S256x64000_S256x64000_1_0_0_1_n_n none l r) : (⟨S256x256, .f32⟩ : BufTy).Contents (Elt F) → (⟨S256x64000, .f32⟩ : BufTy).Contents (Elt F) → (⟨S256x64000, .f32⟩ : BufTy).Contents (Elt F)) ]

/-- The two label-indexed gathers (59 operations). -/
abbrev opsM : List (HloOp τ sig (Elt F)) :=
  [ reshape main_v88 main_v89 rfl shapeCasts_S256x64000_S256x1000x64,
    unary main_v84 main_v90 (broadcastInDim S256x1x1 ![0] bcast_S256_S256x1x1_0 : (⟨S256, .i32⟩ : BufTy).Contents (Elt F) → (⟨S256x1x1, .i32⟩ : BufTy).Contents (Elt F)),
    TRef.nullary (TRef.of (T := ⟨S_, .i32⟩) main_call8_c) (constantI S_ 32 0#32),
    TRef.unary (TRef.of (T := ⟨S_, .i32⟩) main_call8_c) (TRef.of (T := ⟨S256x1x1, .i32⟩) main_call8_v0) (broadcastInDim S256x1x1 ![] bcast_S_S256x1x1),
    TRef.binary (TRef.of (T := ⟨S256x1x1, .i32⟩) main_v90) (TRef.of (T := ⟨S256x1x1, .i32⟩) main_call8_v0) (TRef.of (T := ⟨S256x1x1, .i1⟩) main_call8_v1) (cmpi .slt),
    TRef.nullary (TRef.of (T := ⟨S_, .i32⟩) main_call8_c_0) (constantI S_ 32 1000#32),
    TRef.unary (TRef.of (T := ⟨S_, .i32⟩) main_call8_c_0) (TRef.of (T := ⟨S256x1x1, .i32⟩) main_call8_v2) (broadcastInDim S256x1x1 ![] bcast_S_S256x1x1),
    TRef.binary (TRef.of (T := ⟨S256x1x1, .i32⟩) main_v90) (TRef.of (T := ⟨S256x1x1, .i32⟩) main_call8_v2) (TRef.of (T := ⟨S256x1x1, .i32⟩) main_call8_v3) addi,
    TRef.ternary (TRef.of (T := ⟨S256x1x1, .i1⟩) main_call8_v1) (TRef.of (T := ⟨S256x1x1, .i32⟩) main_call8_v3) (TRef.of (T := ⟨S256x1x1, .i32⟩) main_v90) (TRef.of (T := ⟨S256x1x1, .i32⟩) main_call8_v4) select,
    TRef.nullary (TRef.of (T := ⟨S1, .i32⟩) main_call8_c_1) (constantI S1 32 999#32),
    TRef.nullary (TRef.of (T := ⟨S_, .i32⟩) main_call8_c_2) (constantI S_ 32 0#32),
    TRef.unary (TRef.of (T := ⟨S_, .i32⟩) main_call8_c_2) (TRef.of (T := ⟨S256x1x1, .i32⟩) main_call8_v5) (broadcastInDim S256x1x1 ![] bcast_S_S256x1x1),
    TRef.binary (TRef.of (T := ⟨S256x1x1, .i32⟩) main_call8_v4) (TRef.of (T := ⟨S256x1x1, .i32⟩) main_call8_v5) (TRef.of (T := ⟨S256x1x1, .i1⟩) main_call8_v6) (cmpi .sge),
    TRef.unary (TRef.of (T := ⟨S1, .i32⟩) main_call8_c_1) (TRef.of (T := ⟨S1x1x1, .i32⟩) main_call8_v7) (broadcastInDim S1x1x1 ![2] bcast_S1_S1x1x1_2),
    TRef.unary (TRef.of (T := ⟨S1x1x1, .i32⟩) main_call8_v7) (TRef.of (T := ⟨S256x1x1, .i32⟩) main_call8_v8) (broadcastInDim S256x1x1 ![0, 1, 2] bcast_S1x1x1_S256x1x1_0_1_2),
    TRef.binary (TRef.of (T := ⟨S256x1x1, .i32⟩) main_call8_v4) (TRef.of (T := ⟨S256x1x1, .i32⟩) main_call8_v8) (TRef.of (T := ⟨S256x1x1, .i1⟩) main_call8_v9) (cmpi .sle),
    TRef.binary (TRef.of (T := ⟨S256x1x1, .i1⟩) main_call8_v6) (TRef.of (T := ⟨S256x1x1, .i1⟩) main_call8_v9) (TRef.of (T := ⟨S256x1x1, .i1⟩) main_call8_v10) andi,
    TRef.nullary (TRef.of (T := ⟨S_, .i1⟩) main_call8_c_3) (constantI S_ 1 1#1),
    TRef.binary (TRef.of (T := ⟨S256x1x1, .i1⟩) main_call8_v10) (TRef.of (T := ⟨S_, .i1⟩) main_call8_c_3) (TRef.of (T := ⟨S256x1, .i1⟩) main_call8_v11) (fun x v => Host.reduce IntOp.andi x v reducesTo_S256x1x1_S256x1_d2 h_S_),
    TRef.binary (TRef.of (T := ⟨S256x1000x64, .f32⟩) main_v89) (TRef.of (T := ⟨S256x1x1, .i32⟩) main_call8_v4) (TRef.of (T := ⟨S256x1x64, .f32⟩) main_call8_v12) (fun x i => Host.gather gather_S256x1000x64_S256x1x1_S256x1x64_2_1_0_0_1_2_1164 x i),
    TRef.unary (TRef.of (T := ⟨S256x1, .i1⟩) main_call8_v11) (TRef.of (T := ⟨S256x1x64, .i1⟩) main_call8_v13) (broadcastInDim S256x1x64 ![0, 1] bcast_S256x1_S256x1x64_0_1),
    TRef.nullary (TRef.of (T := ⟨S_, .f32⟩) main_call8_cst) (constant S_ .f32 0x7FC00000#32),
    TRef.unary (TRef.of (T := ⟨S_, .f32⟩) main_call8_cst) (TRef.of (T := ⟨S256x1x64, .f32⟩) main_call8_v14) (broadcastInDim S256x1x64 ![] bcast_S_S256x1x64),
    TRef.ternary (TRef.of (T := ⟨S256x1x64, .i1⟩) main_call8_v13) (TRef.of (T := ⟨S256x1x64, .f32⟩) main_call8_v12) (TRef.of (T := ⟨S256x1x64, .f32⟩) main_call8_v14) (TRef.of (T := ⟨S256x1x64, .f32⟩) main_v91) select,
    reshape main_v91 main_v92 rfl shapeCasts_S256x1x64_S256x64,
    nullary main_v93 (iotaInDim S999 32 0),
    unary main_v93 main_v94 (broadcastInDim S1x999 ![1] bcast_S999_S1x999_1 : (⟨S999, .i32⟩ : BufTy).Contents (Elt F) → (⟨S1x999, .i32⟩ : BufTy).Contents (Elt F)),
    unary main_v93 main_v95 (broadcastInDim S1x999 ![1] bcast_S999_S1x999_1 : (⟨S999, .i32⟩ : BufTy).Contents (Elt F) → (⟨S1x999, .i32⟩ : BufTy).Contents (Elt F)),
    unary main_v84 main_v96 (broadcastInDim S256x1 ![0] bcast_S256_S256x1_0 : (⟨S256, .i32⟩ : BufTy).Contents (Elt F) → (⟨S256x1, .i32⟩ : BufTy).Contents (Elt F)),
    unary main_v95 main_v97 (broadcastInDim S256x999 ![0, 1] bcast_S1x999_S256x999_0_1 : (⟨S1x999, .i32⟩ : BufTy).Contents (Elt F) → (⟨S256x999, .i32⟩ : BufTy).Contents (Elt F)),
    unary main_v96 main_v98 (broadcastInDim S256x999 ![0, 1] bcast_S256x1_S256x999_0_1 : (⟨S256x1, .i32⟩ : BufTy).Contents (Elt F) → (⟨S256x999, .i32⟩ : BufTy).Contents (Elt F)),
    binary main_v97 main_v98 main_v99 (cmpi .sge : (⟨S256x999, .i32⟩ : BufTy).Contents (Elt F) → (⟨S256x999, .i32⟩ : BufTy).Contents (Elt F) → (⟨S256x999, .i1⟩ : BufTy).Contents (Elt F)),
    unary main_v99 main_v100 ((extui 32 · natLt_1_32) : (⟨S256x999, .i1⟩ : BufTy).Contents (Elt F) → (⟨S256x999, .i32⟩ : BufTy).Contents (Elt F)),
    unary main_v94 main_v101 (broadcastInDim S256x999 ![0, 1] bcast_S1x999_S256x999_0_1 : (⟨S1x999, .i32⟩ : BufTy).Contents (Elt F) → (⟨S256x999, .i32⟩ : BufTy).Contents (Elt F)),
    binary main_v101 main_v100 main_v102 (addi : (⟨S256x999, .i32⟩ : BufTy).Contents (Elt F) → (⟨S256x999, .i32⟩ : BufTy).Contents (Elt F) → (⟨S256x999, .i32⟩ : BufTy).Contents (Elt F)),
    unary main_v102 main_v103 (broadcastInDim S256x999x1 ![0, 1] bcast_S256x999_S256x999x1_0_1 : (⟨S256x999, .i32⟩ : BufTy).Contents (Elt F) → (⟨S256x999x1, .i32⟩ : BufTy).Contents (Elt F)),
    TRef.nullary (TRef.of (T := ⟨S_, .i32⟩) main_call9_c) (constantI S_ 32 0#32),
    TRef.unary (TRef.of (T := ⟨S_, .i32⟩) main_call9_c) (TRef.of (T := ⟨S256x999x1, .i32⟩) main_call9_v0) (broadcastInDim S256x999x1 ![] bcast_S_S256x999x1),
    TRef.binary (TRef.of (T := ⟨S256x999x1, .i32⟩) main_v103) (TRef.of (T := ⟨S256x999x1, .i32⟩) main_call9_v0) (TRef.of (T := ⟨S256x999x1, .i1⟩) main_call9_v1) (cmpi .slt),
    TRef.nullary (TRef.of (T := ⟨S_, .i32⟩) main_call9_c_0) (constantI S_ 32 1000#32),
    TRef.unary (TRef.of (T := ⟨S_, .i32⟩) main_call9_c_0) (TRef.of (T := ⟨S256x999x1, .i32⟩) main_call9_v2) (broadcastInDim S256x999x1 ![] bcast_S_S256x999x1),
    TRef.binary (TRef.of (T := ⟨S256x999x1, .i32⟩) main_v103) (TRef.of (T := ⟨S256x999x1, .i32⟩) main_call9_v2) (TRef.of (T := ⟨S256x999x1, .i32⟩) main_call9_v3) addi,
    TRef.ternary (TRef.of (T := ⟨S256x999x1, .i1⟩) main_call9_v1) (TRef.of (T := ⟨S256x999x1, .i32⟩) main_call9_v3) (TRef.of (T := ⟨S256x999x1, .i32⟩) main_v103) (TRef.of (T := ⟨S256x999x1, .i32⟩) main_call9_v4) select,
    TRef.nullary (TRef.of (T := ⟨S1, .i32⟩) main_call9_c_1) (constantI S1 32 999#32),
    TRef.nullary (TRef.of (T := ⟨S_, .i32⟩) main_call9_c_2) (constantI S_ 32 0#32),
    TRef.unary (TRef.of (T := ⟨S_, .i32⟩) main_call9_c_2) (TRef.of (T := ⟨S256x999x1, .i32⟩) main_call9_v5) (broadcastInDim S256x999x1 ![] bcast_S_S256x999x1),
    TRef.binary (TRef.of (T := ⟨S256x999x1, .i32⟩) main_call9_v4) (TRef.of (T := ⟨S256x999x1, .i32⟩) main_call9_v5) (TRef.of (T := ⟨S256x999x1, .i1⟩) main_call9_v6) (cmpi .sge),
    TRef.unary (TRef.of (T := ⟨S1, .i32⟩) main_call9_c_1) (TRef.of (T := ⟨S1x1x1, .i32⟩) main_call9_v7) (broadcastInDim S1x1x1 ![2] bcast_S1_S1x1x1_2),
    TRef.unary (TRef.of (T := ⟨S1x1x1, .i32⟩) main_call9_v7) (TRef.of (T := ⟨S256x999x1, .i32⟩) main_call9_v8) (broadcastInDim S256x999x1 ![0, 1, 2] bcast_S1x1x1_S256x999x1_0_1_2),
    TRef.binary (TRef.of (T := ⟨S256x999x1, .i32⟩) main_call9_v4) (TRef.of (T := ⟨S256x999x1, .i32⟩) main_call9_v8) (TRef.of (T := ⟨S256x999x1, .i1⟩) main_call9_v9) (cmpi .sle),
    TRef.binary (TRef.of (T := ⟨S256x999x1, .i1⟩) main_call9_v6) (TRef.of (T := ⟨S256x999x1, .i1⟩) main_call9_v9) (TRef.of (T := ⟨S256x999x1, .i1⟩) main_call9_v10) andi,
    TRef.nullary (TRef.of (T := ⟨S_, .i1⟩) main_call9_c_3) (constantI S_ 1 1#1),
    TRef.binary (TRef.of (T := ⟨S256x999x1, .i1⟩) main_call9_v10) (TRef.of (T := ⟨S_, .i1⟩) main_call9_c_3) (TRef.of (T := ⟨S256x999, .i1⟩) main_call9_v11) (fun x v => Host.reduce IntOp.andi x v reducesTo_S256x999x1_S256x999_d2 h_S_),
    TRef.binary (TRef.of (T := ⟨S256x1000x64, .f32⟩) main_v89) (TRef.of (T := ⟨S256x999x1, .i32⟩) main_call9_v4) (TRef.of (T := ⟨S256x999x64, .f32⟩) main_call9_v12) (fun x i => Host.gather gather_S256x1000x64_S256x999x1_S256x999x64_2_1_0_0_1_2_1164 x i),
    TRef.unary (TRef.of (T := ⟨S256x999, .i1⟩) main_call9_v11) (TRef.of (T := ⟨S256x999x64, .i1⟩) main_call9_v13) (broadcastInDim S256x999x64 ![0, 1] bcast_S256x999_S256x999x64_0_1),
    TRef.nullary (TRef.of (T := ⟨S_, .f32⟩) main_call9_cst) (constant S_ .f32 0x7FC00000#32),
    TRef.unary (TRef.of (T := ⟨S_, .f32⟩) main_call9_cst) (TRef.of (T := ⟨S256x999x64, .f32⟩) main_call9_v14) (broadcastInDim S256x999x64 ![] bcast_S_S256x999x64),
    TRef.ternary (TRef.of (T := ⟨S256x999x64, .i1⟩) main_call9_v13) (TRef.of (T := ⟨S256x999x64, .f32⟩) main_call9_v12) (TRef.of (T := ⟨S256x999x64, .f32⟩) main_call9_v14) (TRef.of (T := ⟨S256x999x64, .f32⟩) main_v104) select,
    reshape main_v104 main_v105 rfl shapeCasts_S256x999x64_S256x63936 ]

/-- The row's assembly, scaling and log-softmax, then the constant label weights and the KL scalar (29 operations). -/
abbrev opsZ : List (HloOp τ sig (Elt F)) :=
  [ nary ![main_v87, main_v92, main_v105] main_v106 (fun u => concatenate S256x64001 1 [⟨S256x1, u 0⟩, ⟨S256x64, u 1⟩, ⟨S256x63936, u 2⟩] concatenates_S256x1_S256x64_S256x63936_S256x64001_d1),
    nullary main_cst_20 (constant S_ .f32 0x3D8F5C29#32),
    unary main_cst_20 main_v107 (broadcastInDim S256x64001 ![] bcast_S_S256x64001 : (⟨S_, .f32⟩ : BufTy).Contents (Elt F) → (⟨S256x64001, .f32⟩ : BufTy).Contents (Elt F)),
    binary main_v106 main_v107 main_v108 (Host.divf : (⟨S256x64001, .f32⟩ : BufTy).Contents (Elt F) → (⟨S256x64001, .f32⟩ : BufTy).Contents (Elt F) → (⟨S256x64001, .f32⟩ : BufTy).Contents (Elt F)),
    TRef.nullary (TRef.of (T := ⟨S_, .f32⟩) main_call10_cst) (constant S_ .f32 0xFF800000#32),
    TRef.binary (TRef.of (T := ⟨S256x64001, .f32⟩) main_v108) (TRef.of (T := ⟨S_, .f32⟩) main_call10_cst) (TRef.of (T := ⟨S256, .f32⟩) main_call10_v0) (fun x v => Host.reduce FloatOps.maximumf x v reducesTo_S256x64001_S256_d1 h_S_),
    TRef.nullary (TRef.of (T := ⟨S_, .f32⟩) main_call10_cst_0) (constant S_ .f32 0xFF800000#32),
    TRef.unary (TRef.of (T := ⟨S_, .f32⟩) main_call10_cst_0) (TRef.of (T := ⟨S256, .f32⟩) main_call10_v1) (broadcastInDim S256 ![] bcast_S_S256),
    TRef.binary (TRef.of (T := ⟨S256, .f32⟩) main_call10_v1) (TRef.of (T := ⟨S256, .f32⟩) main_call10_v0) (TRef.of (T := ⟨S256, .f32⟩) main_call10_v2) maximumf,
    TRef.unary (TRef.of (T := ⟨S256, .f32⟩) main_call10_v2) (TRef.of (T := ⟨S256x1, .f32⟩) main_call10_v3) (broadcastInDim S256x1 ![0] bcast_S256_S256x1_0),
    TRef.unary (TRef.of (T := ⟨S256x1, .f32⟩) main_call10_v3) (TRef.of (T := ⟨S256x64001, .f32⟩) main_call10_v4) (broadcastInDim S256x64001 ![0, 1] bcast_S256x1_S256x64001_0_1),
    TRef.binary (TRef.of (T := ⟨S256x64001, .f32⟩) main_v108) (TRef.of (T := ⟨S256x64001, .f32⟩) main_call10_v4) (TRef.of (T := ⟨S256x64001, .f32⟩) main_call10_v5) subf,
    TRef.unary (TRef.of (T := ⟨S256x64001, .f32⟩) main_call10_v5) (TRef.of (T := ⟨S256x64001, .f32⟩) main_call10_v6) Host.exp,
    TRef.nullary (TRef.of (T := ⟨S_, .f32⟩) main_call10_cst_1) (constant S_ .f32 0x00000000#32),
    TRef.binary (TRef.of (T := ⟨S256x64001, .f32⟩) main_call10_v6) (TRef.of (T := ⟨S_, .f32⟩) main_call10_cst_1) (TRef.of (T := ⟨S256, .f32⟩) main_call10_v7) (fun x v => Host.reduceAdd x v reducesTo_S256x64001_S256_d1 h_S_),
    TRef.unary (TRef.of (T := ⟨S256, .f32⟩) main_call10_v7) (TRef.of (T := ⟨S256x1, .f32⟩) main_call10_v8) (broadcastInDim S256x1 ![0] bcast_S256_S256x1_0),
    TRef.unary (TRef.of (T := ⟨S256x1, .f32⟩) main_call10_v8) (TRef.of (T := ⟨S256x1, .f32⟩) main_call10_v9) Host.log,
    TRef.unary (TRef.of (T := ⟨S256x1, .f32⟩) main_call10_v9) (TRef.of (T := ⟨S256x64001, .f32⟩) main_call10_v10) (broadcastInDim S256x64001 ![0, 1] bcast_S256x1_S256x64001_0_1),
    TRef.binary (TRef.of (T := ⟨S256x64001, .f32⟩) main_call10_v5) (TRef.of (T := ⟨S256x64001, .f32⟩) main_call10_v10) (TRef.of (T := ⟨S256x64001, .f32⟩) main_v109) subf,
    nullary main_cst_21 (constant S_ .f32 0x00000000#32),
    unary main_cst_21 main_v110 (broadcastInDim S256x64001 ![] bcast_S_S256x64001 : (⟨S_, .f32⟩ : BufTy).Contents (Elt F) → (⟨S256x64001, .f32⟩ : BufTy).Contents (Elt F)),
    nullary main_c (constantI S_ 32 0#32),
    unary main_c main_v111 (broadcastInDim S1 ![] bcast_S_S1 : (⟨S_, .i32⟩ : BufTy).Contents (Elt F) → (⟨S1, .i32⟩ : BufTy).Contents (Elt F)),
    nullary main_cst_22 (constant S_ .f32 0x3C7C0FC1#32),
    unary main_cst_22 main_v112 (broadcastInDim S256x65 ![] bcast_S_S256x65 : (⟨S_, .f32⟩ : BufTy).Contents (Elt F) → (⟨S256x65, .f32⟩ : BufTy).Contents (Elt F)),
    ternary main_v110 main_v111 main_v112 main_v113 ((fun x i u => Host.scatter scatter_S256x64001_S1_S256x65_01_n_1_0 (fun _ b => b) x i u) : (⟨S256x64001, .f32⟩ : BufTy).Contents (Elt F) → (⟨S1, .i32⟩ : BufTy).Contents (Elt F) → (⟨S256x65, .f32⟩ : BufTy).Contents (Elt F) → (⟨S256x64001, .f32⟩ : BufTy).Contents (Elt F)),
    binary main_v46 main_v76 main_v114 (addf : (⟨S_, .f32⟩ : BufTy).Contents (Elt F) → (⟨S_, .f32⟩ : BufTy).Contents (Elt F) → (⟨S_, .f32⟩ : BufTy).Contents (Elt F)),
    nullary main_cst_23 (constant S_ .f32 0x38D1B717#32),
    binary main_v114 main_cst_23 main_v115 (mulf : (⟨S_, .f32⟩ : BufTy).Contents (Elt F) → (⟨S_, .f32⟩ : BufTy).Contents (Elt F) → (⟨S_, .f32⟩ : BufTy).Contents (Elt F)) ]

set_option maxRecDepth 8192 in
/-- The operation list is the join of the three stages (literal lists: by computation). -/
theorem ops_cut : (ops : List (HloOp τ sig (Elt F))) = opsH ++ (opsM ++ opsZ) := rfl

end Lists

/-- One pass that reads a buffer back through a stage: every operation's result at its own buffer is its function's
    value, at another buffer what was there; a value read from a buffer right after being written to it is that value. -/
macro "read_back" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.ofBuf, TRef.toBuf, cast_cast, cast_eq])

/-! ## Stage 1: the shared host chain -/

set_option maxRecDepth 16384 in
set_option maxHeartbeats 4000000 in
/-- The positive-pair logits. -/
theorem head_v87 (m : (ℓ : Loc nD τ sig) → Buf (Elt Ideal) ℓ) (c : Dev nD) :
    (after opsH (launchContents m c) (Proc.devRef .tc main_v87) : (⟨S256x1, .f32⟩ : BufTy).Contents (Elt Ideal)) = val_main_v87 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  read_back
  rfl

set_option maxRecDepth 16384 in
set_option maxHeartbeats 4000000 in
/-- The queue logits. -/
theorem head_v88 (m : (ℓ : Loc nD τ sig) → Buf (Elt Ideal) ℓ) (c : Dev nD) :
    (after opsH (launchContents m c) (Proc.devRef .tc main_v88) : (⟨S256x64000, .f32⟩ : BufTy).Contents (Elt Ideal)) = val_main_v88 (F := Ideal) (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  read_back
  rfl

set_option maxRecDepth 16384 in
set_option maxHeartbeats 4000000 in
/-- The doubled labels. -/
theorem head_v84 (m : (ℓ : Loc nD τ sig) → Buf (Elt Ideal) ℓ) (c : Dev nD) :
    (after opsH (launchContents m c) (Proc.devRef .tc main_v84) : (⟨S256, .i32⟩ : BufTy).Contents (Elt Ideal)) = val_main_v84 (F := Ideal) (m ((c.tc : Thread nD τ).loc main_arg2)) := by
  read_back
  rfl

set_option maxRecDepth 16384 in
set_option maxHeartbeats 4000000 in
/-- The first KL term. -/
theorem head_v46 (m : (ℓ : Loc nD τ sig) → Buf (Elt Ideal) ℓ) (c : Dev nD) :
    (after opsH (launchContents m c) (Proc.devRef .tc main_v46) : (⟨S_, .f32⟩ : BufTy).Contents (Elt Ideal)) = val_main_v46 (F := Ideal) (m ((c.tc : Thread nD τ).loc main_arg0)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) := by
  read_back
  rfl

set_option maxRecDepth 16384 in
set_option maxHeartbeats 4000000 in
/-- The second KL term. -/
theorem head_v76 (m : (ℓ : Loc nD τ sig) → Buf (Elt Ideal) ℓ) (c : Dev nD) :
    (after opsH (launchContents m c) (Proc.devRef .tc main_v76) : (⟨S_, .f32⟩ : BufTy).Contents (Elt Ideal)) = val_main_v76 (F := Ideal) (m ((c.tc : Thread nD τ).loc main_arg1)) (m ((c.tc : Thread nD τ).loc main_arg5)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) := by
  read_back
  rfl

set_option maxRecDepth 16384 in
set_option maxHeartbeats 4000000 in
/-- The query features. -/
theorem head_v0 (m : (ℓ : Loc nD τ sig) → Buf (Elt Ideal) ℓ) (c : Dev nD) :
    (after opsH (launchContents m c) (Proc.devRef .tc main_v0) : (⟨S128x2048, .f32⟩ : BufTy).Contents (Elt Ideal)) = val_main_v0 (F := Ideal) (m ((c.tc : Thread nD τ).loc main_arg0)) (m ((c.tc : Thread nD τ).loc main_arg5)) := by
  read_back
  rfl

/-! ## Stage 2: the gathers -/

set_option maxRecDepth 16384 in
set_option maxHeartbeats 4000000 in
/-- No operation of this stage writes the buffer. -/
theorem mid_keep_v87 (X : Valuation τ sig (Elt Ideal)) : after opsM X (Proc.devRef .tc main_v87) = X (Proc.devRef .tc main_v87) := by
  read_back

set_option maxRecDepth 16384 in
set_option maxHeartbeats 4000000 in
/-- No operation of this stage writes the buffer. -/
theorem mid_keep_v46 (X : Valuation τ sig (Elt Ideal)) : after opsM X (Proc.devRef .tc main_v46) = X (Proc.devRef .tc main_v46) := by
  read_back

set_option maxRecDepth 16384 in
set_option maxHeartbeats 4000000 in
/-- No operation of this stage writes the buffer. -/
theorem mid_keep_v76 (X : Valuation τ sig (Elt Ideal)) : after opsM X (Proc.devRef .tc main_v76) = X (Proc.devRef .tc main_v76) := by
  read_back

set_option maxRecDepth 16384 in
set_option maxHeartbeats 4000000 in
/-- No operation of this stage writes the buffer. -/
theorem mid_keep_v0 (X : Valuation τ sig (Elt Ideal)) : after opsM X (Proc.devRef .tc main_v0) = X (Proc.devRef .tc main_v0) := by
  read_back

set_option maxRecDepth 16384 in
set_option maxHeartbeats 4000000 in
/-- The own-class logits, from the queue logits and the labels. -/
theorem mid_v92 (m : (ℓ : Loc nD τ sig) → Buf (Elt Ideal) ℓ) (c : Dev nD) :
    (after opsM (after opsH (launchContents m c)) (Proc.devRef .tc main_v92) : (⟨S256x64, .f32⟩ : BufTy).Contents (Elt Ideal)) = val_main_v92 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  have h88 := head_v88 m c
  have h84 := head_v84 m c
  generalize after opsH (launchContents m c) = X at h88 h84 ⊢
  read_back
  rw [h88, h84]
  rfl

set_option maxRecDepth 16384 in
set_option maxHeartbeats 4000000 in
/-- The other classes' logits, from the queue logits and the labels. -/
theorem mid_v105 (m : (ℓ : Loc nD τ sig) → Buf (Elt Ideal) ℓ) (c : Dev nD) :
    (after opsM (after opsH (launchContents m c)) (Proc.devRef .tc main_v105) : (⟨S256x63936, .f32⟩ : BufTy).Contents (Elt Ideal)) = val_main_v105 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  have h88 := head_v88 m c
  have h84 := head_v84 m c
  generalize after opsH (launchContents m c) = X at h88 h84 ⊢
  read_back
  rw [h88, h84]
  rfl

/-! ## Stage 3: the row, its log-softmax, and the two small results -/

set_option maxRecDepth 16384 in
set_option maxHeartbeats 4000000 in
/-- No operation of this stage writes the buffer. -/
theorem fin_keep_v0 (X : Valuation τ sig (Elt Ideal)) : after opsZ X (Proc.devRef .tc main_v0) = X (Proc.devRef .tc main_v0) := by
  read_back

/-- The last stage as one function of the row's three parts: assemble, divide by the temperature, subtract the
    row maximum, subtract the logarithm of the sum of exponentials. -/
def lsmOf (a : FVec Ideal S256x1 .f32) (b : FVec Ideal S256x64 .f32) (d : FVec Ideal S256x63936 .f32) : FVec Ideal S256x64001 .f32 :=
  let x : FVec Ideal S256x64001 .f32 :=
    Host.divf (F := Ideal) (concatenate S256x64001 1 [⟨S256x1, a⟩, ⟨S256x64, b⟩, ⟨S256x63936, d⟩] concatenates_S256x1_S256x64_S256x63936_S256x64001_d1)
      (broadcastInDim S256x64001 ![] bcast_S_S256x64001 (constant (F := Ideal) S_ .f32 0x3D8F5C29#32))
  let mx : FVec Ideal S256 .f32 :=
    maximumf (F := Ideal) (broadcastInDim S256 ![] bcast_S_S256 (constant (F := Ideal) S_ .f32 0xFF800000#32))
      (Host.reduce (FloatOps.maximumf (F := Ideal)) x (constant (F := Ideal) S_ .f32 0xFF800000#32) reducesTo_S256x64001_S256_d1 h_S_)
  let sh : FVec Ideal S256x64001 .f32 :=
    subf (F := Ideal) x (broadcastInDim S256x64001 ![0, 1] bcast_S256x1_S256x64001_0_1 (broadcastInDim S256x1 ![0] bcast_S256_S256x1_0 mx))
  let ls : FVec Ideal S256x1 .f32 :=
    Host.log (F := Ideal) (broadcastInDim S256x1 ![0] bcast_S256_S256x1_0
      (Host.reduceAdd (F := Ideal) (Host.exp (F := Ideal) sh) (constant (F := Ideal) S_ .f32 0x00000000#32) reducesTo_S256x64001_S256_d1 h_S_))
  subf (F := Ideal) sh (broadcastInDim S256x64001 ![0, 1] bcast_S256x1_S256x64001_0_1 ls)

set_option maxRecDepth 16384 in
set_option maxHeartbeats 4000000 in
/-- The last stage read back from any contents: the function above of the three parts found there. -/
theorem fin_v109_of (Y : Valuation τ sig (Elt Ideal)) :
    (after opsZ Y (Proc.devRef .tc main_v109) : (⟨S256x64001, .f32⟩ : BufTy).Contents (Elt Ideal))
      = lsmOf (Y (Proc.devRef .tc main_v87)) (Y (Proc.devRef .tc main_v92)) (Y (Proc.devRef .tc main_v105)) := by
  read_back
  rfl

set_option maxRecDepth 16384 in
set_option maxHeartbeats 4000000 in
/-- The first result: the log-softmax of the assembled, scaled row. -/
theorem fin_v109 (m : (ℓ : Loc nD τ sig) → Buf (Elt Ideal) ℓ) (c : Dev nD) :
    (after opsZ (after opsM (after opsH (launchContents m c))) (Proc.devRef .tc main_v109) : (⟨S256x64001, .f32⟩ : BufTy).Contents (Elt Ideal)) = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  have h87 := (mid_keep_v87 (after opsH (launchContents m c))).trans (head_v87 m c)
  have h92 := mid_v92 m c
  have h105 := mid_v105 m c
  generalize after opsM (after opsH (launchContents m c)) = Y at h87 h92 h105 ⊢
  refine (fin_v109_of Y).trans ?_
  rw [h87, h92, h105]
  rfl

set_option maxRecDepth 16384 in
set_option maxHeartbeats 4000000 in
/-- The constant label weights. -/
theorem fin_v113 (Y : Valuation τ sig (Elt Ideal)) :
    (after opsZ Y (Proc.devRef .tc main_v113) : (⟨S256x64001, .f32⟩ : BufTy).Contents (Elt Ideal)) = val_main_v113 (F := Ideal) := by
  read_back
  rfl

set_option maxRecDepth 16384 in
set_option maxHeartbeats 4000000 in
/-- The KL scalar. -/
theorem fin_v115 (m : (ℓ : Loc nD τ sig) → Buf (Elt Ideal) ℓ) (c : Dev nD) :
    (after opsZ (after opsM (after opsH (launchContents m c))) (Proc.devRef .tc main_v115) : (⟨S_, .f32⟩ : BufTy).Contents (Elt Ideal)) = val_main_v115 (F := Ideal) (m ((c.tc : Thread nD τ).loc main_arg0)) (m ((c.tc : Thread nD τ).loc main_arg1)) (m ((c.tc : Thread nD τ).loc main_arg5)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) := by
  have h46 := (mid_keep_v46 (after opsH (launchContents m c))).trans (head_v46 m c)
  have h76 := (mid_keep_v76 (after opsH (launchContents m c))).trans (head_v76 m c)
  generalize after opsM (after opsH (launchContents m c)) = Y at h46 h76 ⊢
  read_back
  rw [h46, h76]
  rfl

set_option maxRecDepth 16384 in
set_option maxHeartbeats 4000000 in
/-- The query features, untouched by the later stages. -/
theorem fin_v0 (m : (ℓ : Loc nD τ sig) → Buf (Elt Ideal) ℓ) (c : Dev nD) :
    (after opsZ (after opsM (after opsH (launchContents m c))) (Proc.devRef .tc main_v0) : (⟨S128x2048, .f32⟩ : BufTy).Contents (Elt Ideal)) = val_main_v0 (F := Ideal) (m ((c.tc : Thread nD τ).loc main_arg0)) (m ((c.tc : Thread nD τ).loc main_arg5)) :=
  (fin_keep_v0 _).trans ((mid_keep_v0 _).trans (head_v0 m c))

end Cert.ReferenceIdeal.RunValue

end
-- ==== Proof.RefKeptA.lean ====
import proofs.«163235_j22531398435254_2_alg».proof.Proof.RefCut

/-!
# The reference leaves its arguments as launched

No host operation writes an argument array: read back through the three stages, each argument buffer holds its
launch contents.
-/

noncomputable section

namespace Cert.ReferenceIdeal.RunValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

set_option maxRecDepth 16384 in
set_option maxHeartbeats 4000000 in
/-- Argument 0 is written by no operation. -/
theorem kept_arg0 (m : (ℓ : Loc nD τ sig) → Buf (Elt Ideal) ℓ) (c : Dev nD) :
    after opsZ (after opsM (after opsH (launchContents m c))) (Proc.devRef .tc main_arg0) = m ((c.tc : Thread nD τ).loc main_arg0) := by
  read_back <;> rfl

set_option maxRecDepth 16384 in
set_option maxHeartbeats 4000000 in
/-- Argument 1 is written by no operation. -/
theorem kept_arg1 (m : (ℓ : Loc nD τ sig) → Buf (Elt Ideal) ℓ) (c : Dev nD) :
    after opsZ (after opsM (after opsH (launchContents m c))) (Proc.devRef .tc main_arg1) = m ((c.tc : Thread nD τ).loc main_arg1) := by
  read_back <;> rfl

set_option maxRecDepth 16384 in
set_option maxHeartbeats 4000000 in
/-- Argument 2 is written by no operation. -/
theorem kept_arg2 (m : (ℓ : Loc nD τ sig) → Buf (Elt Ideal) ℓ) (c : Dev nD) :
    after opsZ (after opsM (after opsH (launchContents m c))) (Proc.devRef .tc main_arg2) = m ((c.tc : Thread nD τ).loc main_arg2) := by
  read_back <;> rfl

set_option maxRecDepth 16384 in
set_option maxHeartbeats 4000000 in
/-- Argument 3 is written by no operation. -/
theorem kept_arg3 (m : (ℓ : Loc nD τ sig) → Buf (Elt Ideal) ℓ) (c : Dev nD) :
    after opsZ (after opsM (after opsH (launchContents m c))) (Proc.devRef .tc main_arg3) = m ((c.tc : Thread nD τ).loc main_arg3) := by
  read_back <;> rfl

set_option maxRecDepth 16384 in
set_option maxHeartbeats 4000000 in
/-- Argument 4 is written by no operation. -/
theorem kept_arg4 (m : (ℓ : Loc nD τ sig) → Buf (Elt Ideal) ℓ) (c : Dev nD) :
    after opsZ (after opsM (after opsH (launchContents m c))) (Proc.devRef .tc main_arg4) = m ((c.tc : Thread nD τ).loc main_arg4) := by
  read_back <;> rfl

set_option maxRecDepth 16384 in
set_option maxHeartbeats 4000000 in
/-- Argument 5 is written by no operation. -/
theorem kept_arg5 (m : (ℓ : Loc nD τ sig) → Buf (Elt Ideal) ℓ) (c : Dev nD) :
    after opsZ (after opsM (after opsH (launchContents m c))) (Proc.devRef .tc main_arg5) = m ((c.tc : Thread nD τ).loc main_arg5) := by
  read_back <;> rfl

set_option maxRecDepth 16384 in
set_option maxHeartbeats 4000000 in
/-- Argument 6 is written by no operation. -/
theorem kept_arg6 (m : (ℓ : Loc nD τ sig) → Buf (Elt Ideal) ℓ) (c : Dev nD) :
    after opsZ (after opsM (after opsH (launchContents m c))) (Proc.devRef .tc main_arg6) = m ((c.tc : Thread nD τ).loc main_arg6) := by
  read_back <;> rfl

end Cert.ReferenceIdeal.RunValue

end
-- ==== Proof.RefKeptB.lean ====
import proofs.«163235_j22531398435254_2_alg».proof.Proof.RefCut

/-!
# The reference leaves its arguments as launched

No host operation writes an argument array: read back through the three stages, each argument buffer holds its
launch contents.
-/

noncomputable section

namespace Cert.ReferenceIdeal.RunValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

set_option maxRecDepth 16384 in
set_option maxHeartbeats 4000000 in
/-- Argument 7 is written by no operation. -/
theorem kept_arg7 (m : (ℓ : Loc nD τ sig) → Buf (Elt Ideal) ℓ) (c : Dev nD) :
    after opsZ (after opsM (after opsH (launchContents m c))) (Proc.devRef .tc main_arg7) = m ((c.tc : Thread nD τ).loc main_arg7) := by
  read_back <;> rfl

set_option maxRecDepth 16384 in
set_option maxHeartbeats 4000000 in
/-- Argument 8 is written by no operation. -/
theorem kept_arg8 (m : (ℓ : Loc nD τ sig) → Buf (Elt Ideal) ℓ) (c : Dev nD) :
    after opsZ (after opsM (after opsH (launchContents m c))) (Proc.devRef .tc main_arg8) = m ((c.tc : Thread nD τ).loc main_arg8) := by
  read_back <;> rfl

set_option maxRecDepth 16384 in
set_option maxHeartbeats 4000000 in
/-- Argument 9 is written by no operation. -/
theorem kept_arg9 (m : (ℓ : Loc nD τ sig) → Buf (Elt Ideal) ℓ) (c : Dev nD) :
    after opsZ (after opsM (after opsH (launchContents m c))) (Proc.devRef .tc main_arg9) = m ((c.tc : Thread nD τ).loc main_arg9) := by
  read_back <;> rfl

set_option maxRecDepth 16384 in
set_option maxHeartbeats 4000000 in
/-- Argument 10 is written by no operation. -/
theorem kept_arg10 (m : (ℓ : Loc nD τ sig) → Buf (Elt Ideal) ℓ) (c : Dev nD) :
    after opsZ (after opsM (after opsH (launchContents m c))) (Proc.devRef .tc main_arg10) = m ((c.tc : Thread nD τ).loc main_arg10) := by
  read_back <;> rfl

set_option maxRecDepth 16384 in
set_option maxHeartbeats 4000000 in
/-- Argument 11 is written by no operation. -/
theorem kept_arg11 (m : (ℓ : Loc nD τ sig) → Buf (Elt Ideal) ℓ) (c : Dev nD) :
    after opsZ (after opsM (after opsH (launchContents m c))) (Proc.devRef .tc main_arg11) = m ((c.tc : Thread nD τ).loc main_arg11) := by
  read_back <;> rfl

set_option maxRecDepth 16384 in
set_option maxHeartbeats 4000000 in
/-- Argument 12 is written by no operation. -/
theorem kept_arg12 (m : (ℓ : Loc nD τ sig) → Buf (Elt Ideal) ℓ) (c : Dev nD) :
    after opsZ (after opsM (after opsH (launchContents m c))) (Proc.devRef .tc main_arg12) = m ((c.tc : Thread nD τ).loc main_arg12) := by
  read_back <;> rfl

set_option maxRecDepth 16384 in
set_option maxHeartbeats 4000000 in
/-- Argument 13 is written by no operation. -/
theorem kept_arg13 (m : (ℓ : Loc nD τ sig) → Buf (Elt Ideal) ℓ) (c : Dev nD) :
    after opsZ (after opsM (after opsH (launchContents m c))) (Proc.devRef .tc main_arg13) = m ((c.tc : Thread nD τ).loc main_arg13) := by
  read_back <;> rfl

end Cert.ReferenceIdeal.RunValue

end
-- ==== Proof.RefRun.lean ====
import proofs.«163235_j22531398435254_2_alg».proof.Proof.RefCut
import proofs.«163235_j22531398435254_2_alg».proof.Proof.RefKeptA
import proofs.«163235_j22531398435254_2_alg».proof.Proof.RefKeptB

/-!
# The idealized reference's run, with its results as stage functions of the arguments

Every weakly fair execution of the reference terminates without a fault; each result buffer ends at its stage
function of the launch contents of the argument arrays (read back stage by stage through the operation list), and
the argument arrays end as launched.
-/

noncomputable section

namespace Cert.ReferenceIdeal.RunValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The fold over the whole list is the fold over the three stages in turn. -/
theorem after_ops (V : Valuation τ sig (Elt Ideal)) :
    after (ops (F := Ideal)) V = after opsZ (after opsM (after opsH V)) := by
  rw [ops_cut, after_append', after_append']

set_option maxRecDepth 16384 in
theorem opsH_fresh : (opsH : List (HloOp τ sig (Elt Ideal))).Forall fun op => op.fresh = ∅ := by
  simp only [List.Forall]; repeat' constructor
set_option maxRecDepth 16384 in
theorem opsM_fresh : (opsM : List (HloOp τ sig (Elt Ideal))).Forall fun op => op.fresh = ∅ := by
  simp only [List.Forall]; repeat' constructor
set_option maxRecDepth 16384 in
theorem opsZ_fresh : (opsZ : List (HloOp τ sig (Elt Ideal))).Forall fun op => op.fresh = ∅ := by
  simp only [List.Forall]; repeat' constructor

/-- No operation allocates a buffer: every operation determines its results. -/
theorem ops_fresh : ∀ op ∈ (ops : List (HloOp τ sig (Elt Ideal))), op.fresh = ∅ := by
  rw [ops_cut]
  intro op h
  rcases List.mem_append.mp h with h | h
  · exact List.forall_iff_forall_mem.mp opsH_fresh op h
  · rcases List.mem_append.mp h with h | h
    · exact List.forall_iff_forall_mem.mp opsM_fresh op h
    · exact List.forall_iff_forall_mem.mp opsZ_fresh op h

set_option maxRecDepth 16384 in
set_option maxHeartbeats 4000000 in
/-- The run of the reference at the exact-arithmetic reading. -/
theorem run_vals (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v109) = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v113) = val_main_v113 (F := Ideal)
      ∧ r.2.mem ((c.tc : Thread nD τ).loc main_v0) = val_main_v0 (F := Ideal) (m ((c.tc : Thread nD τ).loc main_arg0)) (m ((c.tc : Thread nD τ).loc main_arg5))
      ∧ r.2.mem ((c.tc : Thread nD τ).loc main_v115) = val_main_v115 (F := Ideal) (m ((c.tc : Thread nD τ).loc main_arg0)) (m ((c.tc : Thread nD τ).loc main_arg1)) (m ((c.tc : Thread nD τ).loc main_arg5)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v109).trans ((congrFun (after_ops _) _).trans (fin_v109 m c)),
      (h c main_v113).trans ((congrFun (after_ops _) _).trans (fin_v113 _)),
      (h c main_v0).trans ((congrFun (after_ops _) _).trans (fin_v0 m c)),
      (h c main_v115).trans ((congrFun (after_ops _) _).trans (fin_v115 m c)),
      (h c main_arg0).trans ((congrFun (after_ops _) _).trans (kept_arg0 m c)),
      (h c main_arg1).trans ((congrFun (after_ops _) _).trans (kept_arg1 m c)),
      (h c main_arg2).trans ((congrFun (after_ops _) _).trans (kept_arg2 m c)),
      (h c main_arg3).trans ((congrFun (after_ops _) _).trans (kept_arg3 m c)),
      (h c main_arg4).trans ((congrFun (after_ops _) _).trans (kept_arg4 m c)),
      (h c main_arg5).trans ((congrFun (after_ops _) _).trans (kept_arg5 m c)),
      (h c main_arg6).trans ((congrFun (after_ops _) _).trans (kept_arg6 m c)),
      (h c main_arg7).trans ((congrFun (after_ops _) _).trans (kept_arg7 m c)),
      (h c main_arg8).trans ((congrFun (after_ops _) _).trans (kept_arg8 m c)),
      (h c main_arg9).trans ((congrFun (after_ops _) _).trans (kept_arg9 m c)),
      (h c main_arg10).trans ((congrFun (after_ops _) _).trans (kept_arg10 m c)),
      (h c main_arg11).trans ((congrFun (after_ops _) _).trans (kept_arg11 m c)),
      (h c main_arg12).trans ((congrFun (after_ops _) _).trans (kept_arg12 m c)),
      (h c main_arg13).trans ((congrFun (after_ops _) _).trans (kept_arg13 m c))⟩)
    (run_seq scopedRefs_eq scopedSems_eq defs main (fun _ => ops) main_eq (fun _ => ops_sub) m ρ
      (hfresh := fun _ => ops_fresh))

end Cert.ReferenceIdeal.RunValue

end
-- ==== Proof.KernelRun.lean ====
import proofs.«163235_j22531398435254_2_alg».proof.Proof.FrameP

/-!
# The idealized kernel program's run, with its four results named

Every weakly fair execution of the program terminates without a fault; at the end each result buffer holds what
the last boundary of the run holds there, and the argument arrays are as launched. The boundary contents are the
fold of the host operations and of the two kernels' write-backs from the launch memory.
-/

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's segments, the last thread state read against the final state; each
    result buffer is read there as it stands, each argument walked back to the launch memory. -/
theorem run_named : θ_run defs (onTc (τ := τ) (main (F := F))) ⟨m, fun _ => 0, ρ⟩ (fun r => ∀ c : Dev nD,
      r.2.mem ((c.tc : Thread nD τ).loc main_v94) = W23 m ρ c (Proc.devRef .tc main_v94)
      ∧ r.2.mem ((c.tc : Thread nD τ).loc main_v98) = W23 m ρ c (Proc.devRef .tc main_v98)
      ∧ r.2.mem ((c.tc : Thread nD τ).loc main_v0) = W23 m ρ c (Proc.devRef .tc main_v0)
      ∧ r.2.mem ((c.tc : Thread nD τ).loc main_v100) = W23 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v94 (by decide)),
       h c _ (mem_uc main_v98 (by decide)),
       h c _ (mem_uc main_v0 (by decide)),
       h c _ (mem_uc main_v100 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c)⟩)

end Cert.KernelIdeal.RunValue

end
-- ==== Proof.Spec.lean ====
import Idealize.ShloMosaic.PureOps.Ideal
import Idealize.ShloMosaic.Lib.ValueIdx

/-!
# The contrastive logits row and its log-softmax, as plain functions on the extended reals

Every row of the result is the log-softmax of one row of scaled logits. The row has 64001 entries:
the logit of the positive pair, then the 64 logits against the queue entries of the row's own class,
then the 63936 logits against the queue entries of all the other classes, in queue order. The scale is
the reciprocal of the temperature.
-/

noncomputable section

namespace Cert.Bridge

open Idealize.ShloMosaic

/-- The reciprocal of the temperature: the exact inverse of the single-precision number nearest 0.07,
    which is 9395241 / 2^27. -/
def invT : EReal := ((134217728 / 9395241 : ℝ) : EReal)

/-- A logits row assembled from its three parts: entry 0 is `a`, entries 1 … 64 are `b`, entries
    65 … 64000 are `n`. -/
def cat3 (a : EReal) (b : Fin 64 → EReal) (n : Fin 63936 → EReal) (j : Fin 64001) : EReal :=
  if j.val = 0 then a
  else if h : j.val < 65 then b ⟨j.val - 1, by omega⟩
  else n ⟨j.val - 65, by have := j.isLt; omega⟩

/-- A row of queue logits with one class block of 64 removed: column `q` of the result is column `q`
    of the row while the class of `q` (its quotient by 64) is below the label, and column `q + 64` — the
    same place one class later — from the label's class on. -/
def dropBlock (d : Fin 64000 → EReal) (lab : ℤ) (q : Fin 63936) : EReal :=
  if ((q.val / 64 : ℕ) : ℤ) < lab then d ⟨q.val, by have := q.isLt; omega⟩
  else d ⟨q.val + 64, by have := q.isLt; omega⟩

/-- Log-softmax of a row, written `x − (log Σ exp (x − M) + M)` with `M` the row's maximum. -/
def lsm {n : ℕ} (x : Fin n → EReal) (j : Fin n) : EReal :=
  x j - (Ideal.log (∑ i, Ideal.exp (x i - Finset.univ.sup x)) + Finset.univ.sup x)

/-- Log-softmax of a row, written `(x − M) − log Σ exp (x − M)`. -/
def lsmShift {n : ℕ} (x : Fin n → EReal) (j : Fin n) : EReal :=
  (x j - Finset.univ.sup x) - Ideal.log (∑ i, Ideal.exp (x i - Finset.univ.sup x))

/-- One row of the result: the log-softmax of the assembled row scaled by the reciprocal temperature. -/
def rowOut (a : EReal) (b : Fin 64 → EReal) (d : Fin 64000 → EReal) (lab : ℤ) : Fin 64001 → EReal :=
  lsm fun j => cat3 a b (dropBlock d lab) j * invT

/-- The same row computed part by part: each part scaled, the maximum and the sum of exponentials taken
    per part and then combined, the parts shifted by `log S + M`. -/
def rowParts (a : EReal) (b : Fin 64 → EReal) (d : Fin 64000 → EReal) (lab : ℤ) (j : Fin 64001) : EReal :=
  let a' := a * invT
  let b' := fun q => b q * invT
  let n' := fun q => dropBlock d lab q * invT
  let M := max (max a' (Finset.univ.sup b')) (Finset.univ.sup n')
  let S := Ideal.exp (a' - M) + ∑ q, Ideal.exp (b' q - M) + ∑ q, Ideal.exp (n' q - M)
  cat3 a' b' n' j - (Ideal.log S + M)

end Cert.Bridge

end
-- ==== Proof.Chain.lean ====
import proofs.«163235_j22531398435254_2_alg».proof.Proof.ReadP
import proofs.«163235_j22531398435254_2_alg».proof.Proof.Spec

/-!
# The values both programs share, named once

Both programs compute the query rows, the key rows, the positive-pair logits, the labels and the logits
against the queue by the same host operations. Those values are named here as functions of the fourteen
argument arrays (through the reference's stage functions), and the result array is specified row by row
as `Cert.Bridge.rowOut` of them.
-/

noncomputable section

namespace Cert.Bridge

open Idealize.ShloMosaic Idealize.ShloMosaic.ValueIdx Cert.ReferenceIdeal Cert.ReferenceIdeal.ReadP

/-- The fourteen argument arrays, as extended reals (the labels as 32-bit words). -/
structure Args where
  x0 : (⟨S128x2048, .f32⟩ : BufTy).Contents (Elt Ideal)
  x1 : (⟨S128x2048, .f32⟩ : BufTy).Contents (Elt Ideal)
  x2 : (⟨S128, .i32⟩ : BufTy).Contents (Elt Ideal)
  x3 : (⟨S128x2048, .f32⟩ : BufTy).Contents (Elt Ideal)
  x4 : (⟨S128x2048, .f32⟩ : BufTy).Contents (Elt Ideal)
  x5 : (⟨S2048x2048, .f32⟩ : BufTy).Contents (Elt Ideal)
  x6 : (⟨S2048x256, .f32⟩ : BufTy).Contents (Elt Ideal)
  x7 : (⟨S2048x2048, .f32⟩ : BufTy).Contents (Elt Ideal)
  x8 : (⟨S2048x256, .f32⟩ : BufTy).Contents (Elt Ideal)
  x9 : (⟨S2048x2048, .f32⟩ : BufTy).Contents (Elt Ideal)
  x10 : (⟨S2048, .f32⟩ : BufTy).Contents (Elt Ideal)
  x11 : (⟨S2048x2048, .f32⟩ : BufTy).Contents (Elt Ideal)
  x12 : (⟨S2048, .f32⟩ : BufTy).Contents (Elt Ideal)
  x13 : (⟨S256x64000, .f32⟩ : BufTy).Contents (Elt Ideal)

namespace Args

variable (A : Args)

/-- The 256 normalised query rows (plain and augmented), 256 wide. -/
def qAll : (⟨S256x256, .f32⟩ : BufTy).Contents (Elt Ideal) :=
  val_main_v82 (F := Ideal) A.x0 A.x3 A.x5 A.x6 A.x9 A.x10 A.x11 A.x12
/-- The labels, repeated for the augmented half. -/
def lab2 : (⟨S256, .i32⟩ : BufTy).Contents (Elt Ideal) := val_main_v84 (F := Ideal) A.x2
/-- The positive-pair logits, one per row, as a column. -/
def lPos : (⟨S256x1, .f32⟩ : BufTy).Contents (Elt Ideal) :=
  val_main_v87 (F := Ideal) A.x0 A.x1 A.x3 A.x4 A.x5 A.x6 A.x7 A.x8 A.x9 A.x10 A.x11 A.x12
/-- The logits of every row against every queue column. -/
def dot3 : (⟨S256x64000, .f32⟩ : BufTy).Contents (Elt Ideal) :=
  val_main_v88 (F := Ideal) A.x0 A.x3 A.x5 A.x6 A.x9 A.x10 A.x11 A.x12 A.x13
/-- The 64 logits of each row against the queue entries of the row's own class. -/
def pos : (⟨S256x64, .f32⟩ : BufTy).Contents (Elt Ideal) :=
  val_main_v92 (F := Ideal) A.x0 A.x2 A.x3 A.x5 A.x6 A.x9 A.x10 A.x11 A.x12 A.x13
/-- The reference's first result. -/
def logitsRef : (⟨S256x64001, .f32⟩ : BufTy).Contents (Elt Ideal) :=
  val_main_v109 (F := Ideal) A.x0 A.x1 A.x2 A.x3 A.x4 A.x5 A.x6 A.x7 A.x8 A.x9 A.x10 A.x11 A.x12 A.x13

/-- Row `r`'s positive-pair logit. -/
def aRow (r : Fin 256) : EReal := A.lPos (ix2 r (0 : Fin 1))
/-- Row `r`'s own-class logits. -/
def bRow (r : Fin 256) (q : Fin 64) : EReal := A.pos (ix2 r q)
/-- Row `r`'s logits against the whole queue. -/
def dRow (r : Fin 256) (q : Fin 64000) : EReal := A.dot3 (ix2 r q)
/-- Row `r`'s label, read signed. -/
def labRow (r : Fin 256) : ℤ := (A.lab2 (ix1 r)).toInt

/-- The specification of the first result: row `r`, column `j` is `rowOut` of row `r`'s parts. -/
def logits : (⟨S256x64001, .f32⟩ : BufTy).Contents (Elt Ideal) := fun i =>
  rowOut (A.aRow ⟨(i 0).val, idx2_lt0 i⟩) (A.bRow ⟨(i 0).val, idx2_lt0 i⟩) (A.dRow ⟨(i 0).val, idx2_lt0 i⟩)
    (A.labRow ⟨(i 0).val, idx2_lt0 i⟩) ⟨(i 1).val, idx2_lt1 i⟩

/-- Every entry of every floating-point argument is a real number. -/
def Real : Prop :=
  (∀ i, ∃ t : ℝ, A.x0 i = (t : EReal)) ∧ (∀ i, ∃ t : ℝ, A.x1 i = (t : EReal)) ∧ (∀ i, ∃ t : ℝ, A.x3 i = (t : EReal))
  ∧ (∀ i, ∃ t : ℝ, A.x4 i = (t : EReal)) ∧ (∀ i, ∃ t : ℝ, A.x5 i = (t : EReal)) ∧ (∀ i, ∃ t : ℝ, A.x6 i = (t : EReal))
  ∧ (∀ i, ∃ t : ℝ, A.x7 i = (t : EReal)) ∧ (∀ i, ∃ t : ℝ, A.x8 i = (t : EReal)) ∧ (∀ i, ∃ t : ℝ, A.x9 i = (t : EReal))
  ∧ (∀ i, ∃ t : ℝ, A.x10 i = (t : EReal)) ∧ (∀ i, ∃ t : ℝ, A.x11 i = (t : EReal)) ∧ (∀ i, ∃ t : ℝ, A.x12 i = (t : EReal))
  ∧ (∀ i, ∃ t : ℝ, A.x13 i = (t : EReal))

end Args

end Cert.Bridge

end
-- ==== Proof.KernelEntry.lean ====
import proofs.«163235_j22531398435254_2_alg».proof.Proof.FrameP
import proofs.«163235_j22531398435254_2_alg».proof.Proof.Chain

/-!
# What the idealized kernel program holds when its first kernel is entered

Before the first kernel the program runs the same host operations as the reference: the query and key rows,
the labels, the positive-pair logits and the two KL terms. Read back from the launch memory, each of these
buffers holds the reference's stage function of the argument arrays.
-/

noncomputable section

namespace Cert.KernelIdeal.HostValue

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg)

/-- The argument arrays of the kernel program on core `c`. -/
def argsOf (c : Dev nD) : Cert.Bridge.Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)

open Cert.ReferenceIdeal.ReadP in
set_option maxRecDepth 16384 in
set_option maxHeartbeats 8000000 in
/-- The query rows at the first kernel's entry. -/
theorem entry_qAll (c : Dev nD) :
    (W17 m ρ c (Proc.devRef .tc main_v82) : (⟨S256x256, .f32⟩ : BufTy).Contents (Elt Ideal)) = (argsOf m c).qAll := by
  after_results_simp
  rfl

open Cert.ReferenceIdeal.ReadP in
set_option maxRecDepth 16384 in
set_option maxHeartbeats 8000000 in
/-- The doubled labels at the first kernel's entry. -/
theorem entry_lab2 (c : Dev nD) :
    (W17 m ρ c (Proc.devRef .tc main_v84) : (⟨S256, .i32⟩ : BufTy).Contents (Elt Ideal)) = (argsOf m c).lab2 := by
  after_results_simp
  rfl

open Cert.ReferenceIdeal.ReadP in
set_option maxRecDepth 16384 in
set_option maxHeartbeats 8000000 in
/-- The positive-pair logits at the first kernel's entry. -/
theorem entry_lPos (c : Dev nD) :
    (W17 m ρ c (Proc.devRef .tc main_v87) : (⟨S256x1, .f32⟩ : BufTy).Contents (Elt Ideal)) = (argsOf m c).lPos := by
  after_results_simp
  rfl

set_option maxRecDepth 16384 in
set_option maxHeartbeats 8000000 in
/-- The queue is an argument: no host operation writes it. -/
theorem entry_queue (c : Dev nD) :
    (W17 m ρ c (Proc.devRef .tc main_arg13) : (⟨S256x64000, .f32⟩ : BufTy).Contents (Elt Ideal)) = (argsOf m c).x13 := by
  after_results_simp
  rfl

end Cert.KernelIdeal.HostValue

end
-- ==== Proof.MatmulEntry.lean ====
import Idealize.ShloMosaic.PureOps.Ideal.Laws
import Idealize.ShloMosaic.Lib.ValueIdx

/-!
# One entry of a matrix product accumulated into zero

For dimension numbers that contract the last axis of a 256×256 left operand with the first axis of a
256×6400 right operand, and have no batch axis, entry (p, q) of the product accumulated into the zero
matrix is the sum over k of left[p, k] · right[k, q].
-/

noncomputable section

namespace Cert.Bridge

open Idealize.ShloMosaic Idealize.ShloMosaic.ValueIdx

/-- The left operand's row is the result's row: with no batch axis and one free axis on the left operand, the
    left index has on that axis coordinate 0 of the result index. -/
theorem lhs_row {sl sr so : Shape} (D : DotDims sl sr so) (a : Fin sl.rank) (h0 : 0 < so.rank)
    (hb : D.lhsBatch = []) (hn : D.lhsNonContracting = [a]) (i : so.Idx) (κ : D.contr.Idx) :
    (D.lhsIdx i κ a).val = (i ⟨0, h0⟩).val := by
  unfold DotDims.lhsIdx
  rw [dif_neg (by rw [hb]; exact List.not_mem_nil), dif_pos (by rw [hn]; exact List.mem_singleton.mpr rfl)]
  simp only [Fin.val_cast]
  have key : ∀ (u v : Nat) (hu : u < so.rank) (hv : v < so.rank), u = v → (i ⟨u, hu⟩).val = (i ⟨v, hv⟩).val :=
    fun u v hu hv h => by subst h; rfl
  exact key _ _ _ _ (by simp [hb, hn])

/-- The right operand's column is the result's column: with no batch axis and one free axis on each operand, the
    right index has on its free axis coordinate 1 of the result index. -/
theorem rhs_col {sl sr so : Shape} (D : DotDims sl sr so) (a : Fin sr.rank) (al : Fin sl.rank) (h1 : 1 < so.rank)
    (hb : D.rhsBatch = []) (hlb : D.lhsBatch = []) (hln : D.lhsNonContracting = [al]) (hn : D.rhsNonContracting = [a])
    (i : so.Idx) (κ : D.contr.Idx) :
    (D.rhsIdx i κ a).val = (i ⟨1, h1⟩).val := by
  unfold DotDims.rhsIdx
  rw [dif_neg (by rw [hb]; exact List.not_mem_nil), dif_pos (by rw [hn]; exact List.mem_singleton.mpr rfl)]
  simp only [Fin.val_cast]
  have key : ∀ (u v : Nat) (hu : u < so.rank) (hv : v < so.rank), u = v → (i ⟨u, hu⟩).val = (i ⟨v, hv⟩).val :=
    fun u v hu hv h => by subst h; rfl
  exact key _ _ _ _ (by simp [hb, hlb, hln, hn])

/-- Entry (p, q) of a 256×256 by 256×6400 product accumulated into zero. -/
theorem matmul_zero_entry (D : DotDims ⟨2, ![256, 256]⟩ ⟨2, ![256, 6400]⟩ ⟨2, ![256, 6400]⟩)
    (hlc : D.lhsContracting = [1]) (hrc : D.rhsContracting = [0])
    (hln : D.lhsNonContracting = [0]) (hrn : D.rhsNonContracting = [1])
    (hlb : D.lhsBatch = []) (hrb : D.rhsBatch = [])
    (hr : D.contr.rank = 1) (hs : D.contr.size ⟨0, by omega⟩ = 256)
    (prec : Option ContractPrecision)
    (x : FVec Ideal ⟨2, ![256, 256]⟩ .f32) (y : FVec Ideal ⟨2, ![256, 6400]⟩ .f32) (p : Fin 256) (q : Fin 6400) :
    FloatOps.matmul D prec x y (constant (F := Ideal) ⟨2, ![256, 6400]⟩ .f32 0x00000000#32) (ix2 p q)
      = ∑ k : Fin 256, x (ix2 p k) * y (ix2 k q) := by
  refine (Ideal.matmul_constant_zero_apply D prec x y (ix2 p q)).trans ?_
  rw [← Equiv.sum_comp (contrEquiv1 D 256 hr hs).symm]
  refine Finset.sum_congr rfl fun k _ => ?_
  have hk := contrEquiv1_symm_val D 256 hr hs k
  have el : D.lhsIdx (ix2 p q) ((contrEquiv1 D 256 hr hs).symm k) = ix2 p k := funext fun a => Fin.ext (by
    match a with
    | ⟨0, _⟩ => exact lhs_row D 0 (by decide) hlb hln _ _
    | ⟨1, _⟩ => exact (D.lhsIdx_val_of_single hlc _ _).trans hk)
  have er : D.rhsIdx (ix2 p q) ((contrEquiv1 D 256 hr hs).symm k) = ix2 k q := funext fun a => Fin.ext (by
    match a with
    | ⟨0, _⟩ => exact (D.rhsIdx_val_of_single hrc _ _).trans hk
    | ⟨1, _⟩ => exact rhs_col D 1 0 (by decide) hrb hlb hln hrn _ _)
  rw [el, er]

end Cert.Bridge

end
-- ==== Proof.MatmulBlocks.lean ====
import proofs.«163235_j22531398435254_2_alg».proof.Proof.Gen.KernelIdeal.Skeleton
import proofs.«163235_j22531398435254_2_alg».proof.Proof.Gen.KernelIdeal.Points
import proofs.«163235_j22531398435254_2_alg».proof.Proof.Gen.KernelIdeal.Launch
import proofs.«163235_j22531398435254_2_alg».proof.Proof.MatmulEntry
import Idealize.ShloMosaic.Lib.Pipeline.Value

/-!
# The first kernel, block by block

The first kernel multiplies the 256×256 query matrix with the 256×64000 queue, ten column blocks of 6400 at a
time: at grid point t it reads the whole query matrix and columns 6400·t … 6400·t + 6399 of the queue, and writes
the same columns of the result. This module reads one entry of the block product, says where each block sits in
its array, and shows that the ten output blocks cover the result array.
-/

noncomputable section

namespace Cert.KernelIdeal.ArrayValue

open Cert.KernelIdeal Cert.KernelIdeal.Gen Idealize.ShloMosaic Idealize.ShloMosaic.ValueIdx
open Idealize.ShloMosaic.TcCoe Idealize.SL.Sem

/-- The product of a 256×256 matrix with a 256×64000 matrix, entry by entry. -/
def matProd (A : S256x256.Idx → EReal) (B : S256x64000.Idx → EReal) : S256x64000.Idx → EReal :=
  fun i => ∑ k : Fin 256, A (ix2 (⟨(i 0).val, (i 0).isLt⟩ : Fin 256) k) * B (ix2 k (⟨(i 1).val, (i 1).isLt⟩ : Fin 64000))

theorem matProd_apply (A : S256x256.Idx → EReal) (B : S256x64000.Idx → EReal) (p : Fin 256) (q : Fin 64000) :
    matProd A B (ix2 p q) = ∑ k : Fin 256, A (ix2 p k) * B (ix2 k q) := rfl

theorem origin : (![0, 0] : Fin 2 → Nat) = fun _ => 0 := funext fun a => by fin_cases a <;> rfl

/-- One entry of the block product: row p of the left block against column q of the right block. -/
theorem product_entry (x0 : Vec Ideal S256x256 .f32) (x1 : Vec Ideal S256x6400 .f32) (p : Fin 256) (q : Fin 6400) :
    k0_pay1 (F := Ideal) x0 x1 (ix2 p q) = ∑ k : Fin 256, x0 (ix2 p k) * x1 (ix2 k q) := by
  unfold k0_pay1
  rw [shapeCast_self]
  exact Cert.Bridge.matmul_zero_entry dot_S256x256_S256x6400_S256x6400_1_0_0_1_n_n rfl rfl rfl rfl rfl rfl rfl rfl
    (some .fp32) x0 x1 p q

/-- The index maps over the ten grid points: the query window stays at block (0, 0); the queue window and the
    output window are at block (0, t). -/
theorem index_facts0 : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The query window's block is the whole array. -/
theorem left_block_read (A : S256x256.Idx → EReal) (t : Fin cfg0.N) (y : S256x256.Idx) :
    (((cfg0.win 0).blk t).view.read (Elt Ideal) A : S256x256.Idx → EReal) y = A y := by
  obtain ⟨e0, e1, -⟩ := index_facts0 t
  show A (((cfg0.win 0).blk t).view.emb y) = A y
  refine congrArg A ?_
  funext a; apply Fin.ext
  match a with
  | ⟨0, _⟩ => show win0_0.index t (0 : Fin 2) * 256 + 1 * (y 0).val = (y 0).val; omega
  | ⟨1, _⟩ => show win0_0.index t (1 : Fin 2) * 256 + 1 * (y 1).val = (y 1).val; omega

/-- The queue window's block at point t: column q of the block is column 6400·t + q of the array. -/
theorem right_block_read (B : S256x64000.Idx → EReal) (t : Fin cfg0.N) (y : S256x6400.Idx) (i : S256x64000.Idx)
    (h0 : (i 0).val = (y 0).val) (h1 : (i 1).val = t.val * 6400 + (y 1).val) :
    (((cfg0.win 1).blk t).view.read (Elt Ideal) B : S256x6400.Idx → EReal) y = B i := by
  obtain ⟨-, -, e0, e1, -⟩ := index_facts0 t
  show B (((cfg0.win 1).blk t).view.emb y) = B i
  refine congrArg B ?_
  funext a; apply Fin.ext
  match a with
  | ⟨0, _⟩ => show win0_1.index t (0 : Fin 2) * 256 + 1 * (y 0).val = (i 0).val; omega
  | ⟨1, _⟩ => show win0_1.index t (1 : Fin 2) * 6400 + 1 * (y 1).val = (i 1).val; omega

/-- The block product is the block of the whole product: when the left block is the whole left matrix and the
    right block is columns 6400·n … of the right matrix, entry j of the block product is the entry of the whole
    product one finds 6400·n columns further. -/
theorem product_block_entry (x0 : Vec Ideal S256x256 .f32) (x1 : Vec Ideal S256x6400 .f32)
    (A : S256x256.Idx → EReal) (B : S256x64000.Idx → EReal) (n : ℕ)
    (h0 : ∀ y : S256x256.Idx, x0 y = A y)
    (h1 : ∀ (y : S256x6400.Idx) (i : S256x64000.Idx), (i 0).val = (y 0).val → (i 1).val = n * 6400 + (y 1).val → x1 y = B i)
    (j : S256x6400.Idx) (i : S256x64000.Idx) (hi0 : (i 0).val = (j 0).val) (hi1 : (i 1).val = n * 6400 + (j 1).val) :
    k0_pay1 (F := Ideal) x0 x1 j = matProd A B i := by
  obtain ⟨p, q, rfl⟩ : ∃ (p : Fin 256) (q : Fin 6400), j = ix2 p q := ⟨j 0, j 1, eq_ix2 j⟩
  rw [product_entry]
  unfold matProd
  refine Finset.sum_congr rfl fun k _ => ?_
  have ep : (⟨(i 0).val, (i 0).isLt⟩ : Fin 256) = p := Fin.ext hi0
  rw [ep, h0 (ix2 p k), h1 (ix2 k q) (ix2 k (⟨(i 1).val, (i 1).isLt⟩ : Fin 64000)) rfl hi1]

/-- An index of the result array is in point t's output block iff each coordinate is in the block's range. -/
theorem mem_out_block (t : Fin cfg0.N) (i : S256x64000.Idx) :
    i ∈ ((cfg0.win 2).blk t).view.set ↔ ∀ a : Fin 2, win0_2.index t a * S256x6400.size a ≤ (i a).val ∧ (i a).val < win0_2.index t a * S256x6400.size a + S256x6400.size a := by
  show i ∈ ((View.whole main_v88).slice (win0_2.rect t)).set ↔ _
  rw [View.set_slice_whole, Rect.mem_set_unit]
  exact Iff.rfl

/-- Every entry of the result array is written: column q lies in the block of point q / 6400. -/
theorem out_blocks_cover (i : S256x64000.Idx) :
    ∃ t : Fin cfg0.N, (cfg0.win 2).flush t = true ∧ i ∈ ((cfg0.win 2).blk t).view.set := by
  have hN : cfg0.N = 10 := N_0
  have hi0 : (i 0).val < 256 := (i 0).isLt
  have hi1 : (i 1).val < 64000 := (i 1).isLt
  let t : Fin cfg0.N := ⟨(i 1).val / 6400, by rw [hN]; omega⟩
  obtain ⟨-, -, -, -, e0, e1⟩ := index_facts0 t
  have ht : t.val = (i 1).val / 6400 := rfl
  refine ⟨t, flush0_2 t, ?_⟩
  rw [mem_out_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 6400 ≤ (i 1).val ∧ (i 1).val < win0_2.index t (1 : Fin 2) * 6400 + 6400; omega

end Cert.KernelIdeal.ArrayValue

end
-- ==== Proof.MatmulArray.lean ====
import proofs.«163235_j22531398435254_2_alg».proof.Proof.FrameP
import proofs.«163235_j22531398435254_2_alg».proof.Proof.MatmulBlocks

/-!
# The result of the first kernel, as a whole array

Each of the ten grid points writes back its block of the product of the query matrix with the queue; the blocks
cover the result array; so after the kernel the array is the whole product.
-/

noncomputable section

namespace Cert.KernelIdeal.ArrayValue

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- What point t writes back is block t of the whole product. -/
theorem product_block_flushed (c : Dev nD) (t : Fin cfg0.N) :
    (dat0 (F := Ideal) V c).flushed 2 t
      = ((cfg0.win 2).blk t).view.read (Elt Ideal) (matProd (V c main_v82) (V c main_arg13)) := by
  show (cfg0.win 2).cut (grid0.coords t) ((dat0 (F := Ideal) V c).after 2 t) = _
  rw [after0_2]
  unfold out0_2
  rw [View.canon_unit_zero origin]
  simp only [View.ld_unit_zero (S := S256x256) origin, View.ld_unit_zero (S := S256x6400) origin]
  obtain ⟨-, -, -, -, e0, e1⟩ := index_facts0 t
  funext j
  show k0_pay1 (F := Ideal) (iblk0 V c 0 t) (iblk0 V c 1 t) j
    = matProd (V c main_v82) (V c main_arg13) (((cfg0.win 2).blk t).view.emb j)
  exact product_block_entry (iblk0 V c 0 t) (iblk0 V c 1 t) (V c main_v82) (V c main_arg13) t.val
    (left_block_read (V c main_v82) t) (right_block_read (V c main_arg13) t) j (((cfg0.win 2).blk t).view.emb j)
    (by show win0_2.index t (0 : Fin 2) * 256 + 1 * (j 0).val = (j 0).val; omega)
    (by show win0_2.index t (1 : Fin 2) * 6400 + 1 * (j 1).val = t.val * 6400 + (j 1).val; omega)

/-- After the first kernel the result array is the whole product. -/
theorem dot3_array_eq (c : Dev nD) :
    (dat0 (F := Ideal) V c).arrAt 2 cfg0.N = matProd (V c main_v82) (V c main_arg13) :=
  (dat0 (F := Ideal) V c).arrAt_eq_of_cover 2 (matProd (V c main_v82) (V c main_arg13))
    (fun t _ => product_block_flushed V c t) out_blocks_cover

/-- After the first kernel, the output array is the matrix product of the query rows with the queue: entry (p, q)
    is the sum over k of q_all[p,k] · queue[k,q]. The two input arrays are named A and B, so that the sum is
    written over plain functions; take both equations by reflexivity, or hand in what the arrays are known to be. -/
theorem dot3_array (c : Dev nD) (p : Fin 256) (q : Fin 64000)
    (A : S256x256.Idx → EReal) (B : S256x64000.Idx → EReal) (hA : V c main_v82 = A) (hB : V c main_arg13 = B) :
    (dat0 (F := Ideal) V c).arrAt 2 cfg0.N (ix2 p q) = ∑ k : Fin 256, A (ix2 p k) * B (ix2 k q) := by
  subst hA hB
  exact (congrFun (dot3_array_eq V c) (ix2 p q)).trans (matProd_apply (V c main_v82) (V c main_arg13) p q)

end Cert.KernelIdeal.ArrayValue

end
-- ==== Proof.DotShared.lean ====
import proofs.«163235_j22531398435254_2_alg».proof.Proof.Chain
import proofs.«163235_j22531398435254_2_alg».proof.Proof.MatmulBlocks

/-!
# The product of the shared query rows with the queue is the shared queue logits

Entry (p, q) of the product of the query matrix with the queue is the sum over k of query[p, k] · queue[k, q]; the
host's matrix product of the same two arrays, read at (p, q), is the same sum.
-/

noncomputable section

namespace Cert.KernelIdeal.ArrayValue

open Cert.KernelIdeal Idealize.ShloMosaic Idealize.ShloMosaic.ValueIdx

open Cert.ReferenceIdeal.ReadP in
/-- The whole product of the shared query rows with the queue argument is the shared queue logits. -/
theorem matProd_shared (A : Cert.Bridge.Args) : matProd A.qAll A.x13 = A.dot3 := by
  funext i
  obtain ⟨p, q, rfl⟩ : ∃ (p : Fin 256) (q : Fin 64000), i = ix2 p q := ⟨i 0, i 1, eq_ix2 i⟩
  rw [matProd_apply]
  unfold Cert.Bridge.Args.dot3 Cert.Bridge.Args.qAll
  rw [val_main_v88_apply]
  refine Finset.sum_congr rfl fun k _ => ?_
  have el : lidx_main_v88 (ix2 p q) k = ix2 p k := funext fun a => Fin.ext (by
    match a with
    | ⟨0, _⟩ => rfl
    | ⟨1, _⟩ => rfl)
  have er : ridx_main_v88 (ix2 p q) k = ix2 k q := funext fun a => Fin.ext (by
    match a with
    | ⟨0, _⟩ => rfl
    | ⟨1, _⟩ => rfl)
  rw [el, er]

end Cert.KernelIdeal.ArrayValue

end
-- ==== Proof.KernelMid.lean ====
import proofs.«163235_j22531398435254_2_alg».proof.Proof.FrameP
import proofs.«163235_j22531398435254_2_alg».proof.Proof.Chain
import proofs.«163235_j22531398435254_2_alg».proof.Proof.KernelEntry
import proofs.«163235_j22531398435254_2_alg».proof.Proof.MatmulArray
import proofs.«163235_j22531398435254_2_alg».proof.Proof.DotShared

/-!
# What the idealized kernel program holds when its second kernel is entered

The first kernel leaves the queue logits (the matrix product of the query rows with the queue); the host then
gathers each row's own-class logits from them and lays the labels out as a column. Read back, the second kernel's
four input arrays are the shared values of the argument arrays.

The gather runs through a module-local function whose operations read and write their buffers at the type of the
value they hold. Read back one stretch of host operations at a time — the reshape and the label broadcast, then the
gather, then the two closing reshapes — each stretch's result is one stage function of the reference applied to the
stage before.
-/

noncomputable section

namespace Cert.KernelIdeal.HostValue

open Cert.KernelIdeal Cert.KernelIdeal.Gen Cert.KernelIdeal.GenP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- After the first kernel its output array holds the queue logits: the whole product of the query rows with the
    queue, which is the host's matrix product of the same two arrays. -/
theorem exit0_dot3 (c : Dev nD) :
    (W18 m ρ c (Proc.devRef .tc main_v88) : (⟨S256x64000, .f32⟩ : BufTy).Contents (Elt Ideal)) = (argsOf m c).dot3 := by
  refine (W18_arr m ρ c 2).trans ?_
  refine (Cert.KernelIdeal.ArrayValue.dot3_array_eq (V17 m ρ) c).trans ?_
  refine (congrArg₂ Cert.KernelIdeal.ArrayValue.matProd (entry_qAll m ρ c) (entry_queue m ρ c)).trans ?_
  exact Cert.KernelIdeal.ArrayValue.matProd_shared (argsOf m c)

set_option maxRecDepth 16384 in
set_option maxHeartbeats 1000000 in
/-- The positive-pair logits are untouched between the kernels. -/
theorem mid_lPos (c : Dev nD) :
    (W21 m ρ c (Proc.devRef .tc main_v87) : (⟨S256x1, .f32⟩ : BufTy).Contents (Elt Ideal)) = (argsOf m c).lPos := by
  after_results_simp
  rw [W18_of_ne m ρ c main_v87 (by decide)]
  exact entry_lPos m ρ c

set_option maxRecDepth 16384 in
set_option maxHeartbeats 1000000 in
/-- The queue logits are untouched between the kernels. -/
theorem mid_dot3 (c : Dev nD) :
    (W21 m ρ c (Proc.devRef .tc main_v88) : (⟨S256x64000, .f32⟩ : BufTy).Contents (Elt Ideal)) = (argsOf m c).dot3 := by
  after_results_simp
  exact exit0_dot3 m ρ c

open Cert.ReferenceIdeal.ReadP in
set_option maxRecDepth 16384 in
set_option maxHeartbeats 1000000 in
/-- The queue logits laid out class by class: the reference's reshape of the same array. -/
theorem mid_v89 (c : Dev nD) :
    (W19 m ρ c (Proc.devRef .tc main_v89) : (⟨S256x1000x64, .f32⟩ : BufTy).Contents (Elt Ideal))
      = val_main_v89 (F := Ideal) (argsOf m c).x0 (argsOf m c).x3 (argsOf m c).x5 (argsOf m c).x6 (argsOf m c).x9 (argsOf m c).x10 (argsOf m c).x11 (argsOf m c).x12 (argsOf m c).x13 := by
  after_results_simp
  rw [exit0_dot3 m ρ c]
  rfl

open Cert.ReferenceIdeal.ReadP in
set_option maxRecDepth 16384 in
set_option maxHeartbeats 1000000 in
/-- The labels laid out for the gather: the reference's broadcast of the same array. -/
theorem mid_v90 (c : Dev nD) :
    (W19 m ρ c (Proc.devRef .tc main_v90) : (⟨S256x1x1, .i32⟩ : BufTy).Contents (Elt Ideal))
      = val_main_v90 (F := Ideal) (argsOf m c).x2 := by
  after_results_simp
  rw [W18_of_ne m ρ c main_v84 (by decide), entry_lab2 m ρ c]
  rfl

open Cert.ReferenceIdeal.ReadP in
set_option maxRecDepth 16384 in
set_option maxHeartbeats 1000000 in
/-- The gathered own-class logits: the gather's operations read their operands and write their results through the
    identity (each buffer holds a value of its own type), so once every read of a freshly written value is cancelled
    against its write the composed term is the reference's, operation by operation. -/
theorem mid_v91 (c : Dev nD) :
    (W20 m ρ c (Proc.devRef .tc main_v91) : (⟨S256x1x64, .f32⟩ : BufTy).Contents (Elt Ideal))
      = val_main_v91 (F := Ideal) (argsOf m c).x0 (argsOf m c).x2 (argsOf m c).x3 (argsOf m c).x5 (argsOf m c).x6 (argsOf m c).x9 (argsOf m c).x10 (argsOf m c).x11 (argsOf m c).x12 (argsOf m c).x13 := by
  have h89 : W19 m ρ c (Proc.devRef .tc main_v89)
      = (TRef.of main_v89 : TRef sig ⟨S256x1000x64, .f32⟩).toBuf (val_main_v89 (F := Ideal) (argsOf m c).x0 (argsOf m c).x3 (argsOf m c).x5 (argsOf m c).x6 (argsOf m c).x9 (argsOf m c).x10 (argsOf m c).x11 (argsOf m c).x12 (argsOf m c).x13) := mid_v89 m ρ c
  have h90 : W19 m ρ c (Proc.devRef .tc main_v90)
      = (TRef.of main_v90 : TRef sig ⟨S256x1x1, .i32⟩).toBuf (val_main_v90 (F := Ideal) (argsOf m c).x2) := mid_v90 m ρ c
  show (TRef.of main_v91 : TRef sig ⟨S256x1x64, .f32⟩).ofBuf
      (StableHlo.after hostOps1_1 (W19 m ρ c) (Proc.devRef .tc main_v91)) = _
  generalize W19 m ρ c = X at h89 h90 ⊢
  after_results_simp
  rw [h89, h90]
  simp only [TRef.ofBuf, TRef.toBuf, cast_cast, cast_eq]
  rfl

open Cert.ReferenceIdeal.ReadP in
set_option maxRecDepth 16384 in
set_option maxHeartbeats 1000000 in
/-- The own-class logits: the same reshape, label-indexed gather and reshape as the reference applies, to the same
    queue logits and labels. -/
theorem mid_pos (c : Dev nD) :
    (W21 m ρ c (Proc.devRef .tc main_v92) : (⟨S256x64, .f32⟩ : BufTy).Contents (Elt Ideal)) = (argsOf m c).pos := by
  have h91 := mid_v91 m ρ c
  show StableHlo.after hostOps1_2 (W20 m ρ c) (Proc.devRef .tc main_v92) = _
  generalize W20 m ρ c = X at h91 ⊢
  after_results_simp
  rw [h91]
  rfl

set_option maxRecDepth 16384 in
set_option maxHeartbeats 1000000 in
/-- The labels laid out as a column. -/
theorem mid_labCol (c : Dev nD) :
    (W21 m ρ c (Proc.devRef .tc main_v93) : (⟨S256x1, .i32⟩ : BufTy).Contents (Elt Ideal))
      = shapeCast S256x1 (argsOf m c).lab2 shapeCasts_S256_S256x1 := by
  after_results_simp
  rw [W18_of_ne m ρ c main_v84 (by decide), entry_lab2 m ρ c]
  rfl

end Cert.KernelIdeal.HostValue

end
-- ==== Proof.LogitsBlocks.lean ====
import proofs.«163235_j22531398435254_2_alg».proof.Proof.Gen.KernelIdeal.Points
import proofs.«163235_j22531398435254_2_alg».proof.Proof.Gen.KernelIdeal.Launch
import proofs.«163235_j22531398435254_2_alg».proof.Proof.Spec
import Idealize.ShloMosaic.Lib.Pipeline.Value

/-!
# The second kernel, block by block

The second kernel works on eight blocks of 32 rows: at grid point t it reads rows 32·t … 32·t + 31 of the queue
logits, of the positive logits, of the same-class logits and of the labels, and writes the same rows of the result.
Each row of the result depends only on the same row of the four inputs. This module says where each block sits in
its array, carries a row-by-row description of one block over to the whole arrays, and shows that the eight output
blocks cover the result array.
-/

noncomputable section

namespace Cert.KernelIdeal.ArrayValue

open Cert.KernelIdeal Cert.KernelIdeal.Gen Idealize.ShloMosaic Idealize.ShloMosaic.ValueIdx
open Idealize.ShloMosaic.TcCoe Idealize.SL.Sem

/-- The whole result, row by row: row r is the row computed part by part from row r of the positive logits
    pos, of the same-class logits cls, of the queue logits que and of the labels lab. -/
def logitsRows (pos : S256x1.Idx → EReal) (cls : S256x64.Idx → EReal) (que : S256x64000.Idx → EReal)
    (lab : S256x1.Idx → BitVec 32) : S256x64001.Idx → EReal :=
  fun i => Cert.Bridge.rowParts (pos (ix2 (⟨(i 0).val, (i 0).isLt⟩ : Fin 256) (0 : Fin 1)))
    (fun q => cls (ix2 (⟨(i 0).val, (i 0).isLt⟩ : Fin 256) q)) (fun q => que (ix2 (⟨(i 0).val, (i 0).isLt⟩ : Fin 256) q))
    ((lab (ix2 (⟨(i 0).val, (i 0).isLt⟩ : Fin 256) (0 : Fin 1))).toInt) (⟨(i 1).val, (i 1).isLt⟩ : Fin 64001)

theorem logitsRows_apply (pos : S256x1.Idx → EReal) (cls : S256x64.Idx → EReal) (que : S256x64000.Idx → EReal)
    (lab : S256x1.Idx → BitVec 32) (r : Fin 256) (j : Fin 64001) :
    logitsRows pos cls que lab (ix2 r j)
      = Cert.Bridge.rowParts (pos (ix2 r (0 : Fin 1))) (fun q => cls (ix2 r q)) (fun q => que (ix2 r q))
          ((lab (ix2 r (0 : Fin 1))).toInt) j := rfl

/-- The index maps over the eight grid points: every window is at block (t, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The queue-logits window's block at point t: row p of the block is row 32·t + p of the array. -/
theorem que_block_read (A : S256x64000.Idx → EReal) (t : Fin cfg1.N) (y : S32x64000.Idx) (i : S256x64000.Idx)
    (h0 : (i 0).val = t.val * 32 + (y 0).val) (h1 : (i 1).val = (y 1).val) :
    (((cfg1.win 0).blk t).view.read (Elt Ideal) A : S32x64000.Idx → EReal) y = A i := by
  obtain ⟨e0, e1, -⟩ := index_facts1 t
  show A (((cfg1.win 0).blk t).view.emb y) = A i
  refine congrArg A ?_
  funext a; apply Fin.ext
  match a with
  | ⟨0, _⟩ => show win1_0.index t (0 : Fin 2) * 32 + 1 * (y 0).val = (i 0).val; omega
  | ⟨1, _⟩ => show win1_0.index t (1 : Fin 2) * 64000 + 1 * (y 1).val = (i 1).val; omega

/-- The positive-logits window's block at point t. -/
theorem pos_block_read (A : S256x1.Idx → EReal) (t : Fin cfg1.N) (y : S32x1.Idx) (i : S256x1.Idx)
    (h0 : (i 0).val = t.val * 32 + (y 0).val) (h1 : (i 1).val = (y 1).val) :
    (((cfg1.win 1).blk t).view.read (Elt Ideal) A : S32x1.Idx → EReal) y = A i := by
  obtain ⟨-, -, e0, e1, -⟩ := index_facts1 t
  show A (((cfg1.win 1).blk t).view.emb y) = A i
  refine congrArg A ?_
  funext a; apply Fin.ext
  match a with
  | ⟨0, _⟩ => show win1_1.index t (0 : Fin 2) * 32 + 1 * (y 0).val = (i 0).val; omega
  | ⟨1, _⟩ => show win1_1.index t (1 : Fin 2) * 1 + 1 * (y 1).val = (i 1).val; omega

/-- The same-class-logits window's block at point t. -/
theorem cls_block_read (A : S256x64.Idx → EReal) (t : Fin cfg1.N) (y : S32x64.Idx) (i : S256x64.Idx)
    (h0 : (i 0).val = t.val * 32 + (y 0).val) (h1 : (i 1).val = (y 1).val) :
    (((cfg1.win 2).blk t).view.read (Elt Ideal) A : S32x64.Idx → EReal) y = A i := by
  obtain ⟨-, -, -, -, e0, e1, -⟩ := index_facts1 t
  show A (((cfg1.win 2).blk t).view.emb y) = A i
  refine congrArg A ?_
  funext a; apply Fin.ext
  match a with
  | ⟨0, _⟩ => show win1_2.index t (0 : Fin 2) * 32 + 1 * (y 0).val = (i 0).val; omega
  | ⟨1, _⟩ => show win1_2.index t (1 : Fin 2) * 64 + 1 * (y 1).val = (i 1).val; omega

/-- The labels window's block at point t. -/
theorem lab_block_read (A : S256x1.Idx → BitVec 32) (t : Fin cfg1.N) (y : S32x1.Idx) (i : S256x1.Idx)
    (h0 : (i 0).val = t.val * 32 + (y 0).val) (h1 : (i 1).val = (y 1).val) :
    (((cfg1.win 3).blk t).view.read (Elt Ideal) A : S32x1.Idx → BitVec 32) y = A i := by
  obtain ⟨-, -, -, -, -, -, e0, e1, -⟩ := index_facts1 t
  show A (((cfg1.win 3).blk t).view.emb y) = A i
  refine congrArg A ?_
  funext a; apply Fin.ext
  match a with
  | ⟨0, _⟩ => show win1_3.index t (0 : Fin 2) * 32 + 1 * (y 0).val = (i 0).val; omega
  | ⟨1, _⟩ => show win1_3.index t (1 : Fin 2) * 1 + 1 * (y 1).val = (i 1).val; omega

/-- A block described row by row is the block of the whole result: when the four input blocks are rows
    32·n … 32·n + 31 of their arrays and every row of the output block is the row computed part by part from the
    same row of the input blocks, entry y of the output block is the entry of the whole result 32·n rows further. -/
theorem logits_block_entry (x0 : Vec Ideal S32x64000 .f32) (x1 : Vec Ideal S32x1 .f32) (x2 : Vec Ideal S32x64 .f32)
    (x3 : Vec Ideal S32x1 .i32) (o : Vec Ideal S32x64001 .f32)
    (ho : ∀ (p : Fin 32) (j : Fin 64001), o (ix2 p j)
      = Cert.Bridge.rowParts (x1 (ix2 p (0 : Fin 1))) (fun q => x2 (ix2 p q)) (fun q => x0 (ix2 p q)) ((x3 (ix2 p (0 : Fin 1))).toInt) j)
    (que : S256x64000.Idx → EReal) (pos : S256x1.Idx → EReal) (cls : S256x64.Idx → EReal) (lab : S256x1.Idx → BitVec 32) (n : ℕ)
    (h0 : ∀ (y : S32x64000.Idx) (i : S256x64000.Idx), (i 0).val = n * 32 + (y 0).val → (i 1).val = (y 1).val → x0 y = que i)
    (h1 : ∀ (y : S32x1.Idx) (i : S256x1.Idx), (i 0).val = n * 32 + (y 0).val → (i 1).val = (y 1).val → x1 y = pos i)
    (h2 : ∀ (y : S32x64.Idx) (i : S256x64.Idx), (i 0).val = n * 32 + (y 0).val → (i 1).val = (y 1).val → x2 y = cls i)
    (h3 : ∀ (y : S32x1.Idx) (i : S256x1.Idx), (i 0).val = n * 32 + (y 0).val → (i 1).val = (y 1).val → x3 y = lab i)
    (y : S32x64001.Idx) (i : S256x64001.Idx) (hi0 : (i 0).val = n * 32 + (y 0).val) (hi1 : (i 1).val = (y 1).val) :
    o y = logitsRows pos cls que lab i := by
  obtain ⟨p, j, rfl⟩ : ∃ (p : Fin 32) (j : Fin 64001), y = ix2 p j := ⟨y 0, y 1, eq_ix2 y⟩
  have hr : (i 0).val = n * 32 + p.val := hi0
  have ej : (⟨(i 1).val, (i 1).isLt⟩ : Fin 64001) = j := Fin.ext hi1
  rw [ho]
  unfold logitsRows
  rw [ej, h1 (ix2 p (0 : Fin 1)) (ix2 (⟨(i 0).val, (i 0).isLt⟩ : Fin 256) (0 : Fin 1)) hr rfl,
    h3 (ix2 p (0 : Fin 1)) (ix2 (⟨(i 0).val, (i 0).isLt⟩ : Fin 256) (0 : Fin 1)) hr rfl]
  have e2 : (fun q => x2 (ix2 p q)) = fun q => cls (ix2 (⟨(i 0).val, (i 0).isLt⟩ : Fin 256) q) :=
    funext fun q => h2 (ix2 p q) (ix2 (⟨(i 0).val, (i 0).isLt⟩ : Fin 256) q) hr rfl
  have e0 : (fun q => x0 (ix2 p q)) = fun q => que (ix2 (⟨(i 0).val, (i 0).isLt⟩ : Fin 256) q) :=
    funext fun q => h0 (ix2 p q) (ix2 (⟨(i 0).val, (i 0).isLt⟩ : Fin 256) q) hr rfl
  rw [e2, e0]

/-- An index of the result array is in point t's output block iff each coordinate is in the block's range. -/
theorem mem_rows_block (t : Fin cfg1.N) (i : S256x64001.Idx) :
    i ∈ ((cfg1.win 4).blk t).view.set ↔ ∀ a : Fin 2, win1_4.index t a * S32x64001.size a ≤ (i a).val ∧ (i a).val < win1_4.index t a * S32x64001.size a + S32x64001.size a := by
  show i ∈ ((View.whole main_v94).slice (win1_4.rect t)).set ↔ _
  rw [View.set_slice_whole, Rect.mem_set_unit]
  exact Iff.rfl

/-- Every entry of the result array is written: row r lies in the block of point r / 32. -/
theorem rows_blocks_cover (i : S256x64001.Idx) :
    ∃ t : Fin cfg1.N, (cfg1.win 4).flush t = true ∧ i ∈ ((cfg1.win 4).blk t).view.set := by
  have hN : cfg1.N = 8 := N_1
  have hi0 : (i 0).val < 256 := (i 0).isLt
  have hi1 : (i 1).val < 64001 := (i 1).isLt
  let t : Fin cfg1.N := ⟨(i 0).val / 32, by rw [hN]; omega⟩
  obtain ⟨-, -, -, -, -, -, -, -, e0, e1⟩ := index_facts1 t
  have ht : t.val = (i 0).val / 32 := rfl
  refine ⟨t, flush1_4 t, ?_⟩
  rw [mem_rows_block]
  intro a
  match a with
  | ⟨0, _⟩ => show win1_4.index t (0 : Fin 2) * 32 ≤ (i 0).val ∧ (i 0).val < win1_4.index t (0 : Fin 2) * 32 + 32; omega
  | ⟨1, _⟩ => show win1_4.index t (1 : Fin 2) * 64001 ≤ (i 1).val ∧ (i 1).val < win1_4.index t (1 : Fin 2) * 64001 + 64001; omega

end Cert.KernelIdeal.ArrayValue

end
-- ==== Proof.LogitsArray.lean ====
import proofs.«163235_j22531398435254_2_alg».proof.Proof.FrameP
import proofs.«163235_j22531398435254_2_alg».proof.Proof.LogitsBlocks

/-!
# The result of the second kernel, as a whole array

Each of the eight grid points writes back its block of 32 rows; given that every row of a block is the row computed
part by part from the same row of the four input blocks, the block is a block of one row-by-row function of the four
input arrays; the blocks cover the result array; so after the kernel the array is that function.
-/

noncomputable section

namespace Cert.KernelIdeal.ArrayValue

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- What point t writes back is block t of the row-by-row result. -/
theorem logits_block_flushed
    (hbody : ∀ (c : Dev nD) (i : grid1.Coords)
      (arg1 : Memref sig .tc .vmem S32x64000 .f32) (harg1 : arg1.IsWhole) (arg2 : Memref sig .tc .vmem S32x1 .f32) (harg2 : arg2.IsWhole)
      (arg3 : Memref sig .tc .vmem S32x64 .f32) (harg3 : arg3.IsWhole) (arg4 : Memref sig .tc .vmem S32x1 .i32) (harg4 : arg4.IsWhole)
      (arg5 : Memref sig .tc .vmem S32x64001 .f32) (harg5 : arg5.IsWhole)
      (x0 : Vec Ideal S32x64000 .f32) (x1 : Vec Ideal S32x1 .f32) (x2 : Vec Ideal S32x64 .f32) (x3 : Vec Ideal S32x1 .i32)
      (p : Fin 32) (j : Fin 64001),
      out1_A_4 (F := Ideal) c i arg1 harg1 arg2 harg2 arg3 harg3 arg4 harg4 arg5 harg5 x0 x1 x2 x3 (ix2 p j)
        = Cert.Bridge.rowParts (x1 (ix2 p (0 : Fin 1))) (fun q => x2 (ix2 p q)) (fun q => x0 (ix2 p q)) ((x3 (ix2 p (0 : Fin 1))).toInt) j)
    (c : Dev nD) (t : Fin cfg1.N) :
    (dat1 (F := Ideal) V c).flushed 4 t
      = ((cfg1.win 4).blk t).view.read (Elt Ideal) (logitsRows (V c main_v87) (V c main_v92) (V c main_v88) (V c main_v93)) := by
  show (cfg1.win 4).cut (grid1.coords t) ((dat1 (F := Ideal) V c).after 4 t) = _
  rw [after1_4]
  unfold outsAt1
  obtain ⟨-, -, -, -, -, -, -, -, e0, e1⟩ := index_facts1 t
  funext j
  show out1_A_4 (F := Ideal) c (grid1.coords t) (ms1_0 t) (hs1_0 t) (ms1_1 t) (hs1_1 t) (ms1_2 t) (hs1_2 t) (ms1_3 t) (hs1_3 t) (ms1_4 t) (hs1_4 t)
      (iblk1 V c 0 t) (iblk1 V c 1 t) (iblk1 V c 2 t) (iblk1 V c 3 t) j
    = logitsRows (V c main_v87) (V c main_v92) (V c main_v88) (V c main_v93) (((cfg1.win 4).blk t).view.emb j)
  exact logits_block_entry (iblk1 V c 0 t) (iblk1 V c 1 t) (iblk1 V c 2 t) (iblk1 V c 3 t)
    (out1_A_4 (F := Ideal) c (grid1.coords t) (ms1_0 t) (hs1_0 t) (ms1_1 t) (hs1_1 t) (ms1_2 t) (hs1_2 t) (ms1_3 t) (hs1_3 t) (ms1_4 t) (hs1_4 t)
      (iblk1 V c 0 t) (iblk1 V c 1 t) (iblk1 V c 2 t) (iblk1 V c 3 t))
    (hbody c (grid1.coords t) (ms1_0 t) (hs1_0 t) (ms1_1 t) (hs1_1 t) (ms1_2 t) (hs1_2 t) (ms1_3 t) (hs1_3 t) (ms1_4 t) (hs1_4 t)
      (iblk1 V c 0 t) (iblk1 V c 1 t) (iblk1 V c 2 t) (iblk1 V c 3 t))
    (V c main_v88) (V c main_v87) (V c main_v92) (V c main_v93) t.val
    (que_block_read (V c main_v88) t) (pos_block_read (V c main_v87) t) (cls_block_read (V c main_v92) t) (lab_block_read (V c main_v93) t)
    j (((cfg1.win 4).blk t).view.emb j)
    (by show win1_4.index t (0 : Fin 2) * 32 + 1 * (j 0).val = t.val * 32 + (j 0).val; omega)
    (by show win1_4.index t (1 : Fin 2) * 64001 + 1 * (j 1).val = (j 1).val; omega)

/-- After the second kernel the result array is the row-by-row result. -/
theorem logits_array_eq
    (hbody : ∀ (c : Dev nD) (i : grid1.Coords)
      (arg1 : Memref sig .tc .vmem S32x64000 .f32) (harg1 : arg1.IsWhole) (arg2 : Memref sig .tc .vmem S32x1 .f32) (harg2 : arg2.IsWhole)
      (arg3 : Memref sig .tc .vmem S32x64 .f32) (harg3 : arg3.IsWhole) (arg4 : Memref sig .tc .vmem S32x1 .i32) (harg4 : arg4.IsWhole)
      (arg5 : Memref sig .tc .vmem S32x64001 .f32) (harg5 : arg5.IsWhole)
      (x0 : Vec Ideal S32x64000 .f32) (x1 : Vec Ideal S32x1 .f32) (x2 : Vec Ideal S32x64 .f32) (x3 : Vec Ideal S32x1 .i32)
      (p : Fin 32) (j : Fin 64001),
      out1_A_4 (F := Ideal) c i arg1 harg1 arg2 harg2 arg3 harg3 arg4 harg4 arg5 harg5 x0 x1 x2 x3 (ix2 p j)
        = Cert.Bridge.rowParts (x1 (ix2 p (0 : Fin 1))) (fun q => x2 (ix2 p q)) (fun q => x0 (ix2 p q)) ((x3 (ix2 p (0 : Fin 1))).toInt) j)
    (c : Dev nD) :
    (dat1 (F := Ideal) V c).arrAt 4 cfg1.N = logitsRows (V c main_v87) (V c main_v92) (V c main_v88) (V c main_v93) :=
  (dat1 (F := Ideal) V c).arrAt_eq_of_cover 4 (logitsRows (V c main_v87) (V c main_v92) (V c main_v88) (V c main_v93))
    (fun t _ => logits_block_flushed V hbody c t) rows_blocks_cover

/-- After the second kernel, row r of the output array is the row computed part by part from row r of its four
    input arrays, given what the body leaves in one block. The four input arrays are named, so that the row is
    written over plain functions; take the four equations by reflexivity, or hand in what the arrays are known to be. -/
theorem logits_array
    (hbody : ∀ (c : Dev nD) (i : grid1.Coords)
      (arg1 : Memref sig .tc .vmem S32x64000 .f32) (harg1 : arg1.IsWhole) (arg2 : Memref sig .tc .vmem S32x1 .f32) (harg2 : arg2.IsWhole)
      (arg3 : Memref sig .tc .vmem S32x64 .f32) (harg3 : arg3.IsWhole) (arg4 : Memref sig .tc .vmem S32x1 .i32) (harg4 : arg4.IsWhole)
      (arg5 : Memref sig .tc .vmem S32x64001 .f32) (harg5 : arg5.IsWhole)
      (x0 : Vec Ideal S32x64000 .f32) (x1 : Vec Ideal S32x1 .f32) (x2 : Vec Ideal S32x64 .f32) (x3 : Vec Ideal S32x1 .i32)
      (p : Fin 32) (j : Fin 64001),
      out1_A_4 (F := Ideal) c i arg1 harg1 arg2 harg2 arg3 harg3 arg4 harg4 arg5 harg5 x0 x1 x2 x3 (ix2 p j)
        = Cert.Bridge.rowParts (x1 (ix2 p (0 : Fin 1))) (fun q => x2 (ix2 p q)) (fun q => x0 (ix2 p q)) ((x3 (ix2 p (0 : Fin 1))).toInt) j)
    (c : Dev nD) (r : Fin 256) (j : Fin 64001)
    (pos : S256x1.Idx → EReal) (cls : S256x64.Idx → EReal) (que : S256x64000.Idx → EReal) (lab : S256x1.Idx → BitVec 32)
    (hpos : V c main_v87 = pos) (hcls : V c main_v92 = cls) (hque : V c main_v88 = que) (hlab : V c main_v93 = lab) :
    (dat1 (F := Ideal) V c).arrAt 4 cfg1.N (ix2 r j)
      = Cert.Bridge.rowParts (pos (ix2 r (0 : Fin 1))) (fun q => cls (ix2 r q)) (fun q => que (ix2 r q))
          ((lab (ix2 r (0 : Fin 1))).toInt) j := by
  subst hpos hcls hque hlab
  exact (congrFun (logits_array_eq V hbody c) (ix2 r j)).trans
    (logitsRows_apply (V c main_v87) (V c main_v92) (V c main_v88) (V c main_v93) r j)

end Cert.KernelIdeal.ArrayValue

end
-- ==== Proof.RowMath.lean ====
import proofs.«163235_j22531398435254_2_alg».proof.Proof.Spec

/-!
# The mathematics of one row, on the extended reals

The row of 64001 scaled logits is one entry, then 64 entries, then 63936 entries. A sum or a maximum over
the whole row is the sum or maximum of the three parts' own, so the row computed part by part is the
log-softmax of the assembled row. The two ways of writing a log-softmax, x − (L + M) and (x − M) − L,
agree as soon as the row's maximum M is a real number, which holds when no entry is +∞ and some entry is
above −∞. Dividing by the temperature, a nonzero real number, is multiplying by its reciprocal.
-/

noncomputable section

namespace Cert.Bridge

open Idealize.ShloMosaic

/-! ## The three parts of the row -/

theorem cat3_zero (a : EReal) (b : Fin 64 → EReal) (n : Fin 63936 → EReal) :
    cat3 a b n (0 : Fin (64000 + 1)) = a := by
  simp [cat3]

theorem cat3_mid (a : EReal) (b : Fin 64 → EReal) (n : Fin 63936 → EReal) (q : Fin 64) :
    cat3 a b n (Fin.succ (Fin.castAdd 63936 q : Fin (64 + 63936))) = b q := by
  have hq := q.isLt
  have h1 : ¬ ((Fin.succ (Fin.castAdd 63936 q : Fin (64 + 63936))).val = 0) := by simp
  have h2 : (Fin.succ (Fin.castAdd 63936 q : Fin (64 + 63936))).val < 65 := by
    simp only [Fin.val_succ, Fin.coe_castAdd]; omega
  unfold cat3
  rw [if_neg h1, dif_pos h2]
  congr 1

theorem cat3_hi (a : EReal) (b : Fin 64 → EReal) (n : Fin 63936 → EReal) (q : Fin 63936) :
    cat3 a b n (Fin.succ (Fin.natAdd 64 q : Fin (64 + 63936))) = n q := by
  have hq := q.isLt
  have h1 : ¬ ((Fin.succ (Fin.natAdd 64 q : Fin (64 + 63936))).val = 0) := by simp
  have h2 : ¬ (Fin.succ (Fin.natAdd 64 q : Fin (64 + 63936))).val < 65 := by
    simp only [Fin.val_succ, Fin.coe_natAdd]; omega
  unfold cat3
  rw [if_neg h1, dif_neg h2]
  congr 1
  apply Fin.ext
  simp only [Fin.val_succ, Fin.coe_natAdd]; omega

/-- Scaling commutes with assembling the row. -/
theorem cat3_mul (a : EReal) (b : Fin 64 → EReal) (n : Fin 63936 → EReal) (c : EReal) (j : Fin 64001) :
    cat3 (a * c) (fun q => b q * c) (fun q => n q * c) j = cat3 a b n j * c := by
  unfold cat3
  split_ifs <;> rfl

/-- A sum over the row is the sum over its three parts. -/
theorem sum_split (g : Fin 64001 → EReal) :
    ∑ j, g j = g (0 : Fin (64000 + 1))
      + ∑ q : Fin 64, g (Fin.succ (Fin.castAdd 63936 q : Fin (64 + 63936)))
      + ∑ q : Fin 63936, g (Fin.succ (Fin.natAdd 64 q : Fin (64 + 63936))) := by
  have e1 : ∑ j, g j = g (0 : Fin (64000 + 1)) + ∑ i : Fin 64000, g (Fin.succ i) :=
    Fin.sum_univ_succ (n := 64000) g
  have e2 : ∑ i : Fin 64000, g (Fin.succ i)
      = ∑ q : Fin 64, g (Fin.succ (Fin.castAdd 63936 q : Fin (64 + 63936)))
        + ∑ q : Fin 63936, g (Fin.succ (Fin.natAdd 64 q : Fin (64 + 63936))) :=
    Fin.sum_univ_add (a := 64) (b := 63936) (fun i => g (Fin.succ i))
  rw [e1, e2, add_assoc]

/-- The maximum over the row is the maximum of the maxima of its three parts. -/
theorem sup_split (g : Fin 64001 → EReal) :
    Finset.univ.sup g = max (max (g (0 : Fin (64000 + 1)))
        (Finset.univ.sup fun q : Fin 64 => g (Fin.succ (Fin.castAdd 63936 q : Fin (64 + 63936)))))
      (Finset.univ.sup fun q : Fin 63936 => g (Fin.succ (Fin.natAdd 64 q : Fin (64 + 63936)))) := by
  apply le_antisymm
  · apply Finset.sup_le
    intro j _
    refine Fin.cases ?_ (fun i => ?_) (j : Fin (64000 + 1))
    · exact le_max_of_le_left (le_max_left _ _)
    · refine Fin.addCases (m := 64) (n := 63936)
        (motive := fun i => g (Fin.succ i) ≤ max (max (g (0 : Fin (64000 + 1)))
          (Finset.univ.sup fun q : Fin 64 => g (Fin.succ (Fin.castAdd 63936 q : Fin (64 + 63936)))))
          (Finset.univ.sup fun q : Fin 63936 => g (Fin.succ (Fin.natAdd 64 q : Fin (64 + 63936)))))
        (fun q => ?_) (fun q => ?_) i
      · exact le_max_of_le_left (le_max_of_le_right
          (Finset.le_sup (f := fun q : Fin 64 => g (Fin.succ (Fin.castAdd 63936 q : Fin (64 + 63936))))
            (Finset.mem_univ q)))
      · exact le_max_of_le_right
          (Finset.le_sup (f := fun q : Fin 63936 => g (Fin.succ (Fin.natAdd 64 q : Fin (64 + 63936))))
            (Finset.mem_univ q))
  · refine max_le (max_le ?_ ?_) ?_
    · exact Finset.le_sup (f := g) (Finset.mem_univ _)
    · exact Finset.sup_le fun q _ => Finset.le_sup (f := g) (Finset.mem_univ _)
    · exact Finset.sup_le fun q _ => Finset.le_sup (f := g) (Finset.mem_univ _)

/-! ## The row computed part by part -/

theorem rowParts_eq_rowOut (a : EReal) (b : Fin 64 → EReal) (d : Fin 64000 → EReal) (lab : ℤ) :
    rowParts a b d lab = rowOut a b d lab := by
  funext j
  -- the scaled row is the row assembled from the scaled parts
  have hx : (fun j => cat3 a b (dropBlock d lab) j * invT)
      = cat3 (a * invT) (fun q => b q * invT) (fun q => dropBlock d lab q * invT) := by
    funext i; exact (cat3_mul a b (dropBlock d lab) invT i).symm
  unfold rowOut lsm rowParts
  rw [hx]
  generalize a * invT = a'
  generalize (fun q => b q * invT) = b'
  generalize (fun q => dropBlock d lab q * invT) = n'
  -- the maximum, part by part
  have hM : Finset.univ.sup (cat3 a' b' n')
      = max (max a' (Finset.univ.sup b')) (Finset.univ.sup n') := by
    rw [sup_split]
    simp only [cat3_zero, cat3_mid, cat3_hi]
  -- the sum of exponentials, part by part
  have hS : ∀ M : EReal, ∑ i, Ideal.exp (cat3 a' b' n' i - M)
      = Ideal.exp (a' - M) + ∑ q, Ideal.exp (b' q - M) + ∑ q, Ideal.exp (n' q - M) := by
    intro M
    rw [sum_split (fun i => Ideal.exp (cat3 a' b' n' i - M))]
    simp only [cat3_zero, cat3_mid, cat3_hi]
  simp only [hM, hS]

/-! ## The two spellings of log-softmax -/

theorem lsmShift_eq_lsm {n : ℕ} (x : Fin n → EReal) (hM : ∃ t : ℝ, Finset.univ.sup x = (t : EReal)) :
    lsmShift x = lsm x := by
  obtain ⟨t, ht⟩ := hM
  funext j
  unfold lsmShift lsm
  rw [ht]
  generalize Ideal.log (∑ i, Ideal.exp (x i - (t : EReal))) = L
  -- the negative of a sum with a real summand is the sum of the negatives
  have hneg : -(L + (t : EReal)) = -L - (t : EReal) :=
    EReal.neg_add (Or.inr (EReal.coe_ne_top t)) (Or.inr (EReal.coe_ne_bot t))
  rw [sub_eq_add_neg (x j) (L + t), hneg, sub_eq_add_neg, sub_eq_add_neg, sub_eq_add_neg,
    add_assoc, add_comm (-(t : EReal)) (-L)]

theorem sup_real {n : ℕ} (x : Fin n → EReal) (h1 : ∀ i, x i ≠ ⊤) (h2 : ∃ i, x i ≠ ⊥) :
    ∃ t : ℝ, Finset.univ.sup x = (t : EReal) := by
  obtain ⟨i0, hi0⟩ := h2
  -- the maximum is attained, so it is not +∞
  obtain ⟨k, -, hk⟩ := Finset.exists_mem_eq_sup Finset.univ ⟨i0, Finset.mem_univ i0⟩ x
  have htop : Finset.univ.sup x ≠ ⊤ := by rw [hk]; exact h1 k
  -- it is at least an entry above -∞
  have hbot : Finset.univ.sup x ≠ ⊥ := by
    intro h
    have hle : x i0 ≤ Finset.univ.sup x := Finset.le_sup (f := x) (Finset.mem_univ i0)
    rw [h] at hle
    exact hi0 (le_bot_iff.mp hle)
  exact ⟨(Finset.univ.sup x).toReal, (EReal.coe_toReal htop hbot).symm⟩

/-! ## The temperature -/

/-- The word 0x3D8F5C29 has sign 0, exponent field 123 and fraction field 1006633, so it denotes
    (2^23 + 1006633) · 2^(123 - 127 - 23) = 9395241 / 2^27. -/
theorem ofBits_temp : Ideal.ofBits .f32 0x3D8F5C29#32 = ((9395241 / 134217728 : ℝ) : EReal) := by
  simp [Ideal.ofBits, Ideal.ieee, -EReal.coe_mul]; norm_num

theorem div_temp (x : EReal) : Ideal.div x (Ideal.ofBits .f32 0x3D8F5C29#32) = x * invT := by
  rw [ofBits_temp, Ideal.div_coe (by norm_num) x, invT]
  congr 2
  norm_num

/-! ## The reference's row -/

/-- The reciprocal temperature as a real number. -/
theorem invT_eq : invT = ((134217728 / 9395241 : ℝ) : EReal) := rfl

/-- Scaling by the reciprocal temperature keeps a real number real. -/
theorem coe_mul_invT (t : ℝ) : (t : EReal) * invT = ((t * (134217728 / 9395241) : ℝ) : EReal) := by
  rw [invT_eq, ← EReal.coe_mul]

/-- Scaling by the (positive, real) reciprocal temperature cannot produce +∞ from anything but +∞. -/
theorem mul_invT_ne_top {x : EReal} (hx : x ≠ ⊤) : x * invT ≠ ⊤ := by
  induction x using EReal.rec with
  | bot =>
    rw [invT_eq, EReal.bot_mul_coe_of_pos (by norm_num)]
    exact bot_ne_top
  | coe t => rw [coe_mul_invT]; exact EReal.coe_ne_top _
  | top => exact absurd rfl hx

theorem refRow_eq_rowOut (a : EReal) (b : Fin 64 → EReal) (d : Fin 64000 → EReal) (lab : ℤ)
    (ha : ∃ t : ℝ, a = (t : EReal)) (hb : ∀ q, b q ≠ ⊤) (hd : ∀ q, ∃ t : ℝ, d q = (t : EReal)) :
    lsmShift (fun j => Ideal.div (cat3 a b (dropBlock d lab) j) (Ideal.ofBits .f32 0x3D8F5C29#32))
      = rowOut a b d lab := by
  obtain ⟨ta, rfl⟩ := ha
  have hdiv : (fun j => Ideal.div (cat3 (ta : EReal) b (dropBlock d lab) j) (Ideal.ofBits .f32 0x3D8F5C29#32))
      = fun j => cat3 (ta : EReal) b (dropBlock d lab) j * invT := by
    funext j; exact div_temp _
  rw [hdiv]
  unfold rowOut
  apply lsmShift_eq_lsm
  apply sup_real
  · -- no entry of the scaled row is +∞
    intro j
    apply mul_invT_ne_top
    unfold cat3
    split_ifs
    · exact EReal.coe_ne_top ta
    · exact hb _
    · unfold dropBlock
      split_ifs
      · obtain ⟨t, ht⟩ := hd ⟨(⟨j.val - 65, by have := j.isLt; omega⟩ : Fin 63936).val, by have := j.isLt; omega⟩
        rw [ht]; exact EReal.coe_ne_top t
      · obtain ⟨t, ht⟩ := hd ⟨(⟨j.val - 65, by have := j.isLt; omega⟩ : Fin 63936).val + 64, by have := j.isLt; omega⟩
        rw [ht]; exact EReal.coe_ne_top t
  · -- the first entry is real
    refine ⟨(0 : Fin (64000 + 1)), ?_⟩
    rw [cat3_zero, coe_mul_invT]
    exact EReal.coe_ne_bot _

end Cert.Bridge

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.LogitsShared.lean ====
import proofs.«163235_j22531398435254_2_alg».proof.Proof.Chain
import proofs.«163235_j22531398435254_2_alg».proof.Proof.LogitsBlocks
import proofs.«163235_j22531398435254_2_alg».proof.Proof.RowMath
import proofs.«163235_j22531398435254_2_alg».proof.Proof.LibUnitAxis

/-!
# The row-by-row result of the shared values is the specification

Row r of the result computed part by part from row r of the shared positive-pair logits, own-class logits, queue
logits and label column is the log-softmax of the assembled, scaled row: the specified first result.
-/

noncomputable section

namespace Cert.KernelIdeal.ArrayValue

open Cert.KernelIdeal Idealize.ShloMosaic Idealize.ShloMosaic.ValueIdx

/-- The row-by-row result of the shared values, the labels laid out as a column, is the specified result. -/
theorem logitsRows_shared (A : Cert.Bridge.Args) (h : (⟨1, ![256]⟩ : Shape).ShapeCasts ⟨2, ![256, 1]⟩) :
    logitsRows A.lPos A.pos A.dot3 (shapeCast ⟨2, ![256, 1]⟩ A.lab2 h) = A.logits := by
  funext i
  obtain ⟨r, j, rfl⟩ : ∃ (r : Fin 256) (j : Fin 64001), i = ix2 r j := ⟨i 0, i 1, eq_ix2 i⟩
  rw [logitsRows_apply, Cert.Bridge.rowParts_eq_rowOut, Cert.Lib.UnitAxis.shapeCast_a_a1_apply]
  rfl

end Cert.KernelIdeal.ArrayValue

end
-- ==== Proof.ReorderWords.lean ====
import Idealize.ShloMosaic.Lib.WordArith
import Idealize.ShloMosaic.Lib.ValueIdx

/-!
# The class of a column, computed on 32-bit words

A column number `c` below 64000 is carried as a 32-bit word. Its class is the quotient `c / 64`. The
program computes a floor division: the quotient toward zero, lowered by one when the signs of dividend
and divisor differ and the remainder is not zero. For a dividend that is not negative and the divisor 64
the signs never differ with a non-zero remainder, so the correction never applies and the result is the
word of `c / 64`. The signed comparison of that word with a label word is the comparison of the numbers.
-/

namespace Cert.KernelIdeal.BodyValue

open Idealize.ShloMosaic Idealize.ShloMosaic.WordArith

/-- A column's word read back unsigned is the column. -/
theorem toNat_col (c : ℕ) (hc : c < 64000) : (BitVec.ofNat 32 c).toNat = c := by
  rw [BitVec.toNat_ofNat]; exact Nat.mod_eq_of_lt (by omega)

/-- A column's word read back signed is the column. -/
theorem toInt_col (c : ℕ) (hc : c < 64000) : (BitVec.ofNat 32 c).toInt = (c : ℤ) :=
  toInt_ofNat_small c (by omega)

/-- A column's word has its sign bit clear. -/
theorem msb_col (c : ℕ) (hc : c < 64000) : (BitVec.ofNat 32 c).msb = false := by
  rw [BitVec.msb_eq_decide, toNat_col c hc]
  exact decide_eq_false (by norm_num; omega)

/-- The quotient toward zero of a column's word by 64 is the word of the column's class. -/
theorem divsi_col (c : ℕ) (hc : c < 64000) :
    IntOp.divsi .vector (BitVec.ofNat 32 c) 64#32 = BitVec.ofNat 32 (c / 64) := by
  have hn : ¬ IntOp.SDivCorner (BitVec.ofNat 32 c) 64#32 := by
    rintro (h | ⟨_, h⟩) <;> exact absurd h (by decide)
  have hy : (64#32 : BitVec 32).msb = false := by decide
  unfold IntOp.divsi
  rw [if_neg hn, BitVec.sdiv_eq, msb_col c hc, hy]
  show BitVec.udiv (BitVec.ofNat 32 c) 64#32 = _
  rw [BitVec.udiv_eq, BitVec.udiv_def, toNat_col c hc]
  rfl

/-- The sign of a positive column's word, computed as (is it above zero) minus (is it below zero), is one. -/
theorem sign_col_pos (c : ℕ) (hc : c < 64000) (h0 : 0 < c) :
    IntOp.subi ((IntOp.cmpi .sgt (BitVec.ofNat 32 c) 0#32).setWidth 32)
      ((IntOp.cmpi .slt (BitVec.ofNat 32 c) 0#32).setWidth 32) = 1#32 := by
  have hs : (0#32 : BitVec 32).slt (BitVec.ofNat 32 c) = true :=
    BitVec.slt_iff_toInt_lt.mpr (by rw [toInt_col c hc, BitVec.toInt_zero]; exact_mod_cast h0)
  have hl : (BitVec.ofNat 32 c).slt 0#32 = false := by
    rw [BitVec.slt_eq_decide, toInt_col c hc, BitVec.toInt_zero]; exact decide_eq_false (by omega)
  show IntOp.subi ((BitVec.ofBool ((0#32 : BitVec 32).slt (BitVec.ofNat 32 c))).setWidth 32)
    ((BitVec.ofBool ((BitVec.ofNat 32 c).slt 0#32)).setWidth 32) = 1#32
  rw [hs, hl]; decide

/-- The floor division's correction never applies to a column: at column zero the remainder is zero, and at a
    positive column the signs of dividend and divisor agree. -/
theorem notCorrected (c : ℕ) (hc : c < 64000) :
    IntOp.andi
      (IntOp.cmpi .ne
        (IntOp.subi ((IntOp.cmpi .sgt (BitVec.ofNat 32 c) 0#32).setWidth 32)
          ((IntOp.cmpi .slt (BitVec.ofNat 32 c) 0#32).setWidth 32))
        (Scalar.subi (Scalar.extui (Scalar.cmpi .sgt 64#32 0#32)) (Scalar.extui (Scalar.cmpi .slt 64#32 0#32))))
      (IntOp.cmpi .ne (IntOp.remsi .vector (BitVec.ofNat 32 c) 64#32) 0#32) = 0#1 := by
  rcases Nat.eq_zero_or_pos c with rfl | h0
  · decide
  · rw [sign_col_pos c hc h0]
    have h1 : IntOp.cmpi .ne 1#32
        (Scalar.subi (Scalar.extui (Scalar.cmpi .sgt 64#32 0#32)) (Scalar.extui (Scalar.cmpi .slt 64#32 0#32))) = 0#1 := by
      decide
    rw [h1]
    show 0#1 &&& _ = 0#1
    exact BitVec.zero_and

/-- So the floor division of a column's word by 64, compared signed with a label word, says whether the column's
    class is below the label. -/
theorem keep_col (c : ℕ) (hc : c < 64000) (lab : BitVec 32) :
    IntOp.cmpi .slt
      (Scalar.select
        (IntOp.andi
          (IntOp.cmpi .ne
            (IntOp.subi ((IntOp.cmpi .sgt (BitVec.ofNat 32 c) 0#32).setWidth 32)
              ((IntOp.cmpi .slt (BitVec.ofNat 32 c) 0#32).setWidth 32))
            (Scalar.subi (Scalar.extui (Scalar.cmpi .sgt 64#32 0#32)) (Scalar.extui (Scalar.cmpi .slt 64#32 0#32))))
          (IntOp.cmpi .ne (IntOp.remsi .vector (BitVec.ofNat 32 c) 64#32) 0#32))
        (IntOp.subi (IntOp.divsi .vector (BitVec.ofNat 32 c) 64#32) 1#32)
        (IntOp.divsi .vector (BitVec.ofNat 32 c) 64#32))
      lab
      = BitVec.ofBool (decide (((c / 64 : ℕ) : ℤ) < lab.toInt)) := by
  rw [notCorrected c hc, ValueIdx.select_zero, divsi_col c hc]
  show BitVec.ofBool ((BitVec.ofNat 32 (c / 64)).slt lab) = _
  rw [BitVec.slt_eq_decide, toInt_ofNat_small (c / 64) (by omega)]

/-- The word chain on one column's word `w` and one label word `lab`: the bit saying whether the floor quotient
    of `w` by 64 is below `lab`, both read signed. -/
def keepBit (w lab : BitVec 32) : BitVec 1 :=
  IntOp.cmpi .slt
    (Scalar.select
      (IntOp.andi
        (IntOp.cmpi .ne
          (IntOp.subi ((IntOp.cmpi .sgt w 0#32).setWidth 32) ((IntOp.cmpi .slt w 0#32).setWidth 32))
          (Scalar.subi (Scalar.extui (Scalar.cmpi .sgt 64#32 0#32)) (Scalar.extui (Scalar.cmpi .slt 64#32 0#32))))
        (IntOp.cmpi .ne (IntOp.remsi .vector w 64#32) 0#32))
      (IntOp.subi (IntOp.divsi .vector w 64#32) 1#32)
      (IntOp.divsi .vector w 64#32))
    lab

/-- On a column's word the bit says whether the column's class is below the label. -/
theorem keepBit_col (c : ℕ) (hc : c < 64000) (lab : BitVec 32) :
    keepBit (BitVec.ofNat 32 c) lab = BitVec.ofBool (decide (((c / 64 : ℕ) : ℤ) < lab.toInt)) :=
  keep_col c hc lab

/-- A choice on the bit of a decided proposition is the choice on the proposition. -/
theorem select_decide {α : Type} (P : Prop) [Decidable P] (A B : α) :
    Scalar.select (BitVec.ofBool (decide P)) A B = if P then A else B := by
  by_cases h : P
  · rw [if_pos h, decide_eq_true h]; exact ValueIdx.select_one A B
  · rw [if_neg h, decide_eq_false h]; exact ValueIdx.select_zero A B

end Cert.KernelIdeal.BodyValue
-- ==== Proof.ReorderRows.lean ====
import Idealize.ShloMosaic.PureOps.Ideal.Laws
import Idealize.ShloMosaic.Lib.Pipeline.Value
import Idealize.ShloMosaic.Lib.KernelVsHost
import Idealize.ShloMosaic.Lib.ValueIdx

/-!
# Rows of a 32-row block read at an index

A reduction along the columns of a block with 32 rows, read at row `p`, is the sum (or the maximum) over
the columns of row `p`; a column of 32 values broadcast along the columns reads its row; a vector of 32
values viewed as one column reads its entry.
-/

noncomputable section

namespace Cert.KernelIdeal.BodyValue

open Idealize.ShloMosaic Idealize.ShloMosaic.ValueIdx

variable {n : ℕ}

/-- The index of the block over row `p` of the reduced vector with column `k` put back is `(p, k)`. -/
theorem lift_row (h : (⟨2, ![32, n]⟩ : Shape).Reduces [1] ⟨1, ![32]⟩) (p : Fin 32) (k : Fin n) :
    h.lift (ix1 p) k = ix2 p k := by
  funext c
  match c with
  | ⟨0, _⟩ => rfl
  | ⟨1, _⟩ => rfl

/-- A sum along the columns, read at row `p`, is the sum over the columns of row `p`. -/
theorem rowSum (src : FVec Ideal ⟨2, ![32, n]⟩ .f32) (h : (⟨2, ![32, n]⟩ : Shape).Reduces [1] ⟨1, ![32]⟩)
    (p : Fin 32) :
    multiReduction .add [1] ⟨1, ![32]⟩ src 0x00000000#32 h (.inl rfl) rfl (ix1 p) = ∑ k : Fin n, src (ix2 p k) := by
  refine (Ideal.multiReduction_add_single src 0x00000000#32 h (.inl rfl) rfl (ix1 p)).trans ?_
  exact Finset.sum_congr rfl fun k _ => congrArg src (lift_row h p k)

/-- The bit pattern of minus infinity denotes the least extended real. -/
theorem negInf_eq_bot : FloatOps.ofBits (F := Ideal) .f32 0xFF800000#32 = (⊥ : EReal) := by
  show Ideal.ofBits .f32 0xFF800000#32 = ⊥
  simp [Ideal.ofBits, Ideal.ieee]

/-- A maximum along the columns from minus infinity, read at row `p`, is the supremum over the columns of row `p`. -/
theorem rowMax (src : FVec Ideal ⟨2, ![32, n]⟩ .f32) (h : (⟨2, ![32, n]⟩ : Shape).Reduces [1] ⟨1, ![32]⟩)
    (p : Fin 32) :
    multiReduction .maximumf [1] ⟨1, ![32]⟩ src 0xFF800000#32 h (.inl rfl) rfl (ix1 p)
      = Finset.univ.sup fun k : Fin n => (src (ix2 p k) : EReal) := by
  refine (Ideal.multiReduction_maximumf_single src 0xFF800000#32 h (.inl rfl) rfl (ix1 p)).trans ?_
  rw [negInf_eq_bot]
  have hf : (src ∘ h.lift (ix1 p)) = fun k : Fin n => src (ix2 p k) := funext fun k => congrArg src (lift_row h p k)
  rw [hf]
  rfl

/-- A vector of 32 values viewed as one column reads its entry. -/
theorem castCol {α : Type} (v : (⟨1, ![32]⟩ : Shape).Idx → α) (h : (⟨1, ![32]⟩ : Shape).ShapeCasts ⟨2, ![32, 1]⟩)
    (p : Fin 32) : shapeCast ⟨2, ![32, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column of 32 values broadcast along `n` columns reads its row. -/
theorem bcastRow {α : Type} (v : (⟨2, ![32, 1]⟩ : Shape).Idx → α)
    (h : (⟨2, ![32, 1]⟩ : Shape).Broadcasts ⟨2, ![32, n]⟩) (p : Fin 32) (k : Fin n) :
    broadcastTo ⟨2, ![32, n]⟩ v h (ix2 p k) = v (ix2 p (0 : Fin 1)) :=
  broadcastTo_apply v h (ix2 p k) (ix2 p (0 : Fin 1)) fun a =>
    match a with
    | ⟨0, _⟩ => rfl
    | ⟨1, _⟩ => rfl

/-- The sum along the columns of the exponentials of a block shifted by a column of 32 values, read at row `p`. -/
theorem rowExpSum (w : FVec Ideal ⟨2, ![32, n]⟩ .f32) (m : FVec Ideal ⟨2, ![32, 1]⟩ .f32)
    (hb : (⟨2, ![32, 1]⟩ : Shape).Broadcasts ⟨2, ![32, n]⟩) (hr : (⟨2, ![32, n]⟩ : Shape).Reduces [1] ⟨1, ![32]⟩)
    (p : Fin 32) :
    multiReduction .add [1] ⟨1, ![32]⟩ (exp (subf w (broadcastTo ⟨2, ![32, n]⟩ m hb))) 0x00000000#32 hr (.inl rfl) rfl (ix1 p)
      = ∑ k : Fin n, Ideal.exp ((w (ix2 p k) : EReal) - m (ix2 p (0 : Fin 1))) :=
  (rowSum _ hr p).trans (Finset.sum_congr rfl fun k _ => by
    show Ideal.exp (w (ix2 p k) - broadcastTo ⟨2, ![32, n]⟩ m hb (ix2 p k)) = _
    rw [bcastRow])

end Cert.KernelIdeal.BodyValue

end
-- ==== Proof.ReorderPay.lean ====
import proofs.«163235_j22531398435254_2_alg».proof.Proof.Gen.KernelIdeal.Skeleton
import proofs.«163235_j22531398435254_2_alg».proof.Proof.Spec
import proofs.«163235_j22531398435254_2_alg».proof.Proof.ReorderWords
import proofs.«163235_j22531398435254_2_alg».proof.Proof.ReorderRows
import Idealize.ShloMosaic.PureOps.IdealRules

/-!
# The body's arithmetic on the extended reals, read at an index

The body scales the three parts of each row by the reciprocal temperature, takes the maximum `M` and the sum
`S` of the exponentials of the parts shifted by `M`, and subtracts `log S + M` from each part. Here each
of its values is read at a row `p` and a column, over the extended reals. The wide part is the queue block
with one class of 64 columns left out: column `q` of it is column `q` of the block while the class of `q`
is below the row's label, and column `q + 64` otherwise.
-/

noncomputable section

namespace Cert.KernelIdeal.BodyValue

open Cert.KernelIdeal Cert.KernelIdeal.Gen Idealize.ShloMosaic Idealize.ShloMosaic.ValueIdx

/-- The named scale denotes the reciprocal of the temperature. -/
theorem inv_temp : Named.named (F := Ideal) κ "inv_temp" (φ := .f32) 0x41649249#32 = Cert.Bridge.invT :=
  IdealRules.named_const.ideal_named_scalar _ _ _ _ rfl

/-- The positive-pair logit, scaled. -/
theorem pay8_apply (x1 : Vec Ideal S32x1 .f32) (i : S32x1.Idx) :
    k1_pay8 (F := Ideal) x1 i = (x1 i : EReal) * Cert.Bridge.invT := by
  have h : k1_pay8 (F := Ideal) x1 i
      = shapeCast S32x1 x1 shapeCasts_S32x1_S32x1 i * Named.named (F := Ideal) κ "inv_temp" (φ := .f32) 0x41649249#32 := rfl
  rw [h, shapeCast_self, inv_temp]

/-- The own-class logits as loaded. -/
theorem pay9_eq (x2 : Vec Ideal S32x64 .f32) : k1_pay9 (F := Ideal) x2 = x2 := shapeCast_self x2 _

/-- The own-class logits, scaled. -/
theorem pay1_apply (x2 : Vec Ideal S32x64 .f32) (i : S32x64.Idx) :
    k1_pay1 (F := Ideal) (k1_pay9 x2) k1_pay10 i = (x2 i : EReal) * Cert.Bridge.invT := by
  have h : k1_pay1 (F := Ideal) (k1_pay9 x2) k1_pay10 i
      = k1_pay9 (F := Ideal) x2 i * Named.named (F := Ideal) κ "inv_temp" (φ := .f32) 0x41649249#32 := rfl
  rw [h, pay9_eq, inv_temp]

/-- A wide part, scaled. -/
theorem pay2_apply (v : FVec Ideal S32x63936 .f32) (i : S32x63936.Idx) :
    k1_pay2 (F := Ideal) v i = (v i : EReal) * Cert.Bridge.invT := by
  have h : k1_pay2 (F := Ideal) v i = v i * Named.named (F := Ideal) κ "inv_temp" (φ := .f32) 0x41649249#32 := rfl
  rw [h, inv_temp]

/-- The wide part: the queue block with the label's class left out. Column `q` reads column `q` of the block
    while the class of `q` is below the label, and column `q + 64` otherwise: the rotation by 63936 of a row of
    64000 brings column `q + 64` to column `q`, and only the columns below 63936 are kept, so nothing wraps. -/
theorem pay7_apply (x0 : Vec Ideal S32x64000 .f32) (x3 : Vec Ideal S32x1 .i32) (p : Fin 32) (q : Fin 63936) :
    k1_pay7 (F := Ideal) x0 x3 (ix2 p q)
      = Cert.Bridge.dropBlock (fun c => x0 (ix2 p c)) ((x3 (ix2 p (0 : Fin 1))).toInt) q := by
  have hq := q.isLt
  have hx : (shapeCast S32x64000 x0 shapeCasts_S32x64000_S32x64000 : Vec Ideal S32x64000 .f32) = x0 := shapeCast_self x0 _
  have hl : (shapeCast S32x1 x3 shapeCasts_S32x1_S32x1 : Vec Ideal S32x1 .i32) = x3 := shapeCast_self x3 _
  have hlab : broadcastTo S32x64000 x3 broadcasts_S32x1_S32x64000 (ix2 p (⟨q.val, by omega⟩ : Fin 64000))
      = x3 (ix2 p (0 : Fin 1)) := bcastRow x3 _ p _
  have hrot : dynamicRotate 1 63936#32 none x0 rotates_S32x64000_d1 (ix2 p (⟨q.val, by omega⟩ : Fin 64000))
      = x0 (ix2 p (⟨q.val + 64, by omega⟩ : Fin 64000)) :=
    dynamicRotate_apply 1 63936#32 x0 _ (ix2 p (⟨q.val, by omega⟩ : Fin 64000)) (ix2 p (⟨q.val + 64, by omega⟩ : Fin 64000))
      fun b => match b with
        | ⟨0, _⟩ => rfl
        | ⟨1, _⟩ => by show q.val + 64 = (q.val + 64000 - 63936 % 64000) % 64000; omega
  have hio : iota .tc S32x64000 32 [1] iota_S32x64000_d1_w32 (ix2 p (⟨q.val, by omega⟩ : Fin 64000)) = BitVec.ofNat 32 q.val :=
    iota_single_apply .tc S32x64000 32 1 _ _
  unfold k1_pay7
  dsimp only
  refine (extractStridedSlice_apply ![0, 0] _ slices_S32x64000_o0_0_S32x63936 (ix2 p q) (ix2 p (⟨q.val, by omega⟩ : Fin 64000))
    (fun a => match a with
      | ⟨0, _⟩ => by show p.val = 0 + p.val; omega
      | ⟨1, _⟩ => by show q.val = 0 + q.val; omega)).trans ?_
  show Scalar.select
      (keepBit (iota .tc S32x64000 32 [1] iota_S32x64000_d1_w32 (ix2 p (⟨q.val, by omega⟩ : Fin 64000)))
        (broadcastTo S32x64000 (shapeCast S32x1 x3 shapeCasts_S32x1_S32x1) broadcasts_S32x1_S32x64000 (ix2 p (⟨q.val, by omega⟩ : Fin 64000))))
      (shapeCast S32x64000 x0 shapeCasts_S32x64000_S32x64000 (ix2 p (⟨q.val, by omega⟩ : Fin 64000)))
      (dynamicRotate 1 63936#32 none (shapeCast S32x64000 x0 shapeCasts_S32x64000_S32x64000) rotates_S32x64000_d1 (ix2 p (⟨q.val, by omega⟩ : Fin 64000)))
    = _
  rw [hx, hl, hlab, hrot, hio, keepBit_col q.val (by omega), select_decide]
  rfl

/-- An exponential of a vector reads the exponential of its entry. -/
theorem exp_apply {s : Shape} (a : FVec Ideal s .f32) (i : s.Idx) : exp a i = Ideal.exp (a i) := rfl

/-- A logarithm of a vector reads the logarithm of its entry. -/
theorem log_apply {s : Shape} (a : FVec Ideal s .f32) (i : s.Idx) : log a i = Ideal.log (a i) := rfl

/-- The maximum of each row's three scaled parts, as the body computes it. -/
def bodyMax (v33 : FVec Ideal S32x63936 .f32) (v37 : FVec Ideal S32x1 .f32) (v39 v40 : FVec Ideal S32x64 .f32) :
    FVec Ideal S32x1 .f32 :=
  maximumf
    (maximumf v37 (shapeCast S32x1 (multiReduction .maximumf [1] S32 (k1_pay1 v39 v40) 0xFF800000#32 reduces_S32x64_S32 (.inl rfl) rfl) shapeCasts_S32_S32x1))
    (shapeCast S32x1 (multiReduction .maximumf [1] S32 (k1_pay2 v33) 0xFF800000#32 reduces_S32x63936_S32 (.inl rfl) rfl) shapeCasts_S32_S32x1)

/-- At row `p` it is the larger of the single value and the suprema of the two wider parts. -/
theorem bodyMax_apply (v33 : FVec Ideal S32x63936 .f32) (v37 : FVec Ideal S32x1 .f32) (v39 v40 : FVec Ideal S32x64 .f32)
    (p : Fin 32) :
    bodyMax v33 v37 v39 v40 (ix2 p (0 : Fin 1))
      = max (max (v37 (ix2 p (0 : Fin 1)) : EReal) (Finset.univ.sup fun q : Fin 64 => (k1_pay1 v39 v40 (ix2 p q) : EReal)))
          (Finset.univ.sup fun q : Fin 63936 => (k1_pay2 v33 (ix2 p q) : EReal)) := by
  unfold bodyMax
  rw [maximumf_apply, maximumf_apply, castCol, castCol, rowMax, rowMax]

/-- The logarithm of the sum of the exponentials of the three parts shifted by a column `m`, plus `m`, as the body
    computes it. -/
def bodyLse (v33 : FVec Ideal S32x63936 .f32) (v37 : FVec Ideal S32x1 .f32) (v39 v40 : FVec Ideal S32x64 .f32)
    (m : FVec Ideal S32x1 .f32) : FVec Ideal S32x1 .f32 :=
  addf (log (addf
      (addf (exp (subf v37 m))
        (shapeCast S32x1 (multiReduction .add [1] S32
          (exp (subf (k1_pay1 v39 v40) (broadcastTo S32x64 m broadcasts_S32x1_S32x64)))
          0x00000000#32 reduces_S32x64_S32 (.inl rfl) rfl) shapeCasts_S32_S32x1))
      (shapeCast S32x1 (multiReduction .add [1] S32
        (exp (subf (k1_pay2 v33) (broadcastTo S32x63936 m broadcasts_S32x1_S32x63936)))
        0x00000000#32 reduces_S32x63936_S32 (.inl rfl) rfl) shapeCasts_S32_S32x1))) m

/-- The body's shift is that term at the body's maximum. -/
theorem pay3_eq (v33 : FVec Ideal S32x63936 .f32) (v37 : FVec Ideal S32x1 .f32) (v39 v40 : FVec Ideal S32x64 .f32) :
    k1_pay3 v33 v37 v39 v40 = bodyLse v33 v37 v39 v40 (bodyMax v33 v37 v39 v40) := rfl

/-- At row `p`: the logarithm of the sum of the shifted exponentials over the row, plus the shift. -/
theorem bodyLse_apply (v33 : FVec Ideal S32x63936 .f32) (v37 : FVec Ideal S32x1 .f32) (v39 v40 : FVec Ideal S32x64 .f32)
    (m : FVec Ideal S32x1 .f32) (p : Fin 32) :
    bodyLse v33 v37 v39 v40 m (ix2 p (0 : Fin 1))
      = Ideal.log (Ideal.exp ((v37 (ix2 p (0 : Fin 1)) : EReal) - m (ix2 p (0 : Fin 1)))
            + ∑ q : Fin 64, Ideal.exp ((k1_pay1 v39 v40 (ix2 p q) : EReal) - m (ix2 p (0 : Fin 1)))
            + ∑ q : Fin 63936, Ideal.exp ((k1_pay2 v33 (ix2 p q) : EReal) - m (ix2 p (0 : Fin 1))))
          + m (ix2 p (0 : Fin 1)) := by
  unfold bodyLse
  rw [addf_apply, log_apply, addf_apply, addf_apply, exp_apply, subf_apply, castCol, castCol, rowExpSum, rowExpSum]

end Cert.KernelIdeal.BodyValue

end
-- ==== Proof.ReorderCanon.lean ====
import Idealize.ShloMosaic.Lib.Pipeline.Value
import Idealize.ShloMosaic.Lib.ValueIdx

/-!
# A block of 64001 columns filled by three stores, read at a column

The block has 32 rows and 64001 columns. It is filled by three stores: one column at column 0, 64 columns
from column 1, and 63936 columns from column 65. Whatever the order of the stores, column 0 holds the first
payload, column `1 + q` the second payload at `q`, and column `65 + q` the third payload at `q`:
the three rectangles do not meet.
-/

noncomputable section

namespace Cert.KernelIdeal.BodyValue

open Idealize.ShloMosaic Idealize.ShloMosaic.ValueIdx

variable {Val : EltTy → Type} [∀ e, Nonempty (Val e)] {e : EltTy}
variable (inb1 : ∀ a, (![0, 0] : Fin 2 → Nat) a + (⟨2, ![32, 1]⟩ : Shape).size a ≤ (⟨2, ![32, 64001]⟩ : Shape).size a)
  (inb2 : ∀ a, (![0, 1] : Fin 2 → Nat) a + (⟨2, ![32, 64]⟩ : Shape).size a ≤ (⟨2, ![32, 64001]⟩ : Shape).size a)
  (inb3 : ∀ a, (![0, 65] : Fin 2 → Nat) a + (⟨2, ![32, 63936]⟩ : Shape).size a ≤ (⟨2, ![32, 64001]⟩ : Shape).size a)
  (w1 : (⟨2, ![32, 1]⟩ : Shape).Idx → Val e) (w2 : (⟨2, ![32, 64]⟩ : Shape).Idx → Val e)
  (w3 : (⟨2, ![32, 63936]⟩ : Shape).Idx → Val e)

/-- The store of the single column at column 0. -/
abbrev piece1 : View.Piece Val ⟨2, ![32, 64001]⟩ e :=
  ⟨Rect.unit (s := ⟨2, ![32, 64001]⟩) ![0, 0] (⟨2, ![32, 1]⟩ : Shape).size inb1, w1⟩
/-- The store of the 64 columns from column 1. -/
abbrev piece2 : View.Piece Val ⟨2, ![32, 64001]⟩ e :=
  ⟨Rect.unit (s := ⟨2, ![32, 64001]⟩) ![0, 1] (⟨2, ![32, 64]⟩ : Shape).size inb2, w2⟩
/-- The store of the 63936 columns from column 65. -/
abbrev piece3 : View.Piece Val ⟨2, ![32, 64001]⟩ e :=
  ⟨Rect.unit (s := ⟨2, ![32, 64001]⟩) ![0, 65] (⟨2, ![32, 63936]⟩ : Shape).size inb3, w3⟩

/-- The three stores, the last first. -/
abbrev stores : List (View.Piece Val ⟨2, ![32, 64001]⟩ e) :=
  [piece3 inb3 w3, piece2 inb2 w2, piece1 inb1 w1]

/-- Column 0 holds the one-column payload. -/
theorem canon_col0 (p : Fin 32) :
    View.canon (stores inb1 inb2 inb3 w1 w2 w3) (ix2 p (0 : Fin 64001)) = w1 (ix2 p (0 : Fin 1)) := by
  have h3 : ix2 p (0 : Fin 64001) ∉ (Rect.unit (s := ⟨2, ![32, 64001]⟩) ![0, 65] (⟨2, ![32, 63936]⟩ : Shape).size inb3).set :=
    fun hm => absurd ((Rect.mem_set_unit.mp hm) (1 : Fin 2)).1 (by show ¬ (65 ≤ 0); omega)
  have h2 : ix2 p (0 : Fin 64001) ∉ (Rect.unit (s := ⟨2, ![32, 64001]⟩) ![0, 1] (⟨2, ![32, 64]⟩ : Shape).size inb2).set :=
    fun hm => absurd ((Rect.mem_set_unit.mp hm) (1 : Fin 2)).1 (by show ¬ (1 ≤ 0); omega)
  have he : ix2 p (0 : Fin 64001)
      = (Rect.unit (s := ⟨2, ![32, 64001]⟩) ![0, 0] (⟨2, ![32, 1]⟩ : Shape).size inb1).emb (ix2 p (0 : Fin 1)) :=
    funext fun a => match a with
      | ⟨0, _⟩ => Fin.ext (by show p.val = 0 + 1 * p.val; omega)
      | ⟨1, _⟩ => Fin.ext (by show 0 = 0 + 1 * 0; omega)
  refine (View.canon_cons_of_not_mem (piece3 inb3 w3) [piece2 inb2 w2, piece1 inb1 w1] h3).trans
    ((View.canon_cons_of_not_mem (piece2 inb2 w2) [piece1 inb1 w1] h2).trans ?_)
  rw [he]
  exact View.canon_cons_emb (Rect.unit (s := ⟨2, ![32, 64001]⟩) ![0, 0] (⟨2, ![32, 1]⟩ : Shape).size inb1) w1 [] (ix2 p (0 : Fin 1))

/-- Column `1 + q` holds the 64-column payload at `q`. -/
theorem canon_colB (p : Fin 32) (q : Fin 64) (j : Fin 64001) (hj : j.val = q.val + 1) :
    View.canon (stores inb1 inb2 inb3 w1 w2 w3) (ix2 p j) = w2 (ix2 p q) := by
  have hq := q.isLt
  have h3 : ix2 p j ∉ (Rect.unit (s := ⟨2, ![32, 64001]⟩) ![0, 65] (⟨2, ![32, 63936]⟩ : Shape).size inb3).set :=
    fun hm => absurd ((Rect.mem_set_unit.mp hm) (1 : Fin 2)).1 (by show ¬ (65 ≤ j.val); omega)
  have he : ix2 p j
      = (Rect.unit (s := ⟨2, ![32, 64001]⟩) ![0, 1] (⟨2, ![32, 64]⟩ : Shape).size inb2).emb (ix2 p q) :=
    funext fun a => match a with
      | ⟨0, _⟩ => Fin.ext (by show p.val = 0 + 1 * p.val; omega)
      | ⟨1, _⟩ => Fin.ext (by show j.val = 1 + 1 * q.val; omega)
  refine (View.canon_cons_of_not_mem (piece3 inb3 w3) [piece2 inb2 w2, piece1 inb1 w1] h3).trans ?_
  rw [he]
  exact View.canon_cons_emb (Rect.unit (s := ⟨2, ![32, 64001]⟩) ![0, 1] (⟨2, ![32, 64]⟩ : Shape).size inb2) w2 [piece1 inb1 w1] (ix2 p q)

/-- Column `65 + q` holds the wide payload at `q`. -/
theorem canon_colN (p : Fin 32) (q : Fin 63936) (j : Fin 64001) (hj : j.val = q.val + 65) :
    View.canon (stores inb1 inb2 inb3 w1 w2 w3) (ix2 p j) = w3 (ix2 p q) := by
  have he : ix2 p j
      = (Rect.unit (s := ⟨2, ![32, 64001]⟩) ![0, 65] (⟨2, ![32, 63936]⟩ : Shape).size inb3).emb (ix2 p q) :=
    funext fun a => match a with
      | ⟨0, _⟩ => Fin.ext (by show p.val = 0 + 1 * p.val; omega)
      | ⟨1, _⟩ => Fin.ext (by show j.val = 65 + 1 * q.val; omega)
  rw [he]
  exact View.canon_cons_emb (Rect.unit (s := ⟨2, ![32, 64001]⟩) ![0, 65] (⟨2, ![32, 63936]⟩ : Shape).size inb3) w3 [piece2 inb2 w2, piece1 inb1 w1] (ix2 p q)

end Cert.KernelIdeal.BodyValue

end
-- ==== Proof.ReorderBody.lean ====
import proofs.«163235_j22531398435254_2_alg».proof.Proof.FrameP
import proofs.«163235_j22531398435254_2_alg».proof.Proof.Spec
import proofs.«163235_j22531398435254_2_alg».proof.Proof.ReorderPay
import proofs.«163235_j22531398435254_2_alg».proof.Proof.ReorderCanon

/-!
# Each row of the block the body leaves is the row computed part by part

With the three stores read back as one function of the column, and the body's arithmetic read at an index, the
block's row `p` is: the scaled positive-pair logit, the 64 scaled own-class logits and the 63936 scaled logits of
the other classes, each less `log S + M` of the whole row.
-/

noncomputable section

namespace Cert.KernelIdeal.BodyValue

open Cert.KernelIdeal Cert.KernelIdeal.Gen Idealize.ShloMosaic Idealize.ShloMosaic.ValueIdx

/-- What a row subtracts from each of its entries: `log S + M`, from the row's three scaled parts. -/
def rowShift (a : EReal) (b : Fin 64 → EReal) (n : Fin 63936 → EReal) : EReal :=
  let M := max (max a (Finset.univ.sup b)) (Finset.univ.sup n)
  Ideal.log (Ideal.exp (a - M) + ∑ q, Ideal.exp (b q - M) + ∑ q, Ideal.exp (n q - M)) + M

/-- The row computed part by part is its assembled scaled parts less the row's shift. -/
theorem rowParts_eq (a : EReal) (b : Fin 64 → EReal) (d : Fin 64000 → EReal) (lab : ℤ) (j : Fin 64001) :
    Cert.Bridge.rowParts a b d lab j
      = Cert.Bridge.cat3 (a * Cert.Bridge.invT) (fun q => b q * Cert.Bridge.invT)
          (fun q => Cert.Bridge.dropBlock d lab q * Cert.Bridge.invT) j
        - rowShift (a * Cert.Bridge.invT) (fun q => b q * Cert.Bridge.invT)
            (fun q => Cert.Bridge.dropBlock d lab q * Cert.Bridge.invT) := rfl

section Row

variable (x0 : Vec Ideal S32x64000 .f32) (x1 : Vec Ideal S32x1 .f32) (x2 : Vec Ideal S32x64 .f32) (x3 : Vec Ideal S32x1 .i32)
  (p : Fin 32)

/-- The body's shift at row `p` is the row's shift of the row's scaled parts. -/
theorem lse_row :
    k1_pay3 (F := Ideal) (k1_pay7 x0 x3) (k1_pay8 x1) (k1_pay9 x2) k1_pay10 (ix2 p (0 : Fin 1))
      = rowShift ((x1 (ix2 p (0 : Fin 1)) : EReal) * Cert.Bridge.invT) (fun q => (x2 (ix2 p q) : EReal) * Cert.Bridge.invT)
          (fun q => Cert.Bridge.dropBlock (fun c => x0 (ix2 p c)) ((x3 (ix2 p (0 : Fin 1))).toInt) q * Cert.Bridge.invT) := by
  rw [pay3_eq, bodyLse_apply, bodyMax_apply]
  simp only [pay8_apply, pay1_apply, pay2_apply, pay7_apply]
  rfl

/-- Column 0 of row `p`. -/
theorem pay4_row :
    k1_pay4 (F := Ideal) (k1_pay7 x0 x3) (k1_pay8 x1) (k1_pay9 x2) k1_pay10 (ix2 p (0 : Fin 1))
      = (x1 (ix2 p (0 : Fin 1)) : EReal) * Cert.Bridge.invT
        - rowShift ((x1 (ix2 p (0 : Fin 1)) : EReal) * Cert.Bridge.invT) (fun q => (x2 (ix2 p q) : EReal) * Cert.Bridge.invT)
          (fun q => Cert.Bridge.dropBlock (fun c => x0 (ix2 p c)) ((x3 (ix2 p (0 : Fin 1))).toInt) q * Cert.Bridge.invT) := by
  unfold k1_pay4
  rw [subf_apply, lse_row, pay8_apply]

/-- Column `1 + q` of row `p`. -/
theorem pay5_row (q : Fin 64) :
    k1_pay5 (F := Ideal) (k1_pay7 x0 x3) (k1_pay8 x1) (k1_pay9 x2) k1_pay10 (ix2 p q)
      = (x2 (ix2 p q) : EReal) * Cert.Bridge.invT
        - rowShift ((x1 (ix2 p (0 : Fin 1)) : EReal) * Cert.Bridge.invT) (fun q => (x2 (ix2 p q) : EReal) * Cert.Bridge.invT)
          (fun q => Cert.Bridge.dropBlock (fun c => x0 (ix2 p c)) ((x3 (ix2 p (0 : Fin 1))).toInt) q * Cert.Bridge.invT) := by
  unfold k1_pay5
  rw [subf_apply, bcastRow, lse_row, pay1_apply]

/-- Column `65 + q` of row `p`. -/
theorem pay6_row (q : Fin 63936) :
    k1_pay6 (F := Ideal) (k1_pay7 x0 x3) (k1_pay8 x1) (k1_pay9 x2) k1_pay10 (ix2 p q)
      = Cert.Bridge.dropBlock (fun c => x0 (ix2 p c)) ((x3 (ix2 p (0 : Fin 1))).toInt) q * Cert.Bridge.invT
        - rowShift ((x1 (ix2 p (0 : Fin 1)) : EReal) * Cert.Bridge.invT) (fun q => (x2 (ix2 p q) : EReal) * Cert.Bridge.invT)
          (fun q => Cert.Bridge.dropBlock (fun c => x0 (ix2 p c)) ((x3 (ix2 p (0 : Fin 1))).toInt) q * Cert.Bridge.invT) := by
  unfold k1_pay6
  rw [subf_apply, bcastRow, lse_row, pay2_apply, pay7_apply]

variable {Val : EltTy → Type}
variable (inb1 : ∀ a, (![0, 0] : Fin 2 → Nat) a + (⟨2, ![32, 1]⟩ : Shape).size a ≤ (⟨2, ![32, 64001]⟩ : Shape).size a)
  (inb2 : ∀ a, (![0, 1] : Fin 2 → Nat) a + (⟨2, ![32, 64]⟩ : Shape).size a ≤ (⟨2, ![32, 64001]⟩ : Shape).size a)
  (inb3 : ∀ a, (![0, 65] : Fin 2 → Nat) a + (⟨2, ![32, 63936]⟩ : Shape).size a ≤ (⟨2, ![32, 64001]⟩ : Shape).size a)

/-- The three stores of the body's three results, read back at row `p` and any column, are the row computed part by
    part. -/
theorem canon_row (j : Fin 64001) :
    View.canon (Val := Elt Ideal) (e := .f32) (stores inb1 inb2 inb3
        (k1_pay4 (F := Ideal) (k1_pay7 x0 x3) (k1_pay8 x1) (k1_pay9 x2) k1_pay10)
        (k1_pay5 (F := Ideal) (k1_pay7 x0 x3) (k1_pay8 x1) (k1_pay9 x2) k1_pay10)
        (k1_pay6 (F := Ideal) (k1_pay7 x0 x3) (k1_pay8 x1) (k1_pay9 x2) k1_pay10)) (ix2 p j)
      = Cert.Bridge.rowParts (x1 (ix2 p (0 : Fin 1))) (fun q => x2 (ix2 p q)) (fun q => x0 (ix2 p q))
          ((x3 (ix2 p (0 : Fin 1))).toInt) j := by
  have hj := j.isLt
  rw [rowParts_eq]
  unfold Cert.Bridge.cat3
  by_cases h0 : j.val = 0
  · obtain rfl : j = (0 : Fin 64001) := Fin.ext h0
    rw [if_pos h0, canon_col0, pay4_row]
  · rw [if_neg h0]
    by_cases h1 : j.val < 65
    · rw [dif_pos h1, canon_colB inb1 inb2 inb3 _ _ _ p (⟨j.val - 1, by omega⟩ : Fin 64) j (by show j.val = j.val - 1 + 1; omega),
        pay5_row]
    · rw [dif_neg h1, canon_colN inb1 inb2 inb3 _ _ _ p (⟨j.val - 65, by omega⟩ : Fin 63936) j (by show j.val = j.val - 65 + 65; omega),
        pay6_row]

end Row

end Cert.KernelIdeal.BodyValue

end

/-!
# The block the body leaves, as three stores read back

The body's run leaves its output block as three stores over junk. The stores cover the block, so the block reads as
the canonical contents of the three stores, whose payloads are the body's three results computed from the blocks
the loads read: the input blocks themselves, since each load reads a whole buffer.
-/

noncomputable section

namespace Cert.KernelIdeal.BodyValue

open Cert.KernelIdeal Cert.KernelIdeal.Gen Cert.KernelIdeal.GenP Idealize.ShloMosaic Idealize.ShloMosaic.ValueIdx
open Idealize.ShloMosaic.TcCoe Idealize.ShloMosaic.Tactic Idealize.SL.Sem

section Pieces

variable {F : FTy → Type} [FloatOps F] [Named F]

/-- The zero offsets of a rank-two block. -/
theorem hz : (![0, 0] : Fin 2 → Nat) = fun _ => 0 := funext fun a => by fin_cases a <;> rfl

/-- What the run leaves in the output block: the canonical contents of three stores — one column at column 0, 64
    columns from column 1, 63936 columns from column 65 — of the body's three results on the input blocks. -/
theorem out1_eq_canon (c : Dev nD) (i : grid1.Coords)
    (arg1 : Memref sig .tc .vmem S32x64000 .f32) (harg1 : arg1.IsWhole) (arg2 : Memref sig .tc .vmem S32x1 .f32) (harg2 : arg2.IsWhole)
    (arg3 : Memref sig .tc .vmem S32x64 .f32) (harg3 : arg3.IsWhole) (arg4 : Memref sig .tc .vmem S32x1 .i32) (harg4 : arg4.IsWhole)
    (arg5 : Memref sig .tc .vmem S32x64001 .f32) (harg5 : arg5.IsWhole)
    (x0 : Vec F S32x64000 .f32) (x1 : Vec F S32x1 .f32) (x2 : Vec F S32x64 .f32) (x3 : Vec F S32x1 .i32) :
    GenP.out1_A_4 c i arg1 harg1 arg2 harg2 arg3 harg3 arg4 harg4 arg5 harg5 x0 x1 x2 x3
      = View.canon (stores inb_S32x64001_S32x1_0_0 inb_S32x64001_S32x64_0_1 inb_S32x64001_S32x63936_0_65
          (k1_pay4 (k1_pay7 x0 x3) (k1_pay8 x1) (k1_pay9 x2) k1_pay10)
          (k1_pay5 (k1_pay7 x0 x3) (k1_pay8 x1) (k1_pay9 x2) k1_pay10)
          (k1_pay6 (k1_pay7 x0 x3) (k1_pay8 x1) (k1_pay9 x2) k1_pay10)) := by
  unfold out1_A_4
  rw [View.read_writes_eq_canon _ _ _ (cover1_A_4 c i arg1 harg1 arg2 harg2 arg3 harg3 arg4 harg4 arg5 harg5 x0 x1 x2 x3)]
  unfold kernelRun1_A
  dsimp only
  sl_unfold_words
  simp only [View.readAt_eq_ld, harg1.read_unread, harg2.read_unread, harg3.read_unread, harg4.read_unread,
    View.ld_unit_zero (S := S32x64000) hz, View.ld_unit_zero (S := S32x1) hz, View.ld_unit_zero (S := S32x64) hz]

end Pieces

/-- Row p of the block the body leaves is the row computed part by part from row p of the input blocks. -/
theorem out1_apply (c : Dev nD) (i : grid1.Coords)
    (arg1 : Memref sig .tc .vmem S32x64000 .f32) (harg1 : arg1.IsWhole) (arg2 : Memref sig .tc .vmem S32x1 .f32) (harg2 : arg2.IsWhole)
    (arg3 : Memref sig .tc .vmem S32x64 .f32) (harg3 : arg3.IsWhole) (arg4 : Memref sig .tc .vmem S32x1 .i32) (harg4 : arg4.IsWhole)
    (arg5 : Memref sig .tc .vmem S32x64001 .f32) (harg5 : arg5.IsWhole)
    (x0 : Vec Ideal S32x64000 .f32) (x1 : Vec Ideal S32x1 .f32) (x2 : Vec Ideal S32x64 .f32) (x3 : Vec Ideal S32x1 .i32)
    (p : Fin 32) (j : Fin 64001) :
    GenP.out1_A_4 (F := Ideal) c i arg1 harg1 arg2 harg2 arg3 harg3 arg4 harg4 arg5 harg5 x0 x1 x2 x3 (ix2 p j)
      = Cert.Bridge.rowParts (x1 (ix2 p (0 : Fin 1))) (fun q => x2 (ix2 p q)) (fun q => x0 (ix2 p q))
          ((x3 (ix2 p (0 : Fin 1))).toInt) j := by
  rw [out1_eq_canon]
  exact canon_row x0 x1 x2 x3 p inb_S32x64001_S32x1_0_0 inb_S32x64001_S32x64_0_1 inb_S32x64001_S32x63936_0_65 j

end Cert.KernelIdeal.BodyValue

end
-- ==== Proof.KernelLogits.lean ====
import proofs.«163235_j22531398435254_2_alg».proof.Proof.FrameP
import proofs.«163235_j22531398435254_2_alg».proof.Proof.Chain
import proofs.«163235_j22531398435254_2_alg».proof.Proof.KernelMid
import proofs.«163235_j22531398435254_2_alg».proof.Proof.LogitsArray
import proofs.«163235_j22531398435254_2_alg».proof.Proof.LogitsShared
import proofs.«163235_j22531398435254_2_alg».proof.Proof.ReorderBody

/-!
# The idealized kernel program's first result is the specification

After the second kernel, row r of its output array is the row computed part by part from row r of its four input
arrays; those arrays are the shared values; and the row computed part by part is the log-softmax of the assembled,
scaled row. Nothing after the second kernel writes the array.
-/

noncomputable section

namespace Cert.KernelIdeal.HostValue

open Cert.KernelIdeal Cert.KernelIdeal.Gen Cert.KernelIdeal.GenP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxRecDepth 16384 in
set_option maxHeartbeats 1000000 in
/-- The first result at the program's end: the second kernel's output array, which no later host operation writes,
    is the row-by-row result of its four input arrays; those are the shared values. -/
theorem exit_logits (c : Dev nD) :
    (W23 m ρ c (Proc.devRef .tc main_v94) : (⟨S256x64001, .f32⟩ : BufTy).Contents (Elt Ideal)) = (argsOf m c).logits := by
  after_results_simp
  refine (W22_arr m ρ c 4).trans ?_
  refine (Cert.KernelIdeal.ArrayValue.logits_array_eq (V21 m ρ) Cert.KernelIdeal.BodyValue.out1_apply c).trans ?_
  have e1 : V21 m ρ c main_v87 = (argsOf m c).lPos := mid_lPos m ρ c
  have e2 : V21 m ρ c main_v92 = (argsOf m c).pos := mid_pos m ρ c
  have e3 : V21 m ρ c main_v88 = (argsOf m c).dot3 := mid_dot3 m ρ c
  have e4 : V21 m ρ c main_v93 = shapeCast S256x1 (argsOf m c).lab2 shapeCasts_S256_S256x1 := mid_labCol m ρ c
  rw [e1, e2, e3, e4]
  exact Cert.KernelIdeal.ArrayValue.logitsRows_shared (argsOf m c) shapeCasts_S256_S256x1

end Cert.KernelIdeal.HostValue

end
-- ==== Proof.KernelExit.lean ====
import proofs.«163235_j22531398435254_2_alg».proof.Proof.FrameP
import proofs.«163235_j22531398435254_2_alg».proof.Proof.Gen.ReferenceIdeal

/-!
# The kernel program's simple results at its final boundary

Two of the program's results do not pass through either kernel. The first matrix product is written once,
before the first kernel, and nothing after it writes that buffer again; read back through every later
stretch of host operations and across both kernels it is still the product of the two argument arrays. The
label-weight array is a scatter of constants computed after the second kernel.
-/

noncomputable section

namespace Cert.KernelIdeal.HostValue

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg)

set_option maxRecDepth 16384 in
set_option maxHeartbeats 8000000 in
/-- q_f: the first matrix product, untouched by everything after it. -/
theorem exit_qf (c : Dev nD) :
    (W23 m ρ c (Proc.devRef .tc main_v0) : (⟨S128x2048, .f32⟩ : BufTy).Contents (Elt Ideal))
      = (Host.dotGeneral (F := Ideal) (φ₁ := .f32) (φ₂ := .f32) Cert.ReferenceIdeal.dot_S128x2048_S2048x2048_S128x2048_1_0_0_1_n_n none
          (m ((c.tc : Thread nD τ).loc main_arg0) : (⟨S128x2048, .f32⟩ : BufTy).Contents (Elt Ideal))
          (m ((c.tc : Thread nD τ).loc main_arg5) : (⟨S2048x2048, .f32⟩ : BufTy).Contents (Elt Ideal))
          : (⟨S128x2048, .f32⟩ : BufTy).Contents (Elt Ideal)) := by
  -- back through the operations after the second kernel: none writes this buffer
  after_results_simp
  -- across the second kernel: the buffer is none of its arrays
  rw [W22_of_ne m ρ c main_v0 (by decide)]
  -- back through the operations between the kernels
  after_results_simp
  -- across the first kernel
  rw [W18_of_ne m ρ c main_v0 (by decide)]
  -- back to the operation that writes it, the first of the program, and to the launch memory
  after_results_simp
  rfl

set_option maxRecDepth 16384 in
set_option maxHeartbeats 8000000 in
/-- The constant label-weight array: a scatter of constants. -/
theorem exit_labels (c : Dev nD) :
    (W23 m ρ c (Proc.devRef .tc main_v98) : (⟨S256x64001, .f32⟩ : BufTy).Contents (Elt Ideal))
      = (Host.scatter Cert.ReferenceIdeal.scatter_S256x64001_S1_S256x65_01_n_1_0 (fun _ b => b)
          (broadcastInDim Cert.ReferenceIdeal.S256x64001 ![] Cert.ReferenceIdeal.Gen.bcast_S_S256x64001
            (constant (F := Ideal) Cert.ReferenceIdeal.S_ .f32 0x00000000#32))
          (broadcastInDim Cert.ReferenceIdeal.S1 ![] Cert.ReferenceIdeal.Gen.bcast_S_S1
            (constantI Cert.ReferenceIdeal.S_ 32 0#32))
          (broadcastInDim Cert.ReferenceIdeal.S256x65 ![] Cert.ReferenceIdeal.Gen.bcast_S_S256x65
            (constant (F := Ideal) Cert.ReferenceIdeal.S_ .f32 0x3C7C0FC1#32))
          : (⟨S256x64001, .f32⟩ : BufTy).Contents (Elt Ideal)) := by
  -- all three operands are constants written after the second kernel
  after_results_simp
  rfl

end Cert.KernelIdeal.HostValue

end
-- ==== Proof.KernelExitKl.lean ====
import proofs.«163235_j22531398435254_2_alg».proof.Proof.FrameP
import proofs.«163235_j22531398435254_2_alg».proof.Proof.Chain

/-!
# The kernel program's KL scalar at its final boundary

The scalar is the sum of two terms, each computed before the first kernel by the same host operations as the
reference's, scaled by a literal after the second kernel. Neither term's buffer is written again, so each is
read back across both kernels to the value it had when the first kernel was entered.
-/

noncomputable section

namespace Cert.KernelIdeal.HostValue

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg)

set_option maxRecDepth 16384 in
set_option maxHeartbeats 8000000 in
/-- The first KL term at the first kernel's entry. -/
theorem entry_klA (c : Dev nD) :
    (W17 m ρ c (Proc.devRef .tc main_v46) : (⟨S_, .f32⟩ : BufTy).Contents (Elt Ideal))
      = Cert.ReferenceIdeal.ReadP.val_main_v46 (F := Ideal) (m ((c.tc : Thread nD τ).loc main_arg0))
          (m ((c.tc : Thread nD τ).loc main_arg5)) (m ((c.tc : Thread nD τ).loc main_arg9))
          (m ((c.tc : Thread nD τ).loc main_arg10)) (m ((c.tc : Thread nD τ).loc main_arg11))
          (m ((c.tc : Thread nD τ).loc main_arg12)) := by
  after_results_simp
  rfl

set_option maxRecDepth 16384 in
set_option maxHeartbeats 8000000 in
/-- The second KL term at the first kernel's entry. -/
theorem entry_klB (c : Dev nD) :
    (W17 m ρ c (Proc.devRef .tc main_v76) : (⟨S_, .f32⟩ : BufTy).Contents (Elt Ideal))
      = Cert.ReferenceIdeal.ReadP.val_main_v76 (F := Ideal) (m ((c.tc : Thread nD τ).loc main_arg1))
          (m ((c.tc : Thread nD τ).loc main_arg5)) (m ((c.tc : Thread nD τ).loc main_arg7))
          (m ((c.tc : Thread nD τ).loc main_arg9)) (m ((c.tc : Thread nD τ).loc main_arg10))
          (m ((c.tc : Thread nD τ).loc main_arg11)) (m ((c.tc : Thread nD τ).loc main_arg12)) := by
  after_results_simp
  rfl

set_option maxRecDepth 16384 in
set_option maxHeartbeats 8000000 in
/-- A buffer written before the first kernel and by nothing after it, read at the second kernel's exit, holds
    what it held at the first kernel's entry: the first KL term's. -/
theorem klA_through (c : Dev nD) :
    W22 m ρ c (Proc.devRef .tc main_v46) = W17 m ρ c (Proc.devRef .tc main_v46) := by
  rw [W22_of_ne m ρ c main_v46 (by decide)]
  after_results_simp
  exact W18_of_ne m ρ c main_v46 (by decide)

set_option maxRecDepth 16384 in
set_option maxHeartbeats 8000000 in
/-- The same for the second KL term's buffer. -/
theorem klB_through (c : Dev nD) :
    W22 m ρ c (Proc.devRef .tc main_v76) = W17 m ρ c (Proc.devRef .tc main_v76) := by
  rw [W22_of_ne m ρ c main_v76 (by decide)]
  after_results_simp
  exact W18_of_ne m ρ c main_v76 (by decide)

set_option maxRecDepth 16384 in
set_option maxHeartbeats 8000000 in
/-- The KL scalar. -/
theorem exit_kl (c : Dev nD) :
    (W23 m ρ c (Proc.devRef .tc main_v100) : (⟨S_, .f32⟩ : BufTy).Contents (Elt Ideal))
      = Cert.ReferenceIdeal.ReadP.val_main_v115 (F := Ideal) (m ((c.tc : Thread nD τ).loc main_arg0))
          (m ((c.tc : Thread nD τ).loc main_arg1)) (m ((c.tc : Thread nD τ).loc main_arg5))
          (m ((c.tc : Thread nD τ).loc main_arg7)) (m ((c.tc : Thread nD τ).loc main_arg9))
          (m ((c.tc : Thread nD τ).loc main_arg10)) (m ((c.tc : Thread nD τ).loc main_arg11))
          (m ((c.tc : Thread nD τ).loc main_arg12)) := by
  -- the sum and the scaling are the last operations of the program
  after_results_simp
  -- the two terms, back to the first kernel's entry
  rw [klA_through m ρ c, klB_through m ρ c, entry_klA m ρ c, entry_klB m ρ c]
  rfl

end Cert.KernelIdeal.HostValue

end
-- ==== Proof.RefParts.lean ====
import Idealize.ShloMosaic.Lib.Pipeline.Value
import Idealize.ShloMosaic.Lib.ValueIdx
import Idealize.ShloMosaic.PureOps.Ideal.Laws

/-!
# Three array operations read at an index

* A row of 64001 entries laid together from a column, a block of 64 and a block of 63936: entry 0 comes from the
  column, entries 1 … 64 from the first block, the rest from the second.
* The maximum of a row, folded from `−∞`: since `−∞` is the least extended real, it is the supremum of the row.
* A conjunction folded over an axis of extent one: the one bit there, and the initial bit.
-/

noncomputable section

namespace Cert.Bridge

open Idealize.ShloMosaic Idealize.ShloMosaic.ValueIdx

section Concat
variable {α : Type}

/-- The three-piece row `[256, 1] ++ [256, 64] ++ [256, 63936]` along axis 1, read at `(r, k)`. -/
theorem concat3_apply (x1 : (⟨2, ![256, 1]⟩ : Shape).Idx → α) (x2 : (⟨2, ![256, 64]⟩ : Shape).Idx → α)
    (x3 : (⟨2, ![256, 63936]⟩ : Shape).Idx → α)
    (h : Shape.Concatenates [(⟨2, ![256, 1]⟩ : Shape), ⟨2, ![256, 64]⟩, ⟨2, ![256, 63936]⟩] ⟨2, ![256, 64001]⟩ 1)
    (r : Fin 256) (k : Fin 64001) :
    concatenate (⟨2, ![256, 64001]⟩ : Shape) 1 [⟨_, x1⟩, ⟨_, x2⟩, ⟨_, x3⟩] h (ix2 r k)
      = if k.val = 0 then x1 (ix2 r (0 : Fin 1))
        else if h65 : k.val < 65 then x2 (ix2 r (⟨k.val - 1, by omega⟩ : Fin 64))
        else x3 (ix2 r (⟨k.val - 65, by have := k.isLt; omega⟩ : Fin 63936)) := by
  split
  · next h0 =>
    exact concatenate_apply_piece (t := ⟨2, ![256, 64001]⟩) (1 : Fin 2) [⟨_, x1⟩, ⟨_, x2⟩, ⟨_, x3⟩] h (ix2 r k)
      0 (by show (0 : ℕ) < 3; omega) _ x1 rfl rfl 0 rfl (ix2 r (0 : Fin 1))
      (fun b hb => by
        match b with
        | ⟨0, _⟩ => rfl
        | ⟨1, _⟩ => exact (hb rfl).elim)
      (by show 0 + 0 = k.val; omega)
  · next h0 =>
    split
    · next h65 =>
      exact concatenate_apply_piece (t := ⟨2, ![256, 64001]⟩) (1 : Fin 2) [⟨_, x1⟩, ⟨_, x2⟩, ⟨_, x3⟩] h (ix2 r k)
        1 (by show (1 : ℕ) < 3; omega) _ x2 rfl rfl 1 rfl (ix2 r (⟨k.val - 1, by omega⟩ : Fin 64))
        (fun b hb => by
          match b with
          | ⟨0, _⟩ => rfl
          | ⟨1, _⟩ => exact (hb rfl).elim)
        (by show 1 + (k.val - 1) = k.val; omega)
    · next h65 =>
      exact concatenate_apply_piece (t := ⟨2, ![256, 64001]⟩) (1 : Fin 2) [⟨_, x1⟩, ⟨_, x2⟩, ⟨_, x3⟩] h (ix2 r k)
        2 (by show (2 : ℕ) < 3; omega) _ x3 rfl rfl 65 rfl (ix2 r (⟨k.val - 65, by have := k.isLt; omega⟩ : Fin 63936))
        (fun b hb => by
          match b with
          | ⟨0, _⟩ => rfl
          | ⟨1, _⟩ => exact (hb rfl).elim)
        (by show 65 + (k.val - 65) = k.val; omega)

end Concat

section Reduce

/-- The single-precision pattern of `−∞` is the least extended real. -/
theorem ofBits_negInf_f32 : Ideal.ofBits .f32 0xFF800000#32 = ⊥ := by simp [Ideal.ofBits, Ideal.ieee]

/-- A single-precision not-a-number pattern reads as the junk value `⊥`. -/
theorem ofBits_nan_f32 : Ideal.ofBits .f32 0x7FC00000#32 = ⊥ := by simp [Ideal.ofBits, Ideal.ieee]

/-- A row's maximum folded from the least element is the row's supremum. -/
theorem rowMax_apply (X : (⟨2, ![256, 64001]⟩ : Shape).Idx → EReal) (init : (⟨0, ![]⟩ : Shape).Idx → EReal)
    (h' : (⟨2, ![256, 64001]⟩ : Shape).ReducesTo [1] ⟨1, ![256]⟩) (hu : 0 < (⟨0, ![]⟩ : Shape).numel)
    (hinit : init (Shape.Idx.first hu) = ⊥) (r : Fin 256) :
    Host.reduce (FloatOps.maximumf (F := Ideal) (φ := .f32)) X init h' hu (ix1 r)
      = Finset.univ.sup fun k : Fin 64001 => X (ix2 r k) := by
  have h : (⟨2, ![256, 64001]⟩ : Shape).Reduces [1] ⟨1, ![256]⟩ := by decide
  rw [Host.reduce_eq_fold_single _ X init h' h hu (ix1 r), hinit]
  have hl : (X ∘ h.lift (ix1 r)) = fun k : Fin 64001 => X (ix2 r k) :=
    funext fun k => congrArg X (funext fun a => Fin.ext (by match a with | ⟨0, _⟩ => rfl | ⟨1, _⟩ => rfl))
  show (Finset.univ : Finset (Fin 64001)).fold max ⊥ (X ∘ h.lift (ix1 r)) = _
  rw [hl]
  rfl

/-- A fold over the one-element index set `Fin 1` combines the one term with the initial value. -/
theorem fold_fin_one {β : Type} (op : β → β → β) [Std.Commutative op] [Std.Associative op] (b : β) (f : Fin 1 → β) :
    (Finset.univ : Finset (Fin 1)).fold op b f = op (f 0) b := by
  rw [show (Finset.univ : Finset (Fin 1)) = {0} from rfl, Finset.fold_singleton]

/-- A conjunction folded over the last axis, of extent one: the bit there and the initial bit. -/
theorem reduceAnd_unit_apply (x : (⟨3, ![256, 999, 1]⟩ : Shape).Idx → BitVec 1) (init : (⟨0, ![]⟩ : Shape).Idx → BitVec 1)
    (h' : (⟨3, ![256, 999, 1]⟩ : Shape).ReducesTo [2] ⟨2, ![256, 999]⟩) (hu : 0 < (⟨0, ![]⟩ : Shape).numel)
    (r : Fin 256) (c : Fin 999) :
    Host.reduce IntOp.andi x init h' hu (ix2 r c)
      = IntOp.andi (x (ix3 r c (0 : Fin 1))) (init (Shape.Idx.first hu)) := by
  have h : (⟨3, ![256, 999, 1]⟩ : Shape).Reduces [2] ⟨2, ![256, 999]⟩ := by decide
  rw [Host.reduce_eq_fold_single IntOp.andi x init h' h hu (ix2 r c)]
  have hl : h.lift (ix2 r c) (0 : Fin 1) = ix3 r c (0 : Fin 1) :=
    funext fun a => Fin.ext (by match a with | ⟨0, _⟩ => rfl | ⟨1, _⟩ => rfl | ⟨2, _⟩ => rfl)
  refine (fold_fin_one IntOp.andi (init (Shape.Idx.first hu)) (x ∘ h.lift (ix2 r c))).trans ?_
  show IntOp.andi (x (h.lift (ix2 r c) (0 : Fin 1))) _ = _
  rw [hl]

end Reduce

end Cert.Bridge

end
-- ==== Proof.RefGather.lean ====
import Idealize.ShloMosaic.Lib.ValueIdx
import Idealize.ShloMosaic.Lib.Affine

/-!
# One block of 64 per row and class: the batched gather, and the words that index it

The array of queue logits is viewed as 256 rows of 1000 classes of 64 entries. A gather batched over the rows
takes, for row `r` and position `c` of an index array, the whole block of 64 of the class the index names:
result entry `(r, c, e)` is operand entry `(r, k, e)` with `k` the index word at `(r, c, 0)` read signed and
clamped into `[0, 999]`.

The index words of the "all classes but the row's own" gather are `c + [c ≥ label]` for `c < 999`: such a
word is a number in `[0, 999]`, so the wrap-around of negative indices leaves it alone, the range test passes
and the clamp is the identity.
-/

namespace Cert.Bridge

open Idealize.ShloMosaic Idealize.ShloMosaic.ValueIdx

section Gather
variable {α : Type}

/-- The dimension numbers of the batched block gather: operand `[256, 1000, 64]`, indices `[256, C, 1]`, result
    `[256, C, 64]`; axis 0 is the batch, axis 1 is indexed and collapsed, axis 2 is copied whole. -/
abbrev blockDims (C : Nat)
    (wf : GatherDims.WF ⟨3, ![256, 1000, 64]⟩ ⟨3, ![256, C, 1]⟩ ⟨3, ![256, C, 64]⟩ [2] [1] [0] [1] [0] 2 ![1, 1, 64]) :
    GatherDims ⟨3, ![256, 1000, 64]⟩ ⟨3, ![256, C, 1]⟩ ⟨3, ![256, C, 64]⟩ where
  offsetDims := [2]
  collapsedSliceDims := [1]
  operandBatchingDims := [0]
  startIndicesBatchingDims := [0]
  startIndexMap := [1]
  indexVectorDim := 2
  sliceSizes := ![1, 1, 64]
  wf := wf

/-- The batched block gather read at `(r, c, e)`: the operand at row `r`, entry `e`, and the class the index word at
    `(r, c, 0)` names, read signed and clamped into `[0, 999]`. -/
theorem gather_block_apply (C : Nat)
    (wf : GatherDims.WF ⟨3, ![256, 1000, 64]⟩ ⟨3, ![256, C, 1]⟩ ⟨3, ![256, C, 64]⟩ [2] [1] [0] [1] [0] 2 ![1, 1, 64])
    (x : (⟨3, ![256, 1000, 64]⟩ : Shape).Idx → α) (idx : IVec ⟨3, ![256, C, 1]⟩ 32)
    (r : Fin 256) (c : Fin C) (e : Fin 64) :
    Host.gather (blockDims C wf) x idx (ix3 r c e)
      = x (ix3 r (⟨min (idx (ix3 r c (0 : Fin 1))).toInt.toNat 999, by omega⟩ : Fin 1000) e) := by
  have m00 : (0 : Fin 3) ∈ ([0] : List (Fin 3)) := List.mem_singleton.mpr rfl
  have m11 : (1 : Fin 3) ∈ ([1] : List (Fin 3)) := List.mem_singleton.mpr rfl
  have n10 : (1 : Fin 3) ∉ ([0] : List (Fin 3)) := by decide
  have n20 : (2 : Fin 3) ∉ ([0] : List (Fin 3)) := by decide
  have n21 : (2 : Fin 3) ∉ ([1] : List (Fin 3)) := by decide
  -- axis 0, the batch: the result's own row
  have h0 : (blockDims C wf).start (ix3 r c e) idx (0 : Fin 3) + (blockDims C wf).batchCoord (ix3 r c e) (0 : Fin 3)
      + (blockDims C wf).offCoord (ix3 r c e) (0 : Fin 3) = r.val := by
    rw [GatherDims.start_batching _ _ _ _ m00,
      GatherDims.offCoord_eq_zero _ _ _ (fun h => ((GatherDims.mem_sKept _ _).mp h).2 m00)]
    unfold GatherDims.batchCoord
    rw [dif_pos (show (0 : Fin 3) ∈ (blockDims C wf).operandBatchingDims from m00)]
    show 0 + r.val + 0 = r.val
    omega
  -- axis 1, the indexed one: the clamped index word
  have h1 : (blockDims C wf).start (ix3 r c e) idx (1 : Fin 3) + (blockDims C wf).batchCoord (ix3 r c e) (1 : Fin 3)
      + (blockDims C wf).offCoord (ix3 r c e) (1 : Fin 3) = min (idx (ix3 r c (0 : Fin 1))).toInt.toNat 999 := by
    rw [GatherDims.batchCoord_eq_zero _ _ _ n10,
      GatherDims.offCoord_eq_zero _ _ _ (fun h => ((GatherDims.mem_sKept _ _).mp h).1 m11)]
    unfold GatherDims.start
    rw [dif_pos (show (1 : Fin 3) ∈ (blockDims C wf).startIndexMap from m11)]
    have hsi : (blockDims C wf).siIdx (ix3 r c e) ⟨List.idxOf (1 : Fin 3) (blockDims C wf).startIndexMap,
        List.idxOf_lt_length_iff.2 m11⟩ = ix3 r c (0 : Fin 1) := by
      funext b; refine Fin.ext ?_
      match b with
      | ⟨0, _⟩ => rfl
      | ⟨1, _⟩ => rfl
      | ⟨2, _⟩ => rfl
    rw [hsi]
    rfl
  -- axis 2, copied whole: the result's own entry
  have h2 : (blockDims C wf).start (ix3 r c e) idx (2 : Fin 3) + (blockDims C wf).batchCoord (ix3 r c e) (2 : Fin 3)
      + (blockDims C wf).offCoord (ix3 r c e) (2 : Fin 3) = e.val := by
    rw [GatherDims.batchCoord_eq_zero _ _ _ n20]
    unfold GatherDims.start GatherDims.offCoord
    rw [dif_neg (show (2 : Fin 3) ∉ (blockDims C wf).startIndexMap from n21),
      dif_pos (show (2 : Fin 3) ∈ (blockDims C wf).sKept from (GatherDims.mem_sKept _ _).mpr ⟨n21, n20⟩)]
    show 0 + 0 + e.val = e.val
    omega
  unfold Host.gather
  refine congrArg x (funext fun a => Fin.ext ?_)
  match a with
  | ⟨0, _⟩ => exact h0
  | ⟨1, _⟩ => exact h1
  | ⟨2, _⟩ => exact h2

/-- The same read with the class named by any `k` equal to the clamped index word. -/
theorem gather_block_apply_of_eq (C : Nat)
    (wf : GatherDims.WF ⟨3, ![256, 1000, 64]⟩ ⟨3, ![256, C, 1]⟩ ⟨3, ![256, C, 64]⟩ [2] [1] [0] [1] [0] 2 ![1, 1, 64])
    (x : (⟨3, ![256, 1000, 64]⟩ : Shape).Idx → α) (idx : IVec ⟨3, ![256, C, 1]⟩ 32)
    (r : Fin 256) (c : Fin C) (e : Fin 64) (k : Fin 1000)
    (hk : k.val = min (idx (ix3 r c (0 : Fin 1))).toInt.toNat 999) :
    Host.gather (blockDims C wf) x idx (ix3 r c e) = x (ix3 r k e) := by
  rw [gather_block_apply]
  exact congrArg (fun k' : Fin 1000 => x (ix3 r k' e)) (Fin.ext hk.symm)

end Gather

section Words

/-- The class a position names once the row's own class is left out: positions from the label on name the
    next class. -/
def clsNat (lab : ℤ) (c : ℕ) : ℕ := if lab ≤ (c : ℤ) then c + 1 else c

theorem clsNat_le (lab : ℤ) (c : ℕ) (hc : c < 999) : clsNat lab c ≤ 999 := by
  unfold clsNat; split <;> omega

/-- A 32-bit word made from a number below `2^31` reads, signed, as that number. -/
theorem toInt_ofNat_small (n : ℕ) (h : n < 2147483648) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- The index word `c + [c ≥ label]` (the comparison signed, its bit widened to 32 bits) is the word of the class
    position `c` names. -/
theorem cls_word (lab : BitVec 32) (c : ℕ) (hc : c < 999) :
    IntOp.addi (BitVec.ofNat 32 c) ((IntOp.cmpi .sge (BitVec.ofNat 32 c) lab).setWidth 32)
      = BitVec.ofNat 32 (clsNat lab.toInt c) := by
  have hcI : (BitVec.ofNat 32 c).toInt = (c : ℤ) := toInt_ofNat_small c (by omega)
  have s1 : (1#1 : BitVec 1).setWidth 32 = 1#32 := by decide
  have s0 : (0#1 : BitVec 1).setWidth 32 = 0#32 := by decide
  unfold clsNat IntOp.addi
  by_cases h : lab.toInt ≤ (c : ℤ)
  · have e : IntOp.cmpi .sge (BitVec.ofNat 32 c) lab = 1#1 := IntOp.cmpi_sge.mpr (by rw [hcI]; exact h)
    rw [e, if_pos h, s1, BitVec.ofNat_add]
  · have e : IntOp.cmpi .sge (BitVec.ofNat 32 c) lab = 0#1 :=
      eq_zero_of_ne_one (fun h1 => h (by have := IntOp.cmpi_sge.mp h1; rwa [hcI] at this))
    rw [e, if_neg h, s0, BitVec.add_zero]

/-- A word in `[0, 999]` is not negative, so the wrap-around of negative indices leaves it alone. -/
theorem wrap_small (n : ℕ) (hn : n ≤ 999) :
    Scalar.select (IntOp.cmpi .slt (BitVec.ofNat 32 n) 0#32) (IntOp.addi (BitVec.ofNat 32 n) 1000#32)
      (BitVec.ofNat 32 n) = BitVec.ofNat 32 n := by
  have e : IntOp.cmpi .slt (BitVec.ofNat 32 n) 0#32 = 0#1 :=
    eq_zero_of_ne_one (fun h1 => by
      have := IntOp.cmpi_slt.mp h1
      rw [toInt_ofNat_small n (by omega), toInt_ofNat_small 0 (by omega)] at this
      omega)
  rw [e, select_zero]

/-- A word in `[0, 999]` passes the range test `0 ≤ · ≤ 999`. -/
theorem inRange_small (n : ℕ) (hn : n ≤ 999) :
    IntOp.andi (IntOp.cmpi .sge (BitVec.ofNat 32 n) 0#32) (IntOp.cmpi .sle (BitVec.ofNat 32 n) 999#32) = 1#1 := by
  have e1 : IntOp.cmpi .sge (BitVec.ofNat 32 n) 0#32 = 1#1 := IntOp.cmpi_sge.mpr (by
    rw [toInt_ofNat_small n (by omega), toInt_ofNat_small 0 (by omega)]; omega)
  have e2 : IntOp.cmpi .sle (BitVec.ofNat 32 n) 999#32 = 1#1 := IntOp.cmpi_sle.mpr (by
    rw [toInt_ofNat_small n (by omega), toInt_ofNat_small 999 (by omega)]; omega)
  rw [e1, e2]; decide

/-- Clamping a word in `[0, 999]` into `[0, 999]` gives its number back. -/
theorem clamp_small (n : ℕ) (hn : n ≤ 999) : min (BitVec.ofNat 32 n).toInt.toNat 999 = n := by
  rw [toInt_ofNat_small n (by omega)]; omega

end Words

end Cert.Bridge
-- ==== Proof.RefNeg.lean ====
import proofs.«163235_j22531398435254_2_alg».proof.Proof.Chain
import proofs.«163235_j22531398435254_2_alg».proof.Proof.RefGather
import proofs.«163235_j22531398435254_2_alg».proof.Proof.RefParts

/-!
# The reference's two block gathers, row by row

The queue logits of a row, viewed as 1000 classes of 64, are gathered twice. The first gather takes the one
class the row's label names: whatever the label, each of its 64 entries is one of the row's queue logits, or the
junk value when the label fails the range test. The second takes 999 classes, position `c` naming class
`c + [c ≥ label]`: these index words always pass the range test, and laid end to end the 999 blocks are the
row's queue logits with one block of 64 left out — column `q` itself while `q / 64` is below the label, column
`q + 64` from there on.
-/

noncomputable section

namespace Cert.Bridge

open Idealize.ShloMosaic Idealize.ShloMosaic.ValueIdx Cert.ReferenceIdeal Cert.ReferenceIdeal.ReadP

/-- The queue logits viewed as `[256, 1000, 64]`: entry `(r, k, e)` is column `64 k + e` of row `r`. -/
theorem v89_at (A : Args) (r : Fin 256) (k : Fin 1000) (e : Fin 64) :
    val_main_v89 (F := Ideal) A.x0 A.x3 A.x5 A.x6 A.x9 A.x10 A.x11 A.x12 A.x13 (ix3 r k e)
      = A.dRow r (⟨k.val * 64 + e.val, by have := k.isLt; have := e.isLt; omega⟩ : Fin 64000) := by
  have hk := k.isLt
  have he := e.isLt
  unfold Args.dRow Args.dot3
  rw [val_main_v89_apply]
  refine congrArg (val_main_v88 (F := Ideal) A.x0 A.x3 A.x5 A.x6 A.x9 A.x10 A.x11 A.x12 A.x13) (funext fun a => Fin.ext ?_)
  match a with
  | ⟨0, _⟩ => show ((r.val * 1000 + k.val) * 64 + e.val) / 64000 = r.val; omega
  | ⟨1, _⟩ => show ((r.val * 1000 + k.val) * 64 + e.val) % 64000 = k.val * 64 + e.val; omega

/-- The first gather's dimension numbers are the block gather's, with one index per row. -/
theorem gather1_apply {α : Type} (x : S256x1000x64.Idx → α) (idx : IVec S256x1x1 32) (r : Fin 256) (c : Fin 1) (e : Fin 64) :
    Host.gather gather_S256x1000x64_S256x1x1_S256x1x64_2_1_0_0_1_2_1164 x idx (ix3 r c e)
      = x (ix3 r (⟨min (idx (ix3 r c (0 : Fin 1))).toInt.toNat 999, by omega⟩ : Fin 1000) e) :=
  gather_block_apply 1 Facts₀.gather_S256x1000x64_S256x1x1_S256x1x64_2_1_0_0_1_2_1164_wf x idx r c e

/-- The second gather's dimension numbers are the block gather's, with 999 indices per row. -/
theorem gather999_apply {α : Type} (x : S256x1000x64.Idx → α) (idx : IVec S256x999x1 32) (r : Fin 256) (c : Fin 999)
    (e : Fin 64) (k : Fin 1000) (hk : k.val = min (idx (ix3 r c (0 : Fin 1))).toInt.toNat 999) :
    Host.gather gather_S256x1000x64_S256x999x1_S256x999x64_2_1_0_0_1_2_1164 x idx (ix3 r c e) = x (ix3 r k e) :=
  gather_block_apply_of_eq 999 Facts₀.gather_S256x1000x64_S256x999x1_S256x999x64_2_1_0_0_1_2_1164_wf x idx r c e k hk

/-- An own-class logit is either the junk value `⊥` (label out of range) or one of the row's queue logits. -/
theorem bRow_cases (A : Args) (r : Fin 256) (q : Fin 64) :
    A.bRow r q = ⊥ ∨ ∃ q' : Fin 64000, A.bRow r q = A.dRow r q' := by
  have hq := q.isLt
  have e1 : idx_main_v92 (ix2 r q) = ix3 r (0 : Fin 1) q := funext fun a => Fin.ext (by
    match a with
    | ⟨0, _⟩ => show (r.val * 64 + q.val) / 64 = r.val; omega
    | ⟨1, _⟩ => rfl
    | ⟨2, _⟩ => show (r.val * 64 + q.val) % 64 = q.val; omega)
  unfold Args.bRow Args.pos
  rw [val_main_v92_apply, e1, val_main_v91_apply]
  by_cases hc : val_main_call8_v13 (F := Ideal) A.x2 (ix3 r (0 : Fin 1) q) = 1#1
  · right
    rw [hc, select_one]
    unfold val_main_call8_v12
    rw [gather1_apply, v89_at]
    exact ⟨_, rfl⟩
  · left
    rw [eq_zero_of_ne_one hc, select_zero, val_main_call8_v14_apply, val_main_call8_cst_apply]
    exact ofBits_nan_f32

/-- The second gather's index word at row `r`, position `c`: the word of the class `c + [c ≥ label]`. -/
theorem v103_at (A : Args) (r : Fin 256) (c : Fin 999) :
    val_main_v103 (F := Ideal) A.x2 (ix3 r c (0 : Fin 1)) = BitVec.ofNat 32 (clsNat (A.labRow r) c.val) := by
  have e1 : idx_main_v103 (ix3 r c (0 : Fin 1)) = ix2 r c :=
    funext fun a => Fin.ext (by match a with | ⟨0, _⟩ => rfl | ⟨1, _⟩ => rfl)
  have e2 : idx_main_v96 (idx_main_v98 (ix2 r c)) = ix1 r :=
    funext fun a => Fin.ext (by match a with | ⟨0, _⟩ => rfl)
  rw [val_main_v103_apply, e1, val_main_v102_apply, val_main_v101_apply, val_main_v94_apply, val_main_v93_apply,
    val_main_v100_apply, val_main_v99_apply, val_main_v97_apply, val_main_v95_apply, val_main_v93_apply,
    val_main_v98_apply, val_main_v96_apply, e2]
  exact cls_word (val_main_v84 (F := Ideal) A.x2 (ix1 r)) c.val c.isLt

/-- That word is not negative, so the wrap-around of negative indices leaves it as it is. -/
theorem call9_v4_at (A : Args) (r : Fin 256) (c : Fin 999) :
    val_main_call9_v4 (F := Ideal) A.x2 (ix3 r c (0 : Fin 1)) = BitVec.ofNat 32 (clsNat (A.labRow r) c.val) := by
  rw [val_main_call9_v4_apply, val_main_call9_v1_apply, val_main_call9_v3_apply, val_main_call9_v0_apply,
    val_main_call9_c_apply, val_main_call9_v2_apply, val_main_call9_c_0_apply, v103_at]
  exact wrap_small _ (clsNat_le _ _ c.isLt)

/-- It passes the range test `0 ≤ · ≤ 999`. -/
theorem call9_v11_at (A : Args) (r : Fin 256) (c : Fin 999) :
    val_main_call9_v11 (F := Ideal) A.x2 (ix2 r c) = 1#1 := by
  unfold val_main_call9_v11
  rw [reduceAnd_unit_apply _ _ Facts₀.reducesTo_S256x999x1_S256x999_d2 Facts₀.h_S_ r c, val_main_call9_v10_apply,
    val_main_call9_v6_apply, val_main_call9_v9_apply, val_main_call9_v5_apply, val_main_call9_c_2_apply,
    val_main_call9_v8_apply, val_main_call9_v7_apply, val_main_call9_c_1_apply, call9_v4_at,
    inRange_small _ (clsNat_le _ _ c.isLt), val_main_call9_c_3_apply]
  decide

/-- The 999 gathered blocks laid end to end: the row's queue logits without the block of the row's label. -/
theorem neg_at (A : Args) (r : Fin 256) (q : Fin 63936) :
    val_main_v105 (F := Ideal) A.x0 A.x2 A.x3 A.x5 A.x6 A.x9 A.x10 A.x11 A.x12 A.x13 (ix2 r q) = dropBlock (A.dRow r) (A.labRow r) q := by
  have hq := q.isLt
  have e1 : idx_main_v105 (ix2 r q) = ix3 r (⟨q.val / 64, by omega⟩ : Fin 999) (⟨q.val % 64, by omega⟩ : Fin 64) :=
    funext fun a => Fin.ext (by
      match a with
      | ⟨0, _⟩ => show (r.val * 63936 + q.val) / 63936 = r.val; omega
      | ⟨1, _⟩ => show (r.val * 63936 + q.val) / 64 % 999 = q.val / 64; omega
      | ⟨2, _⟩ => show (r.val * 63936 + q.val) % 64 = q.val % 64; omega)
  have e2 : idx_main_call9_v13 (ix3 r (⟨q.val / 64, by omega⟩ : Fin 999) (⟨q.val % 64, by omega⟩ : Fin 64))
      = ix2 r (⟨q.val / 64, by omega⟩ : Fin 999) :=
    funext fun a => Fin.ext (by match a with | ⟨0, _⟩ => rfl | ⟨1, _⟩ => rfl)
  have hle := clsNat_le (A.labRow r) (q.val / 64) (by omega)
  rw [val_main_v105_apply, e1, val_main_v104_apply, val_main_call9_v13_apply, e2, call9_v11_at, select_one]
  unfold val_main_call9_v12
  rw [gather999_apply _ _ r _ _ (⟨clsNat (A.labRow r) (q.val / 64), by omega⟩ : Fin 1000)
      (by rw [call9_v4_at]; exact (clamp_small _ hle).symm),
    v89_at]
  unfold dropBlock
  split
  · next h =>
    refine congrArg (A.dRow r) (Fin.ext ?_)
    show clsNat (A.labRow r) (q.val / 64) * 64 + q.val % 64 = q.val
    unfold clsNat
    rw [if_neg (by omega)]
    omega
  · next h =>
    refine congrArg (A.dRow r) (Fin.ext ?_)
    show clsNat (A.labRow r) (q.val / 64) * 64 + q.val % 64 = q.val + 64
    unfold clsNat
    rw [if_pos (by omega)]
    omega

end Cert.Bridge

end
-- ==== Proof.RefSoftmax.lean ====
import proofs.«163235_j22531398435254_2_alg».proof.Proof.Chain
import proofs.«163235_j22531398435254_2_alg».proof.Proof.RefParts

/-!
# The reference's log-softmax, row by row

With `x` a row of the scaled logits, the reference takes the row's maximum `M` (folded from `−∞`, then once more
against `−∞`, which changes nothing), subtracts it, and subtracts the logarithm of the sum of the exponentials of
the shifted row: entry `j` of the result is `(x j − M) − log Σ exp (x i − M)`, with `M` the supremum of the row.
-/

noncomputable section

namespace Cert.Bridge

open Idealize.ShloMosaic Idealize.ShloMosaic.ValueIdx Cert.ReferenceIdeal Cert.ReferenceIdeal.ReadP

/-- The row maximum the reference subtracts is the supremum of the row of scaled logits. -/
theorem call10_v2_at (A : Args) (r : Fin 256) :
    val_main_call10_v2 (F := Ideal) A.x0 A.x1 A.x2 A.x3 A.x4 A.x5 A.x6 A.x7 A.x8 A.x9 A.x10 A.x11 A.x12 A.x13 (ix1 r)
      = Finset.univ.sup fun k : Fin 64001 => val_main_v108 (F := Ideal) A.x0 A.x1 A.x2 A.x3 A.x4 A.x5 A.x6 A.x7 A.x8 A.x9 A.x10 A.x11 A.x12 A.x13 (ix2 r k) := by
  rw [val_main_call10_v2_apply, val_main_call10_v1_apply, val_main_call10_cst_0_apply]
  unfold val_main_call10_v0
  rw [rowMax_apply _ _ Facts₀.reducesTo_S256x64001_S256_d1 Facts₀.h_S_
    (by rw [val_main_call10_cst_apply]; exact ofBits_negInf_f32) r]
  show max (Ideal.ofBits .f32 0xFF800000#32) _ = _
  rw [ofBits_negInf_f32]
  exact max_eq_right bot_le

/-- Row `r`, column `j` of the reference's first result: the shifted log-softmax of the row of scaled logits. -/
theorem logits_at (A : Args) (r : Fin 256) (j : Fin 64001) :
    A.logitsRef (ix2 r j)
      = lsmShift (fun k : Fin 64001 => val_main_v108 (F := Ideal) A.x0 A.x1 A.x2 A.x3 A.x4 A.x5 A.x6 A.x7 A.x8 A.x9 A.x10 A.x11 A.x12 A.x13 (ix2 r k)) j := by
  have e1 : ∀ k : Fin 64001, idx_main_call10_v3 (idx_main_call10_v4 (ix2 r k)) = ix1 r :=
    fun k => funext fun a => Fin.ext (by match a with | ⟨0, _⟩ => rfl)
  have e2 : idx_main_call10_v8 (idx_main_call10_v10 (ix2 r j)) = ix1 r :=
    funext fun a => Fin.ext (by match a with | ⟨0, _⟩ => rfl)
  have e3 : ∀ k : Fin 64001, idx_main_call10_v7 (ix1 r) k = ix2 r k :=
    fun k => funext fun a => Fin.ext (by match a with | ⟨0, _⟩ => rfl | ⟨1, _⟩ => rfl)
  unfold Args.logitsRef
  rw [val_main_v109_apply, val_main_call10_v5_apply, val_main_call10_v4_apply, val_main_call10_v3_apply, e1 j,
    val_main_call10_v10_apply, val_main_call10_v9_apply, val_main_call10_v8_apply, e2, val_main_call10_v7_apply,
    val_main_call10_cst_1_apply, call10_v2_at]
  simp only [e3, val_main_call10_v6_apply, val_main_call10_v5_apply, val_main_call10_v4_apply,
    val_main_call10_v3_apply, e1, call10_v2_at]
  simp only [Ideal.subf_def, Ideal.hostUnary_log_def, Ideal.hostUnary_exp_def, Ideal.ofBits_def, Ideal.ofBits_zero_f32,
    zero_add, lsmShift]

end Cert.Bridge

end
-- ==== Proof.RefRow.lean ====
import proofs.«163235_j22531398435254_2_alg».proof.Proof.Chain
import proofs.«163235_j22531398435254_2_alg».proof.Proof.RefParts
import proofs.«163235_j22531398435254_2_alg».proof.Proof.RefNeg
import proofs.«163235_j22531398435254_2_alg».proof.Proof.RefSoftmax

/-!
# The reference's first result, row by row

The row the reference takes the log-softmax of is laid together from the positive-pair logit, the 64 own-class
logits and the 63936 logits against the other classes, each entry divided by the temperature.
-/

noncomputable section

namespace Cert.Bridge

open Idealize.ShloMosaic Idealize.ShloMosaic.ValueIdx Cert.ReferenceIdeal Cert.ReferenceIdeal.ReadP

/-- The assembled logits row of the reference, entry by entry. -/
theorem v106_at (A : Args) (r : Fin 256) (k : Fin 64001) :
    val_main_v106 (F := Ideal) A.x0 A.x1 A.x2 A.x3 A.x4 A.x5 A.x6 A.x7 A.x8 A.x9 A.x10 A.x11 A.x12 A.x13 (ix2 r k)
      = cat3 (A.aRow r) (A.bRow r) (dropBlock (A.dRow r) (A.labRow r)) k := by
  unfold val_main_v106
  rw [concat3_apply _ _ _ Facts₀.concatenates_S256x1_S256x64_S256x63936_S256x64001_d1 r k]
  unfold cat3
  by_cases h0 : k.val = 0
  · rw [if_pos h0, if_pos h0]; rfl
  · rw [if_neg h0, if_neg h0]
    by_cases h65 : k.val < 65
    · rw [dif_pos h65, dif_pos h65]; rfl
    · rw [dif_neg h65, dif_neg h65]; exact neg_at A r _

/-- The scaled logits row of the reference: the assembled row divided by the temperature. -/
theorem v108_at (A : Args) (r : Fin 256) (k : Fin 64001) :
    val_main_v108 (F := Ideal) A.x0 A.x1 A.x2 A.x3 A.x4 A.x5 A.x6 A.x7 A.x8 A.x9 A.x10 A.x11 A.x12 A.x13 (ix2 r k)
      = Ideal.div (cat3 (A.aRow r) (A.bRow r) (dropBlock (A.dRow r) (A.labRow r)) k) (Ideal.ofBits .f32 0x3D8F5C29#32) := by
  rw [val_main_v108_apply, val_main_v107_apply, val_main_cst_20_apply, v106_at]
  rfl

/-- Row `r`, column `j` of the reference's first result: the shifted log-softmax of the assembled row divided by the
    temperature. No finiteness is used. -/
theorem ref_row (A : Args) (r : Fin 256) (j : Fin 64001) :
    A.logitsRef (ix2 r j)
      = lsmShift (fun j' => Ideal.div (cat3 (A.aRow r) (A.bRow r) (dropBlock (A.dRow r) (A.labRow r)) j')
          (Ideal.ofBits .f32 0x3D8F5C29#32)) j := by
  rw [logits_at]
  exact congrArg (fun x : Fin 64001 → EReal => lsmShift x j) (funext fun k => v108_at A r k)

end Cert.Bridge

end
-- ==== Proof.LibLinComb.lean ====
/-
  Linear combinations on the extended reals.

  The extended reals [-∞, +∞] are not a ring: a product does not distribute over a sum when an infinity meets
  its opposite. On the finite values — the image of the reals — every ring law holds, because sums, products
  and negations of finite values are computed in the reals. This file names the finite values (`IsReal`),
  shows which operations keep a value finite, and states the three identities a matrix-times-vector argument
  needs: a plane-rotation step commutes with a linear combination, a scaling commutes with a linear
  combination, and a 0/1 indicator row picks one entry.
-/
import Idealize.ShloMosaic.PureOps.Ideal

namespace LinComb

open scoped BigOperators

/-- An extended real is finite: it is the image of a real number. -/
def IsReal (v : EReal) : Prop := ∃ r : ℝ, v = (r : EReal)

/-- The image of a real number is finite. -/
theorem isReal_coe (r : ℝ) : IsReal (r : EReal) := ⟨r, rfl⟩

/-- Zero is finite. -/
theorem isReal_zero : IsReal (0 : EReal) := ⟨0, rfl⟩

/-- One is finite. -/
theorem isReal_one : IsReal (1 : EReal) := ⟨1, rfl⟩

/-- The sum of two finite values is finite: it is the image of the real sum. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two finite values is finite: it is the image of the real product. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The negation of a finite value is finite: it is the image of the real negation. -/
theorem IsReal.neg {a : EReal} (ha : IsReal a) : IsReal (-a) := by
  obtain ⟨r, rfl⟩ := ha
  exact ⟨-r, (EReal.coe_neg r).symm⟩

/-- A finite sum of finite values is finite. -/
theorem isReal_sum {n : ℕ} (f : Fin n → EReal) (h : ∀ j, IsReal (f j)) : IsReal (∑ j, f j) :=
  Finset.sum_induction f IsReal (fun _ _ ha hb => ha.add hb) isReal_zero (fun j _ => h j)

/-- The cosine of a finite value is finite: it is the image of the real cosine. -/
theorem isReal_cos {a : EReal} (ha : IsReal a) : IsReal (Idealize.ShloMosaic.Ideal.cos a) := by
  obtain ⟨r, rfl⟩ := ha
  exact ⟨Real.cos r, rfl⟩

/-- The sine of a finite value is finite: it is the image of the real sine. -/
theorem isReal_sin {a : EReal} (ha : IsReal a) : IsReal (Idealize.ShloMosaic.Ideal.sin a) := by
  obtain ⟨r, rfl⟩ := ha
  exact ⟨Real.sin r, rfl⟩

/-- The hyperbolic tangent is finite everywhere: its values at -∞ and +∞ are its limits -1 and 1. -/
theorem isReal_tanh (a : EReal) : IsReal (Idealize.ShloMosaic.Ideal.tanh a) := by
  induction a using EReal.rec with
  | bot => exact ⟨-1, rfl⟩
  | coe r => exact ⟨Real.tanh r, rfl⟩
  | top => exact ⟨1, rfl⟩

/-- Clipping any extended real to a real interval gives a finite value: -∞ goes to min hi lo, +∞ to hi,
    and a real r to min hi (max lo r). -/
theorem isReal_clip (lo hi : ℝ) (a : EReal) : IsReal (min (hi : EReal) (max (lo : EReal) a)) := by
  induction a using EReal.rec with
  | bot =>
    refine ⟨min hi lo, ?_⟩
    rw [max_eq_left bot_le]
    exact (EReal.coe_strictMono.monotone.map_min).symm
  | coe r =>
    refine ⟨min hi (max lo r), ?_⟩
    have h1 : ((max lo r : ℝ) : EReal) = max (lo : EReal) (r : EReal) :=
      EReal.coe_strictMono.monotone.map_max
    have h2 : ((min hi (max lo r) : ℝ) : EReal) = min (hi : EReal) ((max lo r : ℝ) : EReal) :=
      EReal.coe_strictMono.monotone.map_min
    rw [h2, h1]
  | top =>
    refine ⟨hi, ?_⟩
    rw [max_eq_right le_top, min_eq_left le_top]

/-- A value whose absolute value max a (-a) is below +∞ is finite: the absolute value of either infinity
    is +∞. -/
theorem isReal_of_abs_lt_top {a : EReal} (h : max a (-a) < ⊤) : IsReal a := by
  induction a using EReal.rec with
  | bot =>
    rw [EReal.neg_bot, max_eq_right bot_le] at h
    exact absurd h (lt_irrefl _)
  | coe r => exact ⟨r, rfl⟩
  | top =>
    rw [max_eq_left le_top] at h
    exact absurd h (lt_irrefl _)

/-- The image of a finite real sum is the sum of the images. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of finite values is the image of a family of reals. -/
private theorem exists_real_fun {n : ℕ} (z : Fin n → EReal) (hz : ∀ j, IsReal (z j)) :
    ∃ z' : Fin n → ℝ, z = fun j => (z' j : EReal) := by
  choose z' hz' using hz
  exact ⟨z', funext hz'⟩

/-- A rotation step commutes with a linear combination: for finite coefficients P, Q, finite rows zl, zr and a
    finite vector x,  P · (Σ zl j · x j) + Q · (Σ zr j · x j) = Σ (P · zl j + Q · zr j) · x j.
    Both sides are images of the same real number, by distributivity in the reals. -/
theorem step {n : ℕ} (P Q : EReal) (zl zr x : Fin n → EReal) (hP : IsReal P) (hQ : IsReal Q)
    (hzl : ∀ j, IsReal (zl j)) (hzr : ∀ j, IsReal (zr j)) (hx : ∀ j, IsReal (x j)) :
    P * (∑ j, zl j * x j) + Q * (∑ j, zr j * x j) = ∑ j, (P * zl j + Q * zr j) * x j := by
  obtain ⟨p, rfl⟩ := hP
  obtain ⟨q, rfl⟩ := hQ
  obtain ⟨zl', rfl⟩ := exists_real_fun zl hzl
  obtain ⟨zr', rfl⟩ := exists_real_fun zr hzr
  obtain ⟨x', rfl⟩ := exists_real_fun x hx
  simp only [← EReal.coe_mul, ← EReal.coe_add, ← coe_sum]
  congr 1
  rw [Finset.mul_sum, Finset.mul_sum, ← Finset.sum_add_distrib]
  exact Finset.sum_congr rfl (fun j _ => by ring)

/-- A scaling commutes with a linear combination: for a finite factor d, a finite row z and a finite vector x,
    (Σ z j · x j) · d = Σ (d · z j) · x j. -/
theorem scale {n : ℕ} (d : EReal) (z x : Fin n → EReal) (hd : IsReal d) (hz : ∀ j, IsReal (z j))
    (hx : ∀ j, IsReal (x j)) :
    (∑ j, z j * x j) * d = ∑ j, (d * z j) * x j := by
  obtain ⟨d', rfl⟩ := hd
  obtain ⟨z', rfl⟩ := exists_real_fun z hz
  obtain ⟨x', rfl⟩ := exists_real_fun x hx
  simp only [← EReal.coe_mul, ← coe_sum]
  congr 1
  rw [Finset.sum_mul]
  exact Finset.sum_congr rfl (fun j _ => by ring)

/-- A 0/1 indicator row picks one entry: if e j is 1 at j = i and 0 elsewhere, then Σ e j · x j = x i. This holds
    for EVERY vector x of extended reals, infinite entries included, because 0 · v = 0 for every extended real v
    (also for the infinities) and 1 · v = v. -/
theorem unit_sum {n : ℕ} (i : Fin n) (e x : Fin n → EReal) (he : ∀ j, e j = if i = j then 1 else 0) :
    ∑ j, e j * x j = x i := by
  have h : ∀ j, e j * x j = if i = j then x j else 0 := by
    intro j
    rw [he j]
    split_ifs
    · exact one_mul _
    · exact zero_mul _
  rw [Finset.sum_congr rfl (fun j _ => h j), Finset.sum_ite_eq]
  simp

end LinComb
-- ==== Proof.RealOps.lean ====
import Idealize.ShloMosaic.PureOps.Ideal
import proofs.«163235_j22531398435254_2_alg».proof.Proof.LibLinComb

/-!
# Finite values under the host chain's operations

The reference computes its logits from finite inputs by matrix products, sums of squares, square roots,
maxima with a positive floor, quotients, exponentials and scalings by literals. Each of these keeps a value
finite (the image of a real number) under the side condition stated with it; the literals themselves are
finite, and the floor is positive.
-/

noncomputable section

namespace Cert.Bridge

open LinComb Idealize.ShloMosaic

/-! ## Operations that keep a value finite -/

/-- The difference of two finite values is finite: it is the image of the real difference. -/
theorem isReal_sub {a b : EReal} (ha : IsReal a) (hb : IsReal b) : IsReal (a - b) := by
  obtain ⟨r, rfl⟩ := ha
  obtain ⟨s, rfl⟩ := hb
  exact ⟨r - s, (EReal.coe_sub r s).symm⟩

/-- The larger of two finite values is finite: the embedding of the reals is monotone, so it commutes
    with taking the larger. -/
theorem isReal_max {a b : EReal} (ha : IsReal a) (hb : IsReal b) : IsReal (max a b) := by
  obtain ⟨r, rfl⟩ := ha
  obtain ⟨s, rfl⟩ := hb
  exact ⟨max r s, (EReal.coe_strictMono.monotone.map_max).symm⟩

/-- The exponential of a finite value is finite: it is the image of the real exponential. -/
theorem isReal_exp {a : EReal} (ha : IsReal a) : IsReal (Ideal.exp a) := by
  obtain ⟨r, rfl⟩ := ha
  exact ⟨Real.exp r, rfl⟩

/-- The square root of a finite nonnegative value is finite: it is the image of the real square root. -/
theorem isReal_sqrt {a : EReal} (ha : IsReal a) (h0 : 0 ≤ a) : IsReal (Ideal.sqrt a) := by
  obtain ⟨r, rfl⟩ := ha
  have hr : 0 ≤ r := EReal.coe_nonneg.mp h0
  rw [Ideal.sqrt_coe, if_neg (not_lt.mpr hr)]
  exact ⟨Real.sqrt r, rfl⟩

/-- The quotient of a finite value by a finite nonzero value is finite: it is the product with the
    reciprocal, taken in the reals. -/
theorem isReal_div {a b : EReal} (ha : IsReal a) (hb : IsReal b) (hb0 : b ≠ 0) : IsReal (Ideal.div a b) := by
  obtain ⟨r, rfl⟩ := ha
  obtain ⟨s, rfl⟩ := hb
  have hs : s ≠ 0 := EReal.coe_ne_zero.mp hb0
  rw [Ideal.div_coe hs]
  exact ⟨r * (1 / s), (EReal.coe_mul r (1 / s)).symm⟩

/-- A finite sum, over any finite index type, of finite values is finite. -/
theorem isReal_finsum {ι : Type*} [Fintype ι] (f : ι → EReal) (hf : ∀ k, IsReal (f k)) : IsReal (∑ k, f k) :=
  Finset.sum_induction f IsReal (fun _ _ ha hb => ha.add hb) isReal_zero (fun k _ => hf k)

/-- A dot product of two finite vectors is finite. -/
theorem isReal_dot {n : ℕ} (l r : Fin n → EReal) (hl : ∀ k, IsReal (l k)) (hr : ∀ k, IsReal (r k)) :
    IsReal (∑ k, l k * r k) :=
  isReal_sum (fun k => l k * r k) (fun k => (hl k).mul (hr k))

/-- The same over any finite index type. -/
theorem isReal_dot_fintype {ι : Type*} [Fintype ι] (l r : ι → EReal) (hl : ∀ k, IsReal (l k))
    (hr : ∀ k, IsReal (r k)) : IsReal (∑ k, l k * r k) :=
  isReal_finsum (fun k => l k * r k) (fun k => (hl k).mul (hr k))

/-- A finite starting value plus a finite sum of finite values is finite. -/
theorem isReal_sum_init {n : ℕ} (z : EReal) (f : Fin n → EReal) (hz : IsReal z) (hf : ∀ k, IsReal (f k)) :
    IsReal (z + ∑ k, f k) :=
  hz.add (isReal_sum f hf)

/-- The same over any finite index type. -/
theorem isReal_sum_init_fintype {ι : Type*} [Fintype ι] (z : EReal) (f : ι → EReal) (hz : IsReal z)
    (hf : ∀ k, IsReal (f k)) : IsReal (z + ∑ k, f k) :=
  hz.add (isReal_finsum f hf)

/-- The square of a finite value is nonnegative: it is the image of a real square. -/
theorem mul_self_nonneg_of_isReal {a : EReal} (ha : IsReal a) : 0 ≤ a * a := by
  obtain ⟨r, rfl⟩ := ha
  rw [← EReal.coe_mul]
  exact EReal.coe_nonneg.mpr (mul_self_nonneg r)

/-- A sum of squares of finite values, started from zero, is nonnegative. -/
theorem sumsq_nonneg {n : ℕ} (z : EReal) (f : Fin n → EReal) (hz : z = 0) (hf : ∀ k, IsReal (f k)) :
    0 ≤ z + ∑ k, f k * f k := by
  rw [hz, zero_add]
  exact Finset.sum_nonneg (fun k _ => mul_self_nonneg_of_isReal (hf k))

/-- The same over any finite index type. -/
theorem sumsq_nonneg_fintype {ι : Type*} [Fintype ι] (z : EReal) (f : ι → EReal) (hz : z = 0)
    (hf : ∀ k, IsReal (f k)) : 0 ≤ z + ∑ k, f k * f k := by
  rw [hz, zero_add]
  exact Finset.sum_nonneg (fun k _ => mul_self_nonneg_of_isReal (hf k))

/-- The larger of a positive value and anything is not zero. -/
theorem max_lit_ne_zero {c y : EReal} (hc : 0 < c) : max c y ≠ 0 :=
  (lt_of_lt_of_le hc (le_max_left c y)).ne'

/-! ## The single-precision words of the host chain, as real numbers

A single-precision word with sign 0, exponent field e (neither 0 nor 255) and fraction field f denotes
(2^23 + f) · 2^(e − 150). -/

/-- 0x3F7FBE77: e = 126, f = 8371831, so 16760439 / 2^24 (the number nearest 0.999). -/
theorem ofBits_0999 : Ideal.ofBits .f32 0x3F7FBE77#32 = ((16760439 / 16777216 : ℝ) : EReal) := by
  simp [Ideal.ofBits, Ideal.ieee, -EReal.coe_mul]; norm_num

/-- 0x3A83126F: e = 117, f = 201327, so 8589935 / 2^33 (the number nearest 0.001). -/
theorem ofBits_0001 : Ideal.ofBits .f32 0x3A83126F#32 = ((8589935 / 8589934592 : ℝ) : EReal) := by
  simp [Ideal.ofBits, Ideal.ieee, -EReal.coe_mul]; norm_num

/-- 0x3F000000: e = 126, f = 0, so 2^23 / 2^24 = 1/2. -/
theorem ofBits_half : Ideal.ofBits .f32 0x3F000000#32 = ((1 / 2 : ℝ) : EReal) := by
  simp [Ideal.ofBits, Ideal.ieee, -EReal.coe_mul]; norm_num

/-- 0x3F800000: e = 127, f = 0, so 2^23 / 2^23 = 1. -/
theorem ofBits_one : Ideal.ofBits .f32 0x3F800000#32 = ((1 : ℝ) : EReal) := by
  simp [Ideal.ofBits, Ideal.ieee, -EReal.coe_mul]; norm_num

/-- The all-zero word denotes zero. -/
theorem ofBits_zero_eq : Ideal.ofBits .f32 0x00000000#32 = 0 := by
  simp [Ideal.ofBits, Ideal.ieee]

/-- 0x2B8CBCCC: e = 87, f = 834764, so 9223372 / 2^63 (the number nearest 10^-12). -/
theorem ofBits_floor : Ideal.ofBits .f32 0x2B8CBCCC#32 = ((9223372 / 9223372036854775808 : ℝ) : EReal) := by
  simp [Ideal.ofBits, Ideal.ieee, -EReal.coe_mul]; norm_num

theorem isReal_ofBits_0999 : IsReal (Ideal.ofBits .f32 0x3F7FBE77#32) := ⟨_, ofBits_0999⟩

theorem isReal_ofBits_0001 : IsReal (Ideal.ofBits .f32 0x3A83126F#32) := ⟨_, ofBits_0001⟩

theorem isReal_ofBits_half : IsReal (Ideal.ofBits .f32 0x3F000000#32) := ⟨_, ofBits_half⟩

theorem isReal_ofBits_one : IsReal (Ideal.ofBits .f32 0x3F800000#32) := ⟨_, ofBits_one⟩

theorem isReal_ofBits_zero : IsReal (Ideal.ofBits .f32 0x00000000#32) := by
  rw [ofBits_zero_eq]; exact isReal_zero

theorem isReal_ofBits_floor : IsReal (Ideal.ofBits .f32 0x2B8CBCCC#32) := ⟨_, ofBits_floor⟩

/-- The clip floor is a positive number. -/
theorem ofBits_floor_pos : 0 < Ideal.ofBits .f32 0x2B8CBCCC#32 := by
  rw [ofBits_floor]
  exact EReal.coe_pos.mpr (by norm_num)

end Cert.Bridge

end
-- ==== Proof.RealBase.lean ====
import proofs.«163235_j22531398435254_2_alg».proof.Proof.Chain
import proofs.«163235_j22531398435254_2_alg».proof.Proof.RealOps

/-!
# Finite argument arrays, and arrays joined along an axis

The hypothesis that every floating-point argument array holds only real numbers is a conjunction of thirteen
statements; each is named here. An array obtained by joining arrays along an axis takes every one of its
entries from one of the joined arrays, so it holds only real numbers when they all do.
-/

noncomputable section

namespace Cert.Bridge

open LinComb Idealize.ShloMosaic

/-- Every entry of the argument array `x0` is a real number. -/
theorem ax0 (A : Args) (hA : A.Real) : ∀ i, IsReal (A.x0 i) := hA.1
/-- Every entry of the argument array `x1` is a real number. -/
theorem ax1 (A : Args) (hA : A.Real) : ∀ i, IsReal (A.x1 i) := hA.2.1
/-- Every entry of the argument array `x3` is a real number. -/
theorem ax3 (A : Args) (hA : A.Real) : ∀ i, IsReal (A.x3 i) := hA.2.2.1
/-- Every entry of the argument array `x4` is a real number. -/
theorem ax4 (A : Args) (hA : A.Real) : ∀ i, IsReal (A.x4 i) := hA.2.2.2.1
/-- Every entry of the argument array `x5` is a real number. -/
theorem ax5 (A : Args) (hA : A.Real) : ∀ i, IsReal (A.x5 i) := hA.2.2.2.2.1
/-- Every entry of the argument array `x6` is a real number. -/
theorem ax6 (A : Args) (hA : A.Real) : ∀ i, IsReal (A.x6 i) := hA.2.2.2.2.2.1
/-- Every entry of the argument array `x7` is a real number. -/
theorem ax7 (A : Args) (hA : A.Real) : ∀ i, IsReal (A.x7 i) := hA.2.2.2.2.2.2.1
/-- Every entry of the argument array `x8` is a real number. -/
theorem ax8 (A : Args) (hA : A.Real) : ∀ i, IsReal (A.x8 i) := hA.2.2.2.2.2.2.2.1
/-- Every entry of the argument array `x9` is a real number. -/
theorem ax9 (A : Args) (hA : A.Real) : ∀ i, IsReal (A.x9 i) := hA.2.2.2.2.2.2.2.2.1
/-- Every entry of the argument array `x10` is a real number. -/
theorem ax10 (A : Args) (hA : A.Real) : ∀ i, IsReal (A.x10 i) := hA.2.2.2.2.2.2.2.2.2.1
/-- Every entry of the argument array `x11` is a real number. -/
theorem ax11 (A : Args) (hA : A.Real) : ∀ i, IsReal (A.x11 i) := hA.2.2.2.2.2.2.2.2.2.2.1
/-- Every entry of the argument array `x12` is a real number. -/
theorem ax12 (A : Args) (hA : A.Real) : ∀ i, IsReal (A.x12 i) := hA.2.2.2.2.2.2.2.2.2.2.2.1
/-- Every entry of the argument array `x13` is a real number. -/
theorem ax13 (A : Args) (hA : A.Real) : ∀ i, IsReal (A.x13 i) := hA.2.2.2.2.2.2.2.2.2.2.2.2

/-- Every entry of a join of arrays along an axis is an entry of one of the joined arrays; so if all of them
    hold only real numbers, so does the join. -/
theorem isReal_concatenate {t : Shape} (a : Fin t.rank) (xs : List ((s : Shape) × (s.Idx → EReal)))
    (h : Shape.Concatenates (xs.map (·.1)) t a) (hx : ∀ p ∈ xs, ∀ i, IsReal (p.2 i)) (j : t.Idx) :
    IsReal (concatenate t a xs h j) := by
  unfold concatenate
  exact hx _ (List.getElem_mem _) _

end Cert.Bridge

end
-- ==== Proof.RealQ.lean ====
import proofs.«163235_j22531398435254_2_alg».proof.Proof.RealBase

/-!
# The query side of the host chain holds only real numbers

From finite arguments, every stage that leads to the normalised query rows and to their logits against the queue
is finite: a matrix product of finite matrices is a finite sum of finite products; a row norm is the square root
of a finite nonnegative sum of squares; the divisor of a normalisation is the larger of that norm and a positive
floor, hence finite and not zero; the resampled features add a finite noise to an exponential of a finite value
times a finite value.
-/

noncomputable section

namespace Cert.Bridge

open LinComb Idealize.ShloMosaic Cert.ReferenceIdeal Cert.ReferenceIdeal.ReadP

/-! ## The encoded features and their projection -/

/-- An entry of a matrix product of two finite matrices is a finite sum of finite products. -/
theorem r_main_v0 (A : Args) (hA : A.Real) : ∀ i, IsReal (val_main_v0 (F := Ideal) A.x0 A.x5 i) := fun i => by
  rw [val_main_v0_apply]
  exact isReal_dot (fun k => A.x0 (lidx_main_v0 i k)) (fun k => A.x5 (ridx_main_v0 i k)) (fun _ => (ax0 A hA) _) (fun _ => (ax5 A hA) _)

/-- An entry of a matrix product of two finite matrices is a finite sum of finite products. -/
theorem r_main_v1 (A : Args) (hA : A.Real) : ∀ i, IsReal (val_main_v1 (F := Ideal) A.x0 A.x5 A.x6 i) := fun i => by
  rw [val_main_v1_apply]
  exact isReal_dot (fun k => (val_main_v0 (F := Ideal) A.x0 A.x5) (lidx_main_v1 i k)) (fun k => A.x6 (ridx_main_v1 i k)) (fun _ => (r_main_v0 A hA) _) (fun _ => (ax6 A hA) _)

/-! ## Normalising the projected rows -/

/-- An entrywise product of finite arrays is finite. -/
theorem r_main_call0_v0 (A : Args) (hA : A.Real) : ∀ i, IsReal (val_main_call0_v0 (F := Ideal) A.x0 A.x5 A.x6 i) := fun i => by
  rw [val_main_call0_v0_apply]
  exact ((r_main_v1 A hA) i).mul ((r_main_v1 A hA) i)

/-- A row's sum of squares, started from zero, is finite … -/
theorem r_main_call0_v1 (A : Args) (hA : A.Real) : ∀ i, IsReal (val_main_call0_v1 (F := Ideal) A.x0 A.x5 A.x6 i) := fun i => by
  rw [val_main_call0_v1_apply]
  exact isReal_sum_init _ (fun k => (val_main_call0_v0 (F := Ideal) A.x0 A.x5 A.x6) (idx_main_call0_v1 i k)) isReal_ofBits_zero (fun _ => (r_main_call0_v0 A hA) _)
/-- … and nonnegative. -/
theorem nn_main_call0_v1 (A : Args) (hA : A.Real) : ∀ i, 0 ≤ val_main_call0_v1 (F := Ideal) A.x0 A.x5 A.x6 i := fun i => by
  rw [val_main_call0_v1_apply]
  exact sumsq_nonneg _ (fun k => (val_main_v1 (F := Ideal) A.x0 A.x5 A.x6) (idx_main_call0_v1 i k)) ofBits_zero_eq (fun _ => (r_main_v1 A hA) _)

/-- Every entry of a broadcast is an entry of the array it repeats. -/
theorem r_main_call0_v2 (A : Args) (hA : A.Real) : ∀ i, IsReal (val_main_call0_v2 (F := Ideal) A.x0 A.x5 A.x6 i) := fun i => by
  rw [val_main_call0_v2_apply]
  exact (r_main_call0_v1 A hA) _
/-- It is nonnegative because the array it repeats is. -/
theorem nn_main_call0_v2 (A : Args) (hA : A.Real) : ∀ i, 0 ≤ val_main_call0_v2 (F := Ideal) A.x0 A.x5 A.x6 i := fun i => by
  rw [val_main_call0_v2_apply]
  exact nn_main_call0_v1 A hA _

/-- The square root of a finite nonnegative array is finite. -/
theorem r_main_v2 (A : Args) (hA : A.Real) : ∀ i, IsReal (val_main_v2 (F := Ideal) A.x0 A.x5 A.x6 i) := fun i => by
  rw [val_main_v2_apply]
  exact isReal_sqrt ((r_main_call0_v2 A hA) i) (nn_main_call0_v2 A hA i)

/-- The floor of the norm, repeated along the rows, is finite … -/
theorem r_main_call1_v1 (A : Args) (hA : A.Real) : ∀ i, IsReal (val_main_call1_v1 (F := Ideal) i) := fun i => by
  rw [val_main_call1_v1_apply, val_main_call1_v0_apply, val_main_cst_apply]
  exact isReal_ofBits_floor
/-- … and positive. -/
theorem pos_main_call1_v1 (A : Args) (hA : A.Real) : ∀ i, 0 < val_main_call1_v1 (F := Ideal) i := fun i => by
  rw [val_main_call1_v1_apply, val_main_call1_v0_apply, val_main_cst_apply]
  exact ofBits_floor_pos

/-- The larger of the floor and the norm is finite … -/
theorem r_main_v3 (A : Args) (hA : A.Real) : ∀ i, IsReal (val_main_v3 (F := Ideal) A.x0 A.x5 A.x6 i) := fun i => by
  rw [val_main_v3_apply]
  exact isReal_max ((r_main_call1_v1 A hA) i) ((r_main_v2 A hA) i)
/-- … and, being at least the positive floor, not zero. -/
theorem ne_main_v3 (A : Args) (hA : A.Real) : ∀ i, val_main_v3 (F := Ideal) A.x0 A.x5 A.x6 i ≠ 0 := fun i => by
  rw [val_main_v3_apply]
  exact max_lit_ne_zero (pos_main_call1_v1 A hA i)

/-- Every entry of a broadcast is an entry of the array it repeats. -/
theorem r_main_v4 (A : Args) (hA : A.Real) : ∀ i, IsReal (val_main_v4 (F := Ideal) A.x0 A.x5 A.x6 i) := fun i => by
  rw [val_main_v4_apply]
  exact (r_main_v3 A hA) _
/-- It is nowhere zero because the array it repeats is nowhere zero. -/
theorem ne_main_v4 (A : Args) (hA : A.Real) : ∀ i, val_main_v4 (F := Ideal) A.x0 A.x5 A.x6 i ≠ 0 := fun i => by
  rw [val_main_v4_apply]
  exact ne_main_v3 A hA _

/-- A finite array divided entrywise by a finite array that is nowhere zero is finite. -/
theorem r_main_v5 (A : Args) (hA : A.Real) : ∀ i, IsReal (val_main_v5 (F := Ideal) A.x0 A.x5 A.x6 i) := fun i => by
  rw [val_main_v5_apply]
  exact isReal_div ((r_main_v1 A hA) i) ((r_main_v4 A hA) i) (ne_main_v4 A hA i)

/-! ## The resampled features: noise plus exp(half the log-variance) times the mean -/

/-- An entry of a matrix product of two finite matrices is a finite sum of finite products. -/
theorem r_main_v22 (A : Args) (hA : A.Real) : ∀ i, IsReal (val_main_v22 (F := Ideal) A.x0 A.x5 A.x9 i) := fun i => by
  rw [val_main_v22_apply]
  exact isReal_dot (fun k => (val_main_v0 (F := Ideal) A.x0 A.x5) (lidx_main_v22 i k)) (fun k => A.x9 (ridx_main_v22 i k)) (fun _ => (r_main_v0 A hA) _) (fun _ => (ax9 A hA) _)

/-- Every entry of a broadcast is an entry of the array it repeats. -/
theorem r_main_v23 (A : Args) (hA : A.Real) : ∀ i, IsReal (val_main_v23 (F := Ideal) A.x10 i) := fun i => by
  rw [val_main_v23_apply]
  exact (ax10 A hA) _

/-- Every entry of a broadcast is an entry of the array it repeats. -/
theorem r_main_v24 (A : Args) (hA : A.Real) : ∀ i, IsReal (val_main_v24 (F := Ideal) A.x10 i) := fun i => by
  rw [val_main_v24_apply]
  exact (r_main_v23 A hA) _

/-- An entrywise sum of finite arrays is finite. -/
theorem r_main_v25 (A : Args) (hA : A.Real) : ∀ i, IsReal (val_main_v25 (F := Ideal) A.x0 A.x5 A.x9 A.x10 i) := fun i => by
  rw [val_main_v25_apply]
  exact ((r_main_v22 A hA) i).add ((r_main_v24 A hA) i)

/-- An entry of a matrix product of two finite matrices is a finite sum of finite products. -/
theorem r_main_v26 (A : Args) (hA : A.Real) : ∀ i, IsReal (val_main_v26 (F := Ideal) A.x0 A.x5 A.x11 i) := fun i => by
  rw [val_main_v26_apply]
  exact isReal_dot (fun k => (val_main_v0 (F := Ideal) A.x0 A.x5) (lidx_main_v26 i k)) (fun k => A.x11 (ridx_main_v26 i k)) (fun _ => (r_main_v0 A hA) _) (fun _ => (ax11 A hA) _)

/-- Every entry of a broadcast is an entry of the array it repeats. -/
theorem r_main_v27 (A : Args) (hA : A.Real) : ∀ i, IsReal (val_main_v27 (F := Ideal) A.x12 i) := fun i => by
  rw [val_main_v27_apply]
  exact (ax12 A hA) _

/-- Every entry of a broadcast is an entry of the array it repeats. -/
theorem r_main_v28 (A : Args) (hA : A.Real) : ∀ i, IsReal (val_main_v28 (F := Ideal) A.x12 i) := fun i => by
  rw [val_main_v28_apply]
  exact (r_main_v27 A hA) _

/-- An entrywise sum of finite arrays is finite. -/
theorem r_main_v29 (A : Args) (hA : A.Real) : ∀ i, IsReal (val_main_v29 (F := Ideal) A.x0 A.x5 A.x11 A.x12 i) := fun i => by
  rw [val_main_v29_apply]
  exact ((r_main_v26 A hA) i).add ((r_main_v28 A hA) i)

/-- An array filled with a finite literal is finite. -/
theorem r_main_v30 (A : Args) (hA : A.Real) : ∀ i, IsReal (val_main_v30 (F := Ideal) i) := fun i => by
  rw [val_main_v30_apply, val_main_cst_5_apply]
  exact isReal_ofBits_half

/-- An entrywise product of finite arrays is finite. -/
theorem r_main_v31 (A : Args) (hA : A.Real) : ∀ i, IsReal (val_main_v31 (F := Ideal) A.x0 A.x5 A.x11 A.x12 i) := fun i => by
  rw [val_main_v31_apply]
  exact ((r_main_v30 A hA) i).mul ((r_main_v29 A hA) i)

/-- The exponential of a finite array is finite. -/
theorem r_main_v32 (A : Args) (hA : A.Real) : ∀ i, IsReal (val_main_v32 (F := Ideal) A.x0 A.x5 A.x11 A.x12 i) := fun i => by
  rw [val_main_v32_apply]
  exact isReal_exp ((r_main_v31 A hA) i)

/-- An entrywise product of finite arrays is finite. -/
theorem r_main_v33 (A : Args) (hA : A.Real) : ∀ i, IsReal (val_main_v33 (F := Ideal) A.x0 A.x5 A.x9 A.x10 A.x11 A.x12 i) := fun i => by
  rw [val_main_v33_apply]
  exact ((r_main_v32 A hA) i).mul ((r_main_v25 A hA) i)

/-- An entrywise sum of finite arrays is finite. -/
theorem r_main_v34 (A : Args) (hA : A.Real) : ∀ i, IsReal (val_main_v34 (F := Ideal) A.x0 A.x3 A.x5 A.x9 A.x10 A.x11 A.x12 i) := fun i => by
  rw [val_main_v34_apply]
  exact ((ax3 A hA) i).add ((r_main_v33 A hA) i)

/-! ## Their projection, normalised -/

/-- An entry of a matrix product of two finite matrices is a finite sum of finite products. -/
theorem r_main_v47 (A : Args) (hA : A.Real) : ∀ i, IsReal (val_main_v47 (F := Ideal) A.x0 A.x3 A.x5 A.x6 A.x9 A.x10 A.x11 A.x12 i) := fun i => by
  rw [val_main_v47_apply]
  exact isReal_dot (fun k => (val_main_v34 (F := Ideal) A.x0 A.x3 A.x5 A.x9 A.x10 A.x11 A.x12) (lidx_main_v47 i k)) (fun k => A.x6 (ridx_main_v47 i k)) (fun _ => (r_main_v34 A hA) _) (fun _ => (ax6 A hA) _)

/-- An entrywise product of finite arrays is finite. -/
theorem r_main_call4_v0 (A : Args) (hA : A.Real) : ∀ i, IsReal (val_main_call4_v0 (F := Ideal) A.x0 A.x3 A.x5 A.x6 A.x9 A.x10 A.x11 A.x12 i) := fun i => by
  rw [val_main_call4_v0_apply]
  exact ((r_main_v47 A hA) i).mul ((r_main_v47 A hA) i)

/-- A row's sum of squares, started from zero, is finite … -/
theorem r_main_call4_v1 (A : Args) (hA : A.Real) : ∀ i, IsReal (val_main_call4_v1 (F := Ideal) A.x0 A.x3 A.x5 A.x6 A.x9 A.x10 A.x11 A.x12 i) := fun i => by
  rw [val_main_call4_v1_apply]
  exact isReal_sum_init _ (fun k => (val_main_call4_v0 (F := Ideal) A.x0 A.x3 A.x5 A.x6 A.x9 A.x10 A.x11 A.x12) (idx_main_call4_v1 i k)) isReal_ofBits_zero (fun _ => (r_main_call4_v0 A hA) _)
/-- … and nonnegative. -/
theorem nn_main_call4_v1 (A : Args) (hA : A.Real) : ∀ i, 0 ≤ val_main_call4_v1 (F := Ideal) A.x0 A.x3 A.x5 A.x6 A.x9 A.x10 A.x11 A.x12 i := fun i => by
  rw [val_main_call4_v1_apply]
  exact sumsq_nonneg _ (fun k => (val_main_v47 (F := Ideal) A.x0 A.x3 A.x5 A.x6 A.x9 A.x10 A.x11 A.x12) (idx_main_call4_v1 i k)) ofBits_zero_eq (fun _ => (r_main_v47 A hA) _)

/-- Every entry of a broadcast is an entry of the array it repeats. -/
theorem r_main_call4_v2 (A : Args) (hA : A.Real) : ∀ i, IsReal (val_main_call4_v2 (F := Ideal) A.x0 A.x3 A.x5 A.x6 A.x9 A.x10 A.x11 A.x12 i) := fun i => by
  rw [val_main_call4_v2_apply]
  exact (r_main_call4_v1 A hA) _
/-- It is nonnegative because the array it repeats is. -/
theorem nn_main_call4_v2 (A : Args) (hA : A.Real) : ∀ i, 0 ≤ val_main_call4_v2 (F := Ideal) A.x0 A.x3 A.x5 A.x6 A.x9 A.x10 A.x11 A.x12 i := fun i => by
  rw [val_main_call4_v2_apply]
  exact nn_main_call4_v1 A hA _

/-- The square root of a finite nonnegative array is finite. -/
theorem r_main_v48 (A : Args) (hA : A.Real) : ∀ i, IsReal (val_main_v48 (F := Ideal) A.x0 A.x3 A.x5 A.x6 A.x9 A.x10 A.x11 A.x12 i) := fun i => by
  rw [val_main_v48_apply]
  exact isReal_sqrt ((r_main_call4_v2 A hA) i) (nn_main_call4_v2 A hA i)

/-- The floor of the norm, repeated along the rows, is finite … -/
theorem r_main_call5_v1 (A : Args) (hA : A.Real) : ∀ i, IsReal (val_main_call5_v1 (F := Ideal) i) := fun i => by
  rw [val_main_call5_v1_apply, val_main_call5_v0_apply, val_main_cst_11_apply]
  exact isReal_ofBits_floor
/-- … and positive. -/
theorem pos_main_call5_v1 (A : Args) (hA : A.Real) : ∀ i, 0 < val_main_call5_v1 (F := Ideal) i := fun i => by
  rw [val_main_call5_v1_apply, val_main_call5_v0_apply, val_main_cst_11_apply]
  exact ofBits_floor_pos

/-- The larger of the floor and the norm is finite … -/
theorem r_main_v49 (A : Args) (hA : A.Real) : ∀ i, IsReal (val_main_v49 (F := Ideal) A.x0 A.x3 A.x5 A.x6 A.x9 A.x10 A.x11 A.x12 i) := fun i => by
  rw [val_main_v49_apply]
  exact isReal_max ((r_main_call5_v1 A hA) i) ((r_main_v48 A hA) i)
/-- … and, being at least the positive floor, not zero. -/
theorem ne_main_v49 (A : Args) (hA : A.Real) : ∀ i, val_main_v49 (F := Ideal) A.x0 A.x3 A.x5 A.x6 A.x9 A.x10 A.x11 A.x12 i ≠ 0 := fun i => by
  rw [val_main_v49_apply]
  exact max_lit_ne_zero (pos_main_call5_v1 A hA i)

/-- Every entry of a broadcast is an entry of the array it repeats. -/
theorem r_main_v50 (A : Args) (hA : A.Real) : ∀ i, IsReal (val_main_v50 (F := Ideal) A.x0 A.x3 A.x5 A.x6 A.x9 A.x10 A.x11 A.x12 i) := fun i => by
  rw [val_main_v50_apply]
  exact (r_main_v49 A hA) _
/-- It is nowhere zero because the array it repeats is nowhere zero. -/
theorem ne_main_v50 (A : Args) (hA : A.Real) : ∀ i, val_main_v50 (F := Ideal) A.x0 A.x3 A.x5 A.x6 A.x9 A.x10 A.x11 A.x12 i ≠ 0 := fun i => by
  rw [val_main_v50_apply]
  exact ne_main_v49 A hA _

/-- A finite array divided entrywise by a finite array that is nowhere zero is finite. -/
theorem r_main_v51 (A : Args) (hA : A.Real) : ∀ i, IsReal (val_main_v51 (F := Ideal) A.x0 A.x3 A.x5 A.x6 A.x9 A.x10 A.x11 A.x12 i) := fun i => by
  rw [val_main_v51_apply]
  exact isReal_div ((r_main_v47 A hA) i) ((r_main_v50 A hA) i) (ne_main_v50 A hA i)

/-! ## All query rows, and their logits against the queue -/

/-- Two finite arrays stacked along the rows form a finite array. -/
theorem r_main_v82 (A : Args) (hA : A.Real) : ∀ i, IsReal (val_main_v82 (F := Ideal) A.x0 A.x3 A.x5 A.x6 A.x9 A.x10 A.x11 A.x12 i) := fun i => by
  unfold val_main_v82
  refine isReal_concatenate _ _ _ (fun p hp => ?_) i
  rcases List.mem_cons.1 hp with rfl | hp
  · exact (r_main_v5 A hA)
  rcases List.mem_cons.1 hp with rfl | hp
  · exact (r_main_v51 A hA)
  cases hp

/-- An entry of a matrix product of two finite matrices is a finite sum of finite products. -/
theorem r_main_v88 (A : Args) (hA : A.Real) : ∀ i, IsReal (val_main_v88 (F := Ideal) A.x0 A.x3 A.x5 A.x6 A.x9 A.x10 A.x11 A.x12 A.x13 i) := fun i => by
  rw [val_main_v88_apply]
  exact isReal_dot (fun k => (val_main_v82 (F := Ideal) A.x0 A.x3 A.x5 A.x6 A.x9 A.x10 A.x11 A.x12) (lidx_main_v88 i k)) (fun k => A.x13 (ridx_main_v88 i k)) (fun _ => (r_main_v82 A hA) _) (fun _ => (ax13 A hA) _)

end Cert.Bridge

end
-- ==== Proof.RealK.lean ====
import proofs.«163235_j22531398435254_2_alg».proof.Proof.RealBase

/-!
# The key side of the host chain holds only real numbers

The key encoder's weights are a blend, with finite literal coefficients, of two finite weight matrices, so they are
finite; from there the key rows are finite stage by stage exactly as the query rows are: finite matrix products,
a row norm that is the square root of a finite nonnegative sum of squares, a divisor that is at least a positive
floor, and resampled features that add a finite noise to a finite product.
-/

noncomputable section

namespace Cert.Bridge

open LinComb Idealize.ShloMosaic Cert.ReferenceIdeal Cert.ReferenceIdeal.ReadP

/-! ## The key encoder's weights: a blend of two finite matrices with finite literal coefficients -/

/-- An array filled with a finite literal is finite. -/
theorem r_main_v6 (A : Args) (hA : A.Real) : ∀ i, IsReal (val_main_v6 (F := Ideal) i) := fun i => by
  rw [val_main_v6_apply, val_main_cst_0_apply]
  exact isReal_ofBits_0999

/-- An entrywise product of finite arrays is finite. -/
theorem r_main_v7 (A : Args) (hA : A.Real) : ∀ i, IsReal (val_main_v7 (F := Ideal) A.x7 i) := fun i => by
  rw [val_main_v7_apply]
  exact ((r_main_v6 A hA) i).mul ((ax7 A hA) i)

/-- An array filled with a finite literal is finite. -/
theorem r_main_v8 (A : Args) (hA : A.Real) : ∀ i, IsReal (val_main_v8 (F := Ideal) i) := fun i => by
  rw [val_main_v8_apply, val_main_cst_1_apply]
  exact isReal_ofBits_0001

/-- An entrywise product of finite arrays is finite. -/
theorem r_main_v9 (A : Args) (hA : A.Real) : ∀ i, IsReal (val_main_v9 (F := Ideal) A.x5 i) := fun i => by
  rw [val_main_v9_apply]
  exact ((r_main_v8 A hA) i).mul ((ax5 A hA) i)

/-- An entrywise sum of finite arrays is finite. -/
theorem r_main_v10 (A : Args) (hA : A.Real) : ∀ i, IsReal (val_main_v10 (F := Ideal) A.x5 A.x7 i) := fun i => by
  rw [val_main_v10_apply]
  exact ((r_main_v7 A hA) i).add ((r_main_v9 A hA) i)

/-- An array filled with a finite literal is finite. -/
theorem r_main_v11 (A : Args) (hA : A.Real) : ∀ i, IsReal (val_main_v11 (F := Ideal) i) := fun i => by
  rw [val_main_v11_apply, val_main_cst_2_apply]
  exact isReal_ofBits_0999

/-- An entrywise product of finite arrays is finite. -/
theorem r_main_v12 (A : Args) (hA : A.Real) : ∀ i, IsReal (val_main_v12 (F := Ideal) A.x8 i) := fun i => by
  rw [val_main_v12_apply]
  exact ((r_main_v11 A hA) i).mul ((ax8 A hA) i)

/-- An array filled with a finite literal is finite. -/
theorem r_main_v13 (A : Args) (hA : A.Real) : ∀ i, IsReal (val_main_v13 (F := Ideal) i) := fun i => by
  rw [val_main_v13_apply, val_main_cst_3_apply]
  exact isReal_ofBits_0001

/-- An entrywise product of finite arrays is finite. -/
theorem r_main_v14 (A : Args) (hA : A.Real) : ∀ i, IsReal (val_main_v14 (F := Ideal) A.x6 i) := fun i => by
  rw [val_main_v14_apply]
  exact ((r_main_v13 A hA) i).mul ((ax6 A hA) i)

/-- An entrywise sum of finite arrays is finite. -/
theorem r_main_v15 (A : Args) (hA : A.Real) : ∀ i, IsReal (val_main_v15 (F := Ideal) A.x6 A.x8 i) := fun i => by
  rw [val_main_v15_apply]
  exact ((r_main_v12 A hA) i).add ((r_main_v14 A hA) i)

/-! ## The encoded features and their projection -/

/-- An entry of a matrix product of two finite matrices is a finite sum of finite products. -/
theorem r_main_v16 (A : Args) (hA : A.Real) : ∀ i, IsReal (val_main_v16 (F := Ideal) A.x1 A.x5 A.x7 i) := fun i => by
  rw [val_main_v16_apply]
  exact isReal_dot (fun k => A.x1 (lidx_main_v16 i k)) (fun k => (val_main_v10 (F := Ideal) A.x5 A.x7) (ridx_main_v16 i k)) (fun _ => (ax1 A hA) _) (fun _ => (r_main_v10 A hA) _)

/-- An entry of a matrix product of two finite matrices is a finite sum of finite products. -/
theorem r_main_v17 (A : Args) (hA : A.Real) : ∀ i, IsReal (val_main_v17 (F := Ideal) A.x1 A.x5 A.x6 A.x7 A.x8 i) := fun i => by
  rw [val_main_v17_apply]
  exact isReal_dot (fun k => (val_main_v16 (F := Ideal) A.x1 A.x5 A.x7) (lidx_main_v17 i k)) (fun k => (val_main_v15 (F := Ideal) A.x6 A.x8) (ridx_main_v17 i k)) (fun _ => (r_main_v16 A hA) _) (fun _ => (r_main_v15 A hA) _)

/-! ## Normalising the projected rows -/

/-- An entrywise product of finite arrays is finite. -/
theorem r_main_call2_v0 (A : Args) (hA : A.Real) : ∀ i, IsReal (val_main_call2_v0 (F := Ideal) A.x1 A.x5 A.x6 A.x7 A.x8 i) := fun i => by
  rw [val_main_call2_v0_apply]
  exact ((r_main_v17 A hA) i).mul ((r_main_v17 A hA) i)

/-- A row's sum of squares, started from zero, is finite … -/
theorem r_main_call2_v1 (A : Args) (hA : A.Real) : ∀ i, IsReal (val_main_call2_v1 (F := Ideal) A.x1 A.x5 A.x6 A.x7 A.x8 i) := fun i => by
  rw [val_main_call2_v1_apply]
  exact isReal_sum_init _ (fun k => (val_main_call2_v0 (F := Ideal) A.x1 A.x5 A.x6 A.x7 A.x8) (idx_main_call2_v1 i k)) isReal_ofBits_zero (fun _ => (r_main_call2_v0 A hA) _)
/-- … and nonnegative. -/
theorem nn_main_call2_v1 (A : Args) (hA : A.Real) : ∀ i, 0 ≤ val_main_call2_v1 (F := Ideal) A.x1 A.x5 A.x6 A.x7 A.x8 i := fun i => by
  rw [val_main_call2_v1_apply]
  exact sumsq_nonneg _ (fun k => (val_main_v17 (F := Ideal) A.x1 A.x5 A.x6 A.x7 A.x8) (idx_main_call2_v1 i k)) ofBits_zero_eq (fun _ => (r_main_v17 A hA) _)

/-- Every entry of a broadcast is an entry of the array it repeats. -/
theorem r_main_call2_v2 (A : Args) (hA : A.Real) : ∀ i, IsReal (val_main_call2_v2 (F := Ideal) A.x1 A.x5 A.x6 A.x7 A.x8 i) := fun i => by
  rw [val_main_call2_v2_apply]
  exact (r_main_call2_v1 A hA) _
/-- It is nonnegative because the array it repeats is. -/
theorem nn_main_call2_v2 (A : Args) (hA : A.Real) : ∀ i, 0 ≤ val_main_call2_v2 (F := Ideal) A.x1 A.x5 A.x6 A.x7 A.x8 i := fun i => by
  rw [val_main_call2_v2_apply]
  exact nn_main_call2_v1 A hA _

/-- The square root of a finite nonnegative array is finite. -/
theorem r_main_v18 (A : Args) (hA : A.Real) : ∀ i, IsReal (val_main_v18 (F := Ideal) A.x1 A.x5 A.x6 A.x7 A.x8 i) := fun i => by
  rw [val_main_v18_apply]
  exact isReal_sqrt ((r_main_call2_v2 A hA) i) (nn_main_call2_v2 A hA i)

/-- The floor of the norm, repeated along the rows, is finite … -/
theorem r_main_call3_v1 (A : Args) (hA : A.Real) : ∀ i, IsReal (val_main_call3_v1 (F := Ideal) i) := fun i => by
  rw [val_main_call3_v1_apply, val_main_call3_v0_apply, val_main_cst_4_apply]
  exact isReal_ofBits_floor
/-- … and positive. -/
theorem pos_main_call3_v1 (A : Args) (hA : A.Real) : ∀ i, 0 < val_main_call3_v1 (F := Ideal) i := fun i => by
  rw [val_main_call3_v1_apply, val_main_call3_v0_apply, val_main_cst_4_apply]
  exact ofBits_floor_pos

/-- The larger of the floor and the norm is finite … -/
theorem r_main_v19 (A : Args) (hA : A.Real) : ∀ i, IsReal (val_main_v19 (F := Ideal) A.x1 A.x5 A.x6 A.x7 A.x8 i) := fun i => by
  rw [val_main_v19_apply]
  exact isReal_max ((r_main_call3_v1 A hA) i) ((r_main_v18 A hA) i)
/-- … and, being at least the positive floor, not zero. -/
theorem ne_main_v19 (A : Args) (hA : A.Real) : ∀ i, val_main_v19 (F := Ideal) A.x1 A.x5 A.x6 A.x7 A.x8 i ≠ 0 := fun i => by
  rw [val_main_v19_apply]
  exact max_lit_ne_zero (pos_main_call3_v1 A hA i)

/-- Every entry of a broadcast is an entry of the array it repeats. -/
theorem r_main_v20 (A : Args) (hA : A.Real) : ∀ i, IsReal (val_main_v20 (F := Ideal) A.x1 A.x5 A.x6 A.x7 A.x8 i) := fun i => by
  rw [val_main_v20_apply]
  exact (r_main_v19 A hA) _
/-- It is nowhere zero because the array it repeats is nowhere zero. -/
theorem ne_main_v20 (A : Args) (hA : A.Real) : ∀ i, val_main_v20 (F := Ideal) A.x1 A.x5 A.x6 A.x7 A.x8 i ≠ 0 := fun i => by
  rw [val_main_v20_apply]
  exact ne_main_v19 A hA _

/-- A finite array divided entrywise by a finite array that is nowhere zero is finite. -/
theorem r_main_v21 (A : Args) (hA : A.Real) : ∀ i, IsReal (val_main_v21 (F := Ideal) A.x1 A.x5 A.x6 A.x7 A.x8 i) := fun i => by
  rw [val_main_v21_apply]
  exact isReal_div ((r_main_v17 A hA) i) ((r_main_v20 A hA) i) (ne_main_v20 A hA i)

/-! ## The resampled features: noise plus exp(half the log-variance) times the mean -/

/-- An entry of a matrix product of two finite matrices is a finite sum of finite products. -/
theorem r_main_v52 (A : Args) (hA : A.Real) : ∀ i, IsReal (val_main_v52 (F := Ideal) A.x1 A.x5 A.x7 A.x9 i) := fun i => by
  rw [val_main_v52_apply]
  exact isReal_dot (fun k => (val_main_v16 (F := Ideal) A.x1 A.x5 A.x7) (lidx_main_v52 i k)) (fun k => A.x9 (ridx_main_v52 i k)) (fun _ => (r_main_v16 A hA) _) (fun _ => (ax9 A hA) _)

/-- Every entry of a broadcast is an entry of the array it repeats. -/
theorem r_main_v53 (A : Args) (hA : A.Real) : ∀ i, IsReal (val_main_v53 (F := Ideal) A.x10 i) := fun i => by
  rw [val_main_v53_apply]
  exact (ax10 A hA) _

/-- Every entry of a broadcast is an entry of the array it repeats. -/
theorem r_main_v54 (A : Args) (hA : A.Real) : ∀ i, IsReal (val_main_v54 (F := Ideal) A.x10 i) := fun i => by
  rw [val_main_v54_apply]
  exact (r_main_v53 A hA) _

/-- An entrywise sum of finite arrays is finite. -/
theorem r_main_v55 (A : Args) (hA : A.Real) : ∀ i, IsReal (val_main_v55 (F := Ideal) A.x1 A.x5 A.x7 A.x9 A.x10 i) := fun i => by
  rw [val_main_v55_apply]
  exact ((r_main_v52 A hA) i).add ((r_main_v54 A hA) i)

/-- An entry of a matrix product of two finite matrices is a finite sum of finite products. -/
theorem r_main_v56 (A : Args) (hA : A.Real) : ∀ i, IsReal (val_main_v56 (F := Ideal) A.x1 A.x5 A.x7 A.x11 i) := fun i => by
  rw [val_main_v56_apply]
  exact isReal_dot (fun k => (val_main_v16 (F := Ideal) A.x1 A.x5 A.x7) (lidx_main_v56 i k)) (fun k => A.x11 (ridx_main_v56 i k)) (fun _ => (r_main_v16 A hA) _) (fun _ => (ax11 A hA) _)

/-- Every entry of a broadcast is an entry of the array it repeats. -/
theorem r_main_v57 (A : Args) (hA : A.Real) : ∀ i, IsReal (val_main_v57 (F := Ideal) A.x12 i) := fun i => by
  rw [val_main_v57_apply]
  exact (ax12 A hA) _

/-- Every entry of a broadcast is an entry of the array it repeats. -/
theorem r_main_v58 (A : Args) (hA : A.Real) : ∀ i, IsReal (val_main_v58 (F := Ideal) A.x12 i) := fun i => by
  rw [val_main_v58_apply]
  exact (r_main_v57 A hA) _

/-- An entrywise sum of finite arrays is finite. -/
theorem r_main_v59 (A : Args) (hA : A.Real) : ∀ i, IsReal (val_main_v59 (F := Ideal) A.x1 A.x5 A.x7 A.x11 A.x12 i) := fun i => by
  rw [val_main_v59_apply]
  exact ((r_main_v56 A hA) i).add ((r_main_v58 A hA) i)

/-- An array filled with a finite literal is finite. -/
theorem r_main_v60 (A : Args) (hA : A.Real) : ∀ i, IsReal (val_main_v60 (F := Ideal) i) := fun i => by
  rw [val_main_v60_apply, val_main_cst_12_apply]
  exact isReal_ofBits_half

/-- An entrywise product of finite arrays is finite. -/
theorem r_main_v61 (A : Args) (hA : A.Real) : ∀ i, IsReal (val_main_v61 (F := Ideal) A.x1 A.x5 A.x7 A.x11 A.x12 i) := fun i => by
  rw [val_main_v61_apply]
  exact ((r_main_v60 A hA) i).mul ((r_main_v59 A hA) i)

/-- The exponential of a finite array is finite. -/
theorem r_main_v62 (A : Args) (hA : A.Real) : ∀ i, IsReal (val_main_v62 (F := Ideal) A.x1 A.x5 A.x7 A.x11 A.x12 i) := fun i => by
  rw [val_main_v62_apply]
  exact isReal_exp ((r_main_v61 A hA) i)

/-- An entrywise product of finite arrays is finite. -/
theorem r_main_v63 (A : Args) (hA : A.Real) : ∀ i, IsReal (val_main_v63 (F := Ideal) A.x1 A.x5 A.x7 A.x9 A.x10 A.x11 A.x12 i) := fun i => by
  rw [val_main_v63_apply]
  exact ((r_main_v62 A hA) i).mul ((r_main_v55 A hA) i)

/-- An entrywise sum of finite arrays is finite. -/
theorem r_main_v64 (A : Args) (hA : A.Real) : ∀ i, IsReal (val_main_v64 (F := Ideal) A.x1 A.x4 A.x5 A.x7 A.x9 A.x10 A.x11 A.x12 i) := fun i => by
  rw [val_main_v64_apply]
  exact ((ax4 A hA) i).add ((r_main_v63 A hA) i)

/-! ## Their projection, normalised -/

/-- An entry of a matrix product of two finite matrices is a finite sum of finite products. -/
theorem r_main_v77 (A : Args) (hA : A.Real) : ∀ i, IsReal (val_main_v77 (F := Ideal) A.x1 A.x4 A.x5 A.x6 A.x7 A.x8 A.x9 A.x10 A.x11 A.x12 i) := fun i => by
  rw [val_main_v77_apply]
  exact isReal_dot (fun k => (val_main_v64 (F := Ideal) A.x1 A.x4 A.x5 A.x7 A.x9 A.x10 A.x11 A.x12) (lidx_main_v77 i k)) (fun k => (val_main_v15 (F := Ideal) A.x6 A.x8) (ridx_main_v77 i k)) (fun _ => (r_main_v64 A hA) _) (fun _ => (r_main_v15 A hA) _)

/-- An entrywise product of finite arrays is finite. -/
theorem r_main_call6_v0 (A : Args) (hA : A.Real) : ∀ i, IsReal (val_main_call6_v0 (F := Ideal) A.x1 A.x4 A.x5 A.x6 A.x7 A.x8 A.x9 A.x10 A.x11 A.x12 i) := fun i => by
  rw [val_main_call6_v0_apply]
  exact ((r_main_v77 A hA) i).mul ((r_main_v77 A hA) i)

/-- A row's sum of squares, started from zero, is finite … -/
theorem r_main_call6_v1 (A : Args) (hA : A.Real) : ∀ i, IsReal (val_main_call6_v1 (F := Ideal) A.x1 A.x4 A.x5 A.x6 A.x7 A.x8 A.x9 A.x10 A.x11 A.x12 i) := fun i => by
  rw [val_main_call6_v1_apply]
  exact isReal_sum_init _ (fun k => (val_main_call6_v0 (F := Ideal) A.x1 A.x4 A.x5 A.x6 A.x7 A.x8 A.x9 A.x10 A.x11 A.x12) (idx_main_call6_v1 i k)) isReal_ofBits_zero (fun _ => (r_main_call6_v0 A hA) _)
/-- … and nonnegative. -/
theorem nn_main_call6_v1 (A : Args) (hA : A.Real) : ∀ i, 0 ≤ val_main_call6_v1 (F := Ideal) A.x1 A.x4 A.x5 A.x6 A.x7 A.x8 A.x9 A.x10 A.x11 A.x12 i := fun i => by
  rw [val_main_call6_v1_apply]
  exact sumsq_nonneg _ (fun k => (val_main_v77 (F := Ideal) A.x1 A.x4 A.x5 A.x6 A.x7 A.x8 A.x9 A.x10 A.x11 A.x12) (idx_main_call6_v1 i k)) ofBits_zero_eq (fun _ => (r_main_v77 A hA) _)

/-- Every entry of a broadcast is an entry of the array it repeats. -/
theorem r_main_call6_v2 (A : Args) (hA : A.Real) : ∀ i, IsReal (val_main_call6_v2 (F := Ideal) A.x1 A.x4 A.x5 A.x6 A.x7 A.x8 A.x9 A.x10 A.x11 A.x12 i) := fun i => by
  rw [val_main_call6_v2_apply]
  exact (r_main_call6_v1 A hA) _
/-- It is nonnegative because the array it repeats is. -/
theorem nn_main_call6_v2 (A : Args) (hA : A.Real) : ∀ i, 0 ≤ val_main_call6_v2 (F := Ideal) A.x1 A.x4 A.x5 A.x6 A.x7 A.x8 A.x9 A.x10 A.x11 A.x12 i := fun i => by
  rw [val_main_call6_v2_apply]
  exact nn_main_call6_v1 A hA _

/-- The square root of a finite nonnegative array is finite. -/
theorem r_main_v78 (A : Args) (hA : A.Real) : ∀ i, IsReal (val_main_v78 (F := Ideal) A.x1 A.x4 A.x5 A.x6 A.x7 A.x8 A.x9 A.x10 A.x11 A.x12 i) := fun i => by
  rw [val_main_v78_apply]
  exact isReal_sqrt ((r_main_call6_v2 A hA) i) (nn_main_call6_v2 A hA i)

/-- The floor of the norm, repeated along the rows, is finite … -/
theorem r_main_call7_v1 (A : Args) (hA : A.Real) : ∀ i, IsReal (val_main_call7_v1 (F := Ideal) i) := fun i => by
  rw [val_main_call7_v1_apply, val_main_call7_v0_apply, val_main_cst_18_apply]
  exact isReal_ofBits_floor
/-- … and positive. -/
theorem pos_main_call7_v1 (A : Args) (hA : A.Real) : ∀ i, 0 < val_main_call7_v1 (F := Ideal) i := fun i => by
  rw [val_main_call7_v1_apply, val_main_call7_v0_apply, val_main_cst_18_apply]
  exact ofBits_floor_pos

/-- The larger of the floor and the norm is finite … -/
theorem r_main_v79 (A : Args) (hA : A.Real) : ∀ i, IsReal (val_main_v79 (F := Ideal) A.x1 A.x4 A.x5 A.x6 A.x7 A.x8 A.x9 A.x10 A.x11 A.x12 i) := fun i => by
  rw [val_main_v79_apply]
  exact isReal_max ((r_main_call7_v1 A hA) i) ((r_main_v78 A hA) i)
/-- … and, being at least the positive floor, not zero. -/
theorem ne_main_v79 (A : Args) (hA : A.Real) : ∀ i, val_main_v79 (F := Ideal) A.x1 A.x4 A.x5 A.x6 A.x7 A.x8 A.x9 A.x10 A.x11 A.x12 i ≠ 0 := fun i => by
  rw [val_main_v79_apply]
  exact max_lit_ne_zero (pos_main_call7_v1 A hA i)

/-- Every entry of a broadcast is an entry of the array it repeats. -/
theorem r_main_v80 (A : Args) (hA : A.Real) : ∀ i, IsReal (val_main_v80 (F := Ideal) A.x1 A.x4 A.x5 A.x6 A.x7 A.x8 A.x9 A.x10 A.x11 A.x12 i) := fun i => by
  rw [val_main_v80_apply]
  exact (r_main_v79 A hA) _
/-- It is nowhere zero because the array it repeats is nowhere zero. -/
theorem ne_main_v80 (A : Args) (hA : A.Real) : ∀ i, val_main_v80 (F := Ideal) A.x1 A.x4 A.x5 A.x6 A.x7 A.x8 A.x9 A.x10 A.x11 A.x12 i ≠ 0 := fun i => by
  rw [val_main_v80_apply]
  exact ne_main_v79 A hA _

/-- A finite array divided entrywise by a finite array that is nowhere zero is finite. -/
theorem r_main_v81 (A : Args) (hA : A.Real) : ∀ i, IsReal (val_main_v81 (F := Ideal) A.x1 A.x4 A.x5 A.x6 A.x7 A.x8 A.x9 A.x10 A.x11 A.x12 i) := fun i => by
  rw [val_main_v81_apply]
  exact isReal_div ((r_main_v77 A hA) i) ((r_main_v80 A hA) i) (ne_main_v80 A hA i)

/-! ## All key rows -/

/-- Two finite arrays stacked along the rows form a finite array. -/
theorem r_main_v83 (A : Args) (hA : A.Real) : ∀ i, IsReal (val_main_v83 (F := Ideal) A.x1 A.x4 A.x5 A.x6 A.x7 A.x8 A.x9 A.x10 A.x11 A.x12 i) := fun i => by
  unfold val_main_v83
  refine isReal_concatenate _ _ _ (fun p hp => ?_) i
  rcases List.mem_cons.1 hp with rfl | hp
  · exact (r_main_v21 A hA)
  rcases List.mem_cons.1 hp with rfl | hp
  · exact (r_main_v81 A hA)
  cases hp

end Cert.Bridge

end
-- ==== Proof.RealChain.lean ====
import proofs.«163235_j22531398435254_2_alg».proof.Proof.RealQ
import proofs.«163235_j22531398435254_2_alg».proof.Proof.RealK

/-!
# The positive-pair logits and the queue logits are real numbers

The positive-pair logit of a row is the sum over the 256 features of the products of the row's normalised query and
key entries; the queue logits are the products of the normalised query rows with the queue. Both are finite sums of
products of finite values.
-/

noncomputable section

namespace Cert.Bridge

open LinComb Idealize.ShloMosaic Cert.ReferenceIdeal Cert.ReferenceIdeal.ReadP

/-- An entrywise product of finite arrays is finite. -/
theorem r_main_v85 (A : Args) (hA : A.Real) : ∀ i, IsReal (val_main_v85 (F := Ideal) A.x0 A.x1 A.x3 A.x4 A.x5 A.x6 A.x7 A.x8 A.x9 A.x10 A.x11 A.x12 i) := fun i => by
  rw [val_main_v85_apply]
  exact ((r_main_v82 A hA) i).mul ((r_main_v83 A hA) i)

/-- A row sum of a finite array, started from zero, is finite. -/
theorem r_main_v86 (A : Args) (hA : A.Real) : ∀ i, IsReal (val_main_v86 (F := Ideal) A.x0 A.x1 A.x3 A.x4 A.x5 A.x6 A.x7 A.x8 A.x9 A.x10 A.x11 A.x12 i) := fun i => by
  rw [val_main_v86_apply]
  exact isReal_sum_init _ (fun k => (val_main_v85 (F := Ideal) A.x0 A.x1 A.x3 A.x4 A.x5 A.x6 A.x7 A.x8 A.x9 A.x10 A.x11 A.x12) (idx_main_v86 i k)) isReal_ofBits_zero (fun _ => (r_main_v85 A hA) _)

/-- Every entry of a broadcast is an entry of the array it repeats. -/
theorem r_main_v87 (A : Args) (hA : A.Real) : ∀ i, IsReal (val_main_v87 (F := Ideal) A.x0 A.x1 A.x3 A.x4 A.x5 A.x6 A.x7 A.x8 A.x9 A.x10 A.x11 A.x12 i) := fun i => by
  rw [val_main_v87_apply]
  exact (r_main_v86 A hA) _

/-- The positive-pair logits are real numbers: each is a finite sum of products of a finite query entry and a
    finite key entry. -/
theorem lPos_real (A : Args) (hA : A.Real) (i : Cert.ReferenceIdeal.S256x1.Idx) : ∃ t : ℝ, A.lPos i = (t : EReal) :=
  r_main_v87 A hA i

/-- The logits against the queue are real numbers: each is a finite sum of products of a finite query entry and a
    finite queue entry. -/
theorem dot3_real (A : Args) (hA : A.Real) (i : Cert.ReferenceIdeal.S256x64000.Idx) : ∃ t : ℝ, A.dot3 i = (t : EReal) :=
  r_main_v88 A hA i

end Cert.Bridge

end
-- ==== Proof.RefLogits.lean ====
import proofs.«163235_j22531398435254_2_alg».proof.Proof.Chain
import proofs.«163235_j22531398435254_2_alg».proof.Proof.RowMath
import proofs.«163235_j22531398435254_2_alg».proof.Proof.RefRow
import proofs.«163235_j22531398435254_2_alg».proof.Proof.RealChain

/-!
# The reference's first result is the specification

Row by row: the reference assembles the row, divides it by the temperature and takes the shifted
log-softmax; with a real maximum that is the plain log-softmax of the row scaled by the reciprocal
temperature, which is how the specification is written.
-/

noncomputable section

namespace Cert.Bridge

open Idealize.ShloMosaic Idealize.ShloMosaic.ValueIdx Cert.ReferenceIdeal

/-- One row of the reference's first result is the specification's row: the reference's row is the shifted
    log-softmax of the assembled row divided by the temperature, the positive-pair logit and every queue logit
    are real numbers, and an own-class logit is either -∞ or one of the queue logits, hence never +∞. -/
theorem logitsRef_row (A : Args) (hA : A.Real) (r : Fin 256) (j : Fin 64001) :
    A.logitsRef (ix2 r j) = rowOut (A.aRow r) (A.bRow r) (A.dRow r) (A.labRow r) j := by
  have ha : ∃ t : ℝ, A.aRow r = (t : EReal) := lPos_real A hA (ix2 r (0 : Fin 1))
  have hd : ∀ q, ∃ t : ℝ, A.dRow r q = (t : EReal) := fun q => dot3_real A hA (ix2 r q)
  have hb : ∀ q, A.bRow r q ≠ ⊤ := by
    intro q
    rcases bRow_cases A r q with h | ⟨q', h⟩
    · rw [h]; exact bot_ne_top
    · obtain ⟨t, ht⟩ := hd q'
      rw [h, ht]; exact EReal.coe_ne_top t
  rw [ref_row A r j]
  exact congrFun (refRow_eq_rowOut (A.aRow r) (A.bRow r) (A.dRow r) (A.labRow r) ha hb hd) j

/-- Under real arguments the reference's first result is the specification, entry by entry. -/
theorem logitsRef_eq_logits (A : Args) (hA : A.Real) : A.logitsRef = A.logits := by
  funext i
  -- an index of the result is the pair of its row and its column
  have hi : i = ix2 (⟨(i 0).val, idx2_lt0 i⟩ : Fin 256) (⟨(i 1).val, idx2_lt1 i⟩ : Fin 64001) := eq_ix2 i
  calc A.logitsRef i
      = A.logitsRef (ix2 (⟨(i 0).val, idx2_lt0 i⟩ : Fin 256) (⟨(i 1).val, idx2_lt1 i⟩ : Fin 64001)) :=
        congrArg A.logitsRef hi
    _ = rowOut (A.aRow ⟨(i 0).val, idx2_lt0 i⟩) (A.bRow ⟨(i 0).val, idx2_lt0 i⟩) (A.dRow ⟨(i 0).val, idx2_lt0 i⟩)
          (A.labRow ⟨(i 0).val, idx2_lt0 i⟩) ⟨(i 1).val, idx2_lt1 i⟩ :=
        logitsRef_row A hA ⟨(i 0).val, idx2_lt0 i⟩ ⟨(i 1).val, idx2_lt1 i⟩
    _ = A.logits i := rfl

end Cert.Bridge

end
-- ==== Proof.PreReal.lean ====
import proofs.«163235_j22531398435254_2_alg».proof.Proof.Chain
import proofs.«163235_j22531398435254_2_alg».proof.Proof.LibLinComb
import proofs.«163235_j22531398435254_2_alg».proof.Pre_finite_inputs
import proofs.«163235_j22531398435254_2_alg».proof.Proof.Gen.Pre_finite_inputs
import Idealize.ShloMosaic.Lib.ReduceAll

/-!
# The finiteness precondition says that every floating-point argument entry is a real number

The precondition is the conjunction, over the thirteen floating-point arguments, of "every entry has absolute value
below +∞". On the extended reals the absolute value of either infinity is +∞, so an entry whose absolute value is
below +∞ is the image of a real number.
-/

noncomputable section

namespace Cert.Bridge

open LinComb Idealize.ShloMosaic

/-- The scalar shape has exactly one index. -/
instance : Subsingleton Cert.Pre_finite_inputs.S_.Idx := ⟨fun a b => funext fun d => d.elim0⟩

/-- The single-precision word with all exponent bits set and no fraction bit denotes +∞. -/
theorem ofBits_inf : Ideal.ofBits .f32 0x7F800000#32 = ⊤ := by simp [Ideal.ofBits, Ideal.ieee]

/-- A comparison bit that is set says the compared statement holds. -/
theorem of_ofBool_decide {p : Prop} {inst : Decidable p} (h : BitVec.ofBool (@decide p inst) = 1#1) : p := by
  by_contra hp
  rw [decide_eq_false hp] at h
  exact absurd h (by decide)

/-- One "all entries have absolute value below +∞" test that came out true says every entry is a real number. -/
theorem all_finite {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] bc (constant (F := Ideal) Cert.Pre_finite_inputs.S_ .f32 0x7F800000#32)))
          (constantI Cert.Pre_finite_inputs.S_ 1 1#1) hr hu ValueIdx.ix0 = 1#1) (i : s.Idx) :
    ∃ t : ℝ, x i = (t : EReal) := by
  have h1 := Host.reduce_andi_all _ _ hr hu _ e i
  have h2 : Ideal.cmp .olt (max (x i) (-(x i))) (Ideal.ofBits .f32 0x7F800000#32) = 1#1 := h1
  rw [ofBits_inf] at h2
  exact isReal_of_abs_lt_top (of_ofBool_decide h2)

/-- The precondition, all ones, gives: every entry of every floating-point argument is a real number. -/
theorem real_of_pre [hPre_finite_inputs : Cert.Pre_finite_inputs.Facts] (A : Args)
    (h : Cert.Pre_finite_inputs.fn (F := Ideal) A.x0 A.x1 A.x2 A.x3 A.x4 A.x5 A.x6 A.x7 A.x8 A.x9 A.x10 A.x11 A.x12 A.x13 = (fun _ => 1#1)) : A.Real := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h0, h_x13⟩ := IntOp.andi_eq_one.1 h0
  obtain ⟨h0, h_x12⟩ := IntOp.andi_eq_one.1 h0
  obtain ⟨h0, h_x11⟩ := IntOp.andi_eq_one.1 h0
  obtain ⟨h0, h_x10⟩ := IntOp.andi_eq_one.1 h0
  obtain ⟨h0, h_x9⟩ := IntOp.andi_eq_one.1 h0
  obtain ⟨h0, h_x8⟩ := IntOp.andi_eq_one.1 h0
  obtain ⟨h0, h_x7⟩ := IntOp.andi_eq_one.1 h0
  obtain ⟨h0, h_x6⟩ := IntOp.andi_eq_one.1 h0
  obtain ⟨h0, h_x5⟩ := IntOp.andi_eq_one.1 h0
  obtain ⟨h0, h_x4⟩ := IntOp.andi_eq_one.1 h0
  obtain ⟨h0, h_x3⟩ := IntOp.andi_eq_one.1 h0
  obtain ⟨h0, h_x1⟩ := IntOp.andi_eq_one.1 h0
  exact ⟨all_finite _ _ _ _ h0,
    all_finite _ _ _ _ h_x1,
    all_finite _ _ _ _ h_x3,
    all_finite _ _ _ _ h_x4,
    all_finite _ _ _ _ h_x5,
    all_finite _ _ _ _ h_x6,
    all_finite _ _ _ _ h_x7,
    all_finite _ _ _ _ h_x8,
    all_finite _ _ _ _ h_x9,
    all_finite _ _ _ _ h_x10,
    all_finite _ _ _ _ h_x11,
    all_finite _ _ _ _ h_x12,
    all_finite _ _ _ _ h_x13⟩

end Cert.Bridge

end
-- ==== Proof.lean ====
import proofs.«163235_j22531398435254_2_alg».proof.Defs
import proofs.«163235_j22531398435254_2_alg».proof.Proof.Gen.Kernel
import proofs.«163235_j22531398435254_2_alg».proof.Proof.Gen.KernelIdeal
import proofs.«163235_j22531398435254_2_alg».proof.Proof.Gen.ReferenceIdeal
import proofs.«163235_j22531398435254_2_alg».proof.Proof.Gen.Pre_finite_inputs
import proofs.«163235_j22531398435254_2_alg».proof.Proof.ReadP
import proofs.«163235_j22531398435254_2_alg».proof.Proof.RefRun
import proofs.«163235_j22531398435254_2_alg».proof.Proof.KernelFrameP
import proofs.«163235_j22531398435254_2_alg».proof.Proof.FrameP
import proofs.«163235_j22531398435254_2_alg».proof.Proof.KernelRun
import proofs.«163235_j22531398435254_2_alg».proof.Proof.KernelLogits
import proofs.«163235_j22531398435254_2_alg».proof.Proof.KernelExit
import proofs.«163235_j22531398435254_2_alg».proof.Proof.KernelExitKl
import proofs.«163235_j22531398435254_2_alg».proof.Proof.RefLogits
import proofs.«163235_j22531398435254_2_alg».proof.Proof.PreReal
import Idealize.ShloMosaic.Adequacy
import Idealize.ShloMosaic.Init

/-!
# The certificate

The kernel program computes the query and key rows, the positive-pair logits and the labels on the host exactly as
the reference does; its first kernel is the matrix product of the query rows with the queue, its second kernel the
label-indexed removal of one class block fused with a log-softmax. At the exact-arithmetic reading both programs'
first result is, row by row, the log-softmax of the row (positive-pair logit, own-class logits, all other classes'
logits in queue order) scaled by the reciprocal temperature; the kernel scales by the named constant 1 / f32(0.07),
the reference divides by f32(0.07). The two spellings of log-softmax, x − (log S + M) and (x − M) − log S, agree because
the row's maximum M is a real number: the positive-pair logit and the queue logits are real when the inputs are
finite, and an own-class logit is a queue logit or −∞. The other three results are computed by the same host
operations in both programs.
-/

noncomputable section

namespace Cert.Proof

open Idealize.ShloMosaic Idealize.ShloMosaic.TcCoe Idealize.SL.Sem

/-- The word-level kernel program runs and leaves its arguments as launched. -/
theorem frame_p : Cert.frame_Kernel (hKernel := Cert.Kernel.Gen.facts) (hPre_finite_inputs := Cert.Pre_finite_inputs.Gen.facts) :=
  fun m ρ _ => Cert.Kernel.GenP.frame m ρ

/-- The idealized kernel program runs and leaves its arguments as launched. -/
theorem frame_pi : Cert.frame_KernelIdeal (hKernelIdeal := Cert.KernelIdeal.Gen.facts) (hPre_finite_inputs := Cert.Pre_finite_inputs.Gen.facts) :=
  fun m ρ _ => Cert.KernelIdeal.GenP.frame m ρ

/-- The idealized reference runs and leaves its arguments as launched: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.RunValue.run_vals m ρ)

/-- The three places where the kernel's folded reciprocal temperature was named: the name denotes 1 / f32(0.07),
    and the printed word is that value rounded to single precision. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "inv_temp" .f32 0x41649249#32 ((134217728 / 9395241 : ℝ) : EReal) rfl,
   IdealRules.named_const.statement Cert.KernelIdeal.κ "inv_temp" .f32 0x41649249#32 ((134217728 / 9395241 : ℝ) : EReal) rfl⟩

open Cert.KernelIdeal.HostValue in
/-- Both idealized programs, run from memories that agree on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.GenP.W23 m ρ c (Proc.devRef .tc Cert.KernelIdeal.main_v94),
    fun c => Cert.KernelIdeal.GenP.W23 m ρ c (Proc.devRef .tc Cert.KernelIdeal.main_v98),
    fun c => Cert.KernelIdeal.GenP.W23 m ρ c (Proc.devRef .tc Cert.KernelIdeal.main_v0),
    fun c => Cert.KernelIdeal.GenP.W23 m ρ c (Proc.devRef .tc Cert.KernelIdeal.main_v100),
    Cert.KernelIdeal.RunValue.run_named m ρ, ?_⟩
  refine (θ_run Cert.ReferenceIdeal.defs _ _).mono (fun r h c => ?_) (Cert.ReferenceIdeal.RunValue.run_vals m' ρ')
  obtain ⟨h0, h1, h2, h3, hargs⟩ := h c
  obtain ⟨e0, e1, e2, e3, e4, e5, e6, e7, e8, e9, e10, e11, e12, e13⟩ := hagree c
  have hreal : (argsOf m c).Real := Cert.Bridge.real_of_pre (argsOf m c) (hpre c)
  refine ⟨h0.trans ?_, h1.trans ?_, h2.trans ?_, h3.trans ?_, hargs⟩
  · rw [e0, e1, e2, e3, e4, e5, e6, e7, e8, e9, e10, e11, e12, e13]
    exact ((Cert.Bridge.logitsRef_eq_logits (argsOf m c) hreal).trans (exit_logits m ρ c).symm)
  · exact (exit_labels m ρ c).symm
  · rw [e0, e5]
    exact (exit_qf m ρ c).symm
  · rw [e0, e1, e5, e7, e9, e10, e11, e12]
    exact (exit_kl m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
